-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v205)) (v1 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_v215) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v275) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S20000x256 : Shape := ⟨2, ![20000, 256]⟩
abbrev S500000 : Shape := ⟨1, ![500000]⟩
abbrev S300000 : Shape := ⟨1, ![300000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg26 : FVec F S128x1 .f32) (main_arg27 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg26
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg27
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg22 : FVec F S128x128 .f32) (main_arg23 : FVec F S128 .f32) (main_arg24 : FVec F S128x128 .f32) (main_arg25 : FVec F S128 .f32) (main_arg26 : FVec F S128x1 .f32) (main_arg27 : FVec F S1 .f32) (main_v63 : IVec S_ 1) (main_v67 : IVec S_ 1) : IVec S_ 1 :=
  let main_v68 : IVec S_ 1 := andi main_v63 main_v67
  let main_v69 : FVec F S128x128 .f32 := Host.absf main_arg22
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg23
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg24
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg25
  let main_cst_32 : FVec F S_ .f32 := constant S_ .f32 0x7F800000#32
  fn_part5 (F := F) main_arg26 main_arg27 main_v83 main_v84 main_cst_32

def fn_part3 {F : FTy → Type} [FloatOps F] (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg19
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg20
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg21
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg22 main_arg23 main_arg24 main_arg25 main_arg26 main_arg27 main_v63 main_v67

def fn_part2 {F : FTy → Type} [FloatOps F] (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_v33 : IVec S_ 1) : IVec S_ 1 :=
  let main_v34 : FVec F S128 .f32 := Host.absf main_arg15
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg16
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg18
  let main_cst_18 : FVec F S_ .f32 := constant S_ .f32 0x7F800000#32
  let main_v50 : FVec F S128x128 .f32 := broadcastInDim S128x128 ![] bcast_S_S128x128 main_cst_18
  fn_part3 (F := F) main_arg19 main_arg20 main_arg21 main_arg22 main_arg23 main_arg24 main_arg25 main_arg26 main_arg27 main_v48 main_v49 main_v50

def fn_part1 {F : FTy → Type} [FloatOps F] (main_arg12 : FVec F S256x128 .f32) (main_arg13 : FVec F S128 .f32) (main_arg14 : FVec F S256x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg12
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg13
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg14
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_v33

def fn {F : FTy → Type} [FloatOps F] (main_arg0 : FVec F S50000x256 .f32) (main_arg1 : FVec F S20000x256 .f32) (main_arg2 : IVec S500000 32) (main_arg3 : IVec S500000 32) (main_arg4 : IVec S300000 32) (main_arg5 : IVec S300000 32) (main_arg6 : IVec S500000 32) (main_arg7 : IVec S500000 32) (main_arg8 : IVec S300000 32) (main_arg9 : IVec S300000 32) (main_arg10 : FVec F S256x128 .f32) (main_arg11 : FVec F S128 .f32) (main_arg12 : FVec F S256x128 .f32) (main_arg13 : FVec F S128 .f32) (main_arg14 : FVec F S256x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S256x128 .f32 := Host.absf main_arg10
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg11
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x256 : Shape := ⟨2, ![50000, 256]⟩
abbrev S20000x256 : Shape := ⟨2, ![20000, 256]⟩
abbrev S500000 : Shape := ⟨1, ![500000]⟩
abbrev S300000 : Shape := ⟨1, ![300000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S500000x1 : Shape := ⟨2, ![500000, 1]⟩
abbrev S300000x1 : Shape := ⟨2, ![300000, 1]⟩
abbrev S20000 : Shape := ⟨1, ![20000]⟩
abbrev S50000x1 : Shape := ⟨2, ![50000, 1]⟩
abbrev S50000x128 : Shape := ⟨2, ![50000, 128]⟩
abbrev S5000x256 : Shape := ⟨2, ![5000, 256]⟩
abbrev S5000x128 : Shape := ⟨2, ![5000, 128]⟩
abbrev S500000x128 : Shape := ⟨2, ![500000, 128]⟩
abbrev S20000x1 : Shape := ⟨2, ![20000, 1]⟩
abbrev S20000x128 : Shape := ⟨2, ![20000, 128]⟩
abbrev S300000x128 : Shape := ⟨2, ![300000, 128]⟩
abbrev S1x128 : Shape := ⟨2, ![1, 128]⟩
abbrev S1x1 : Shape := ⟨2, ![1, 1]⟩

abbrev nBuf : Space → Nat
  | .hbm => 312
  | .vmem => 72
  | .smem => 0
  | _ => 0

abbrev hbmTy0_0 (i : Nat) : BufTy := match i % 128 with
  | 0 => ⟨S50000x256, .f32⟩
  | 1 => ⟨S20000x256, .f32⟩
  | 2 => ⟨S500000, .i32⟩
  | 3 => ⟨S500000, .i32⟩
  | 4 => ⟨S300000, .i32⟩
  | 5 => ⟨S300000, .i32⟩
  | 6 => ⟨S500000, .i32⟩
  | 7 => ⟨S500000, .i32⟩
  | 8 => ⟨S300000, .i32⟩
  | 9 => ⟨S300000, .i32⟩
  | 10 => ⟨S256x128, .f32⟩
  | 11 => ⟨S128, .f32⟩
  | 12 => ⟨S256x128, .f32⟩
  | 13 => ⟨S128, .f32⟩
  | 14 => ⟨S256x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x1, .f32⟩
  | 27 => ⟨S1, .f32⟩
  | 28 => ⟨S_, .f32⟩
  | 29 => ⟨S500000, .f32⟩
  | 30 => ⟨S_, .f32⟩
  | 31 => ⟨S50000, .f32⟩
  | 32 => ⟨S500000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000, .f32⟩
  | 39 => ⟨S_, .f32⟩
  | 40 => ⟨S500000, .f32⟩
  | 41 => ⟨S_, .f32⟩
  | 42 => ⟨S50000, .f32⟩
  | 43 => ⟨S500000x1, .i32⟩
  | 44 => ⟨S50000, .f32⟩
  | 45 => ⟨S_, .f32⟩
  | 46 => ⟨S_, .f32⟩
  | 47 => ⟨S50000, .f32⟩
  | 48 => ⟨S50000, .f32⟩
  | 49 => ⟨S50000, .f32⟩
  | 50 => ⟨S_, .f32⟩
  | 51 => ⟨S500000, .f32⟩
  | 52 => ⟨S_, .f32⟩
  | 53 => ⟨S50000, .f32⟩
  | 54 => ⟨S500000x1, .i32⟩
  | 55 => ⟨S50000, .f32⟩
  | 56 => ⟨S_, .f32⟩
  | 57 => ⟨S_, .f32⟩
  | 58 => ⟨S50000, .f32⟩
  | 59 => ⟨S50000, .f32⟩
  | 60 => ⟨S50000, .f32⟩
  | 61 => ⟨S_, .f32⟩
  | 62 => ⟨S500000, .f32⟩
  | 63 => ⟨S_, .f32⟩
  | 64 => ⟨S50000, .f32⟩
  | 65 => ⟨S500000x1, .i32⟩
  | 66 => ⟨S50000, .f32⟩
  | 67 => ⟨S_, .f32⟩
  | 68 => ⟨S_, .f32⟩
  | 69 => ⟨S50000, .f32⟩
  | 70 => ⟨S50000, .f32⟩
  | 71 => ⟨S50000, .f32⟩
  | 72 => ⟨S_, .f32⟩
  | 73 => ⟨S300000, .f32⟩
  | 74 => ⟨S_, .f32⟩
  | 75 => ⟨S50000, .f32⟩
  | 76 => ⟨S300000x1, .i32⟩
  | 77 => ⟨S50000, .f32⟩
  | 78 => ⟨S_, .f32⟩
  | 79 => ⟨S_, .f32⟩
  | 80 => ⟨S50000, .f32⟩
  | 81 => ⟨S50000, .f32⟩
  | 82 => ⟨S50000, .f32⟩
  | 83 => ⟨S_, .f32⟩
  | 84 => ⟨S300000, .f32⟩
  | 85 => ⟨S_, .f32⟩
  | 86 => ⟨S20000, .f32⟩
  | 87 => ⟨S300000x1, .i32⟩
  | 88 => ⟨S20000, .f32⟩
  | 89 => ⟨S_, .f32⟩
  | 90 => ⟨S_, .f32⟩
  | 91 => ⟨S20000, .f32⟩
  | 92 => ⟨S20000, .f32⟩
  | 93 => ⟨S20000, .f32⟩
  | 94 => ⟨S_, .f32⟩
  | 95 => ⟨S300000, .f32⟩
  | 96 => ⟨S_, .f32⟩
  | 97 => ⟨S20000, .f32⟩
  | 98 => ⟨S300000x1, .i32⟩
  | 99 => ⟨S20000, .f32⟩
  | 100 => ⟨S_, .f32⟩
  | 101 => ⟨S_, .f32⟩
  | 102 => ⟨S20000, .f32⟩
  | 103 => ⟨S20000, .f32⟩
  | 104 => ⟨S20000, .f32⟩
  | 105 => ⟨S_, .f32⟩
  | 106 => ⟨S300000, .f32⟩
  | 107 => ⟨S_, .f32⟩
  | 108 => ⟨S50000, .f32⟩
  | 109 => ⟨S300000x1, .i32⟩
  | 110 => ⟨S50000, .f32⟩
  | 111 => ⟨S_, .f32⟩
  | 112 => ⟨S_, .f32⟩
  | 113 => ⟨S50000, .f32⟩
  | 114 => ⟨S50000, .f32⟩
  | 115 => ⟨S50000, .f32⟩
  | 116 => ⟨S50000x1, .f32⟩
  | 117 => ⟨S50000x256, .f32⟩
  | 118 => ⟨S50000x256, .f32⟩
  | 119 => ⟨S50000x128, .f32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S50000x256, .f32⟩

abbrev hbmTy0_1 (i : Nat) : BufTy := match i % 128 with
  | 0 => ⟨S500000x128, .f32⟩
  | 1 => ⟨S_, .f32⟩
  | 2 => ⟨S50000x128, .f32⟩
  | 3 => ⟨S500000x1, .i32⟩
  | 4 => ⟨S50000x128, .f32⟩
  | 5 => ⟨S50000x1, .f32⟩
  | 6 => ⟨S50000x128, .f32⟩
  | 7 => ⟨S50000x128, .f32⟩
  | 8 => ⟨S50000x1, .f32⟩
  | 9 => ⟨S50000x256, .f32⟩
  | 10 => ⟨S50000x256, .f32⟩
  | 11 => ⟨S50000x128, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x128, .f32⟩
  | 21 => ⟨S_, .f32⟩
  | 22 => ⟨S50000x128, .f32⟩
  | 23 => ⟨S500000x1, .i32⟩
  | 24 => ⟨S50000x128, .f32⟩
  | 25 => ⟨S50000x1, .f32⟩
  | 26 => ⟨S50000x128, .f32⟩
  | 27 => ⟨S50000x128, .f32⟩
  | 28 => ⟨S20000x1, .f32⟩
  | 29 => ⟨S20000x256, .f32⟩
  | 30 => ⟨S20000x256, .f32⟩
  | 31 => ⟨S20000x128, .f32⟩
  | 32 => ⟨S_, .i32⟩
  | 33 => ⟨S300000, .i32⟩
  | 34 => ⟨S300000, .i1⟩
  | 35 => ⟨S_, .i32⟩
  | 36 => ⟨S300000, .i32⟩
  | 37 => ⟨S300000, .i32⟩
  | 38 => ⟨S300000, .i32⟩
  | 39 => ⟨S300000x1, .i32⟩
  | 40 => ⟨S300000x128, .f32⟩
  | 41 => ⟨S_, .f32⟩
  | 42 => ⟨S50000x128, .f32⟩
  | 43 => ⟨S300000x1, .i32⟩
  | 44 => ⟨S50000x128, .f32⟩
  | 45 => ⟨S50000x1, .f32⟩
  | 46 => ⟨S50000x128, .f32⟩
  | 47 => ⟨S50000x128, .f32⟩
  | 48 => ⟨S50000x1, .f32⟩
  | 49 => ⟨S50000x256, .f32⟩
  | 50 => ⟨S50000x256, .f32⟩
  | 51 => ⟨S50000x128, .f32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x128, .f32⟩
  | 61 => ⟨S_, .f32⟩
  | 62 => ⟨S20000x128, .f32⟩
  | 63 => ⟨S300000x1, .i32⟩
  | 64 => ⟨S20000x128, .f32⟩
  | 65 => ⟨S20000x1, .f32⟩
  | 66 => ⟨S20000x128, .f32⟩
  | 67 => ⟨S20000x128, .f32⟩
  | 68 => ⟨S1x128, .f32⟩
  | 69 => ⟨S1x128, .f32⟩
  | 70 => ⟨S1x128, .f32⟩
  | 71 => ⟨S50000x128, .f32⟩
  | 72 => ⟨S1x128, .f32⟩
  | 73 => ⟨S20000x128, .f32⟩
  | 74 => ⟨S50000x1, .f32⟩
  | 75 => ⟨S50000x128, .f32⟩
  | 76 => ⟨S50000x128, .f32⟩
  | 77 => ⟨S50000x128, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x128, .f32⟩
  | 87 => ⟨S_, .f32⟩
  | 88 => ⟨S50000x128, .f32⟩
  | 89 => ⟨S500000x1, .i32⟩
  | 90 => ⟨S50000x128, .f32⟩
  | 91 => ⟨S50000x1, .f32⟩
  | 92 => ⟨S50000x128, .f32⟩
  | 93 => ⟨S50000x128, .f32⟩
  | 94 => ⟨S50000x1, .f32⟩
  | 95 => ⟨S50000x128, .f32⟩
  | 96 => ⟨S50000x128, .f32⟩
  | 97 => ⟨S50000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S_, .f32⟩
  | 108 => ⟨S50000x128, .f32⟩
  | 109 => ⟨S500000x1, .i32⟩
  | 110 => ⟨S50000x128, .f32⟩
  | 111 => ⟨S50000x1, .f32⟩
  | 112 => ⟨S50000x128, .f32⟩
  | 113 => ⟨S50000x128, .f32⟩
  | 114 => ⟨S20000x1, .f32⟩
  | 115 => ⟨S20000x128, .f32⟩
  | 116 => ⟨S20000x128, .f32⟩
  | 117 => ⟨S20000x128, .f32⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S300000x128, .f32⟩
  | 127 => ⟨S_, .f32⟩
  | _ => ⟨S50000x256, .f32⟩

abbrev hbmTy0_2 (i : Nat) : BufTy := match i % 128 with
  | 0 => ⟨S50000x128, .f32⟩
  | 1 => ⟨S300000x1, .i32⟩
  | 2 => ⟨S50000x128, .f32⟩
  | 3 => ⟨S50000x1, .f32⟩
  | 4 => ⟨S50000x128, .f32⟩
  | 5 => ⟨S50000x128, .f32⟩
  | 6 => ⟨S50000x1, .f32⟩
  | 7 => ⟨S50000x128, .f32⟩
  | 8 => ⟨S50000x128, .f32⟩
  | 9 => ⟨S50000x128, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S300000x128, .f32⟩
  | 19 => ⟨S_, .f32⟩
  | 20 => ⟨S20000x128, .f32⟩
  | 21 => ⟨S300000x1, .i32⟩
  | 22 => ⟨S20000x128, .f32⟩
  | 23 => ⟨S20000x1, .f32⟩
  | 24 => ⟨S20000x128, .f32⟩
  | 25 => ⟨S20000x128, .f32⟩
  | 26 => ⟨S1x128, .f32⟩
  | 27 => ⟨S1x128, .f32⟩
  | 28 => ⟨S1x128, .f32⟩
  | 29 => ⟨S50000x128, .f32⟩
  | 30 => ⟨S1x128, .f32⟩
  | 31 => ⟨S20000x128, .f32⟩
  | 32 => ⟨S50000x1, .f32⟩
  | 33 => ⟨S1x1, .f32⟩
  | 34 => ⟨S50000x1, .f32⟩
  | 35 => ⟨S50000x1, .f32⟩
  | 36 => ⟨S50000x1, .f32⟩
  | 37 => ⟨S50000x1, .f32⟩
  | 38 => ⟨S_, .f32⟩
  | 39 => ⟨S50000x1, .f32⟩
  | 40 => ⟨S50000x1, .f32⟩
  | 41 => ⟨S_, .f32⟩
  | 42 => ⟨S50000x1, .f32⟩
  | 43 => ⟨S50000x1, .f32⟩
  | 44 => ⟨S20000x1, .f32⟩
  | 45 => ⟨S1x1, .f32⟩
  | 46 => ⟨S20000x1, .f32⟩
  | 47 => ⟨S20000x1, .f32⟩
  | 48 => ⟨S20000x1, .f32⟩
  | 49 => ⟨S20000x1, .f32⟩
  | 50 => ⟨S_, .f32⟩
  | 51 => ⟨S20000x1, .f32⟩
  | 52 => ⟨S20000x1, .f32⟩
  | 53 => ⟨S_, .f32⟩
  | 54 => ⟨S20000x1, .f32⟩
  | 55 => ⟨S20000x1, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x256, .f32⟩
  | .local _ .vmem, ⟨16, _⟩ => ⟨S5000x256, .f32⟩
  | .local _ .vmem, ⟨17, _⟩ => ⟨S256x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v4 : Ref sig .tc := ⟨.hbm, 37, rfl⟩
abbrev main_v5 : Ref sig .tc := ⟨.hbm, 38, rfl⟩
abbrev main_cst_2 : Ref sig .tc := ⟨.hbm, 39, rfl⟩
abbrev main_v6 : Ref sig .tc := ⟨.hbm, 40, rfl⟩
abbrev main_cst_3 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_v10 : Ref sig .tc := ⟨.hbm, 48, rfl⟩
abbrev main_v11 : Ref sig .tc := ⟨.hbm, 49, rfl⟩
abbrev main_cst_5 : Ref sig .tc := ⟨.hbm, 50, rfl⟩
abbrev main_v12 : Ref sig .tc := ⟨.hbm, 51, rfl⟩
abbrev main_cst_6 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_7 : Ref sig .tc := ⟨.hbm, 56, rfl⟩
abbrev main_call2_v0 : Ref sig .tc := ⟨.hbm, 57, rfl⟩
abbrev main_call2_v1 : Ref sig .tc := ⟨.hbm, 58, rfl⟩
abbrev main_v16 : Ref sig .tc := ⟨.hbm, 59, rfl⟩
abbrev main_v17 : Ref sig .tc := ⟨.hbm, 60, rfl⟩
abbrev main_cst_8 : Ref sig .tc := ⟨.hbm, 61, rfl⟩
abbrev main_v18 : Ref sig .tc := ⟨.hbm, 62, rfl⟩
abbrev main_cst_9 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v22 : Ref sig .tc := ⟨.hbm, 70, rfl⟩
abbrev main_v23 : Ref sig .tc := ⟨.hbm, 71, rfl⟩
abbrev main_cst_11 : Ref sig .tc := ⟨.hbm, 72, rfl⟩
abbrev main_v24 : Ref sig .tc := ⟨.hbm, 73, rfl⟩
abbrev main_cst_12 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_cst_13 : Ref sig .tc := ⟨.hbm, 78, rfl⟩
abbrev main_call4_v0 : Ref sig .tc := ⟨.hbm, 79, rfl⟩
abbrev main_call4_v1 : Ref sig .tc := ⟨.hbm, 80, rfl⟩
abbrev main_v28 : Ref sig .tc := ⟨.hbm, 81, rfl⟩
abbrev main_v29 : Ref sig .tc := ⟨.hbm, 82, rfl⟩
abbrev main_cst_14 : Ref sig .tc := ⟨.hbm, 83, rfl⟩
abbrev main_v30 : Ref sig .tc := ⟨.hbm, 84, rfl⟩
abbrev main_cst_15 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_16 : Ref sig .tc := ⟨.hbm, 89, rfl⟩
abbrev main_call5_v0 : Ref sig .tc := ⟨.hbm, 90, rfl⟩
abbrev main_call5_v1 : Ref sig .tc := ⟨.hbm, 91, rfl⟩
abbrev main_v34 : Ref sig .tc := ⟨.hbm, 92, rfl⟩
abbrev main_v35 : Ref sig .tc := ⟨.hbm, 93, rfl⟩
abbrev main_cst_17 : Ref sig .tc := ⟨.hbm, 94, rfl⟩
abbrev main_v36 : Ref sig .tc := ⟨.hbm, 95, rfl⟩
abbrev main_cst_18 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_cst_19 : Ref sig .tc := ⟨.hbm, 100, rfl⟩
abbrev main_call6_v0 : Ref sig .tc := ⟨.hbm, 101, rfl⟩
abbrev main_call6_v1 : Ref sig .tc := ⟨.hbm, 102, rfl⟩
abbrev main_v40 : Ref sig .tc := ⟨.hbm, 103, rfl⟩
abbrev main_v41 : Ref sig .tc := ⟨.hbm, 104, rfl⟩
abbrev main_cst_20 : Ref sig .tc := ⟨.hbm, 105, rfl⟩
abbrev main_v42 : Ref sig .tc := ⟨.hbm, 106, rfl⟩
abbrev main_cst_21 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_22 : Ref sig .tc := ⟨.hbm, 111, rfl⟩
abbrev main_call7_v0 : Ref sig .tc := ⟨.hbm, 112, rfl⟩
abbrev main_call7_v1 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_c : Ref sig .tc := ⟨.hbm, 120, rfl⟩
abbrev main_v52 : Ref sig .tc := ⟨.hbm, 121, rfl⟩
abbrev main_v53 : Ref sig .tc := ⟨.hbm, 122, rfl⟩
abbrev main_c_23 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_24 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_c_25 : Ref sig .tc := ⟨.hbm, 140, rfl⟩
abbrev main_v69 : Ref sig .tc := ⟨.hbm, 141, rfl⟩
abbrev main_v70 : Ref sig .tc := ⟨.hbm, 142, rfl⟩
abbrev main_c_26 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_cst_27 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_c_28 : Ref sig .tc := ⟨.hbm, 160, rfl⟩
abbrev main_v86 : Ref sig .tc := ⟨.hbm, 161, rfl⟩
abbrev main_v87 : Ref sig .tc := ⟨.hbm, 162, rfl⟩
abbrev main_c_29 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_cst_30 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_c_31 : Ref sig .tc := ⟨.hbm, 180, rfl⟩
abbrev main_v103 : Ref sig .tc := ⟨.hbm, 181, rfl⟩
abbrev main_v104 : Ref sig .tc := ⟨.hbm, 182, rfl⟩
abbrev main_c_32 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_cst_33 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_c_34 : Ref sig .tc := ⟨.hbm, 206, rfl⟩
abbrev main_v126 : Ref sig .tc := ⟨.hbm, 207, rfl⟩
abbrev main_v127 : Ref sig .tc := ⟨.hbm, 208, rfl⟩
abbrev main_c_35 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_cst_36 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_c_37 : Ref sig .tc := ⟨.hbm, 226, rfl⟩
abbrev main_v143 : Ref sig .tc := ⟨.hbm, 227, rfl⟩
abbrev main_v144 : Ref sig .tc := ⟨.hbm, 228, rfl⟩
abbrev main_c_38 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_cst_39 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_c_40 : Ref sig .tc := ⟨.hbm, 246, rfl⟩
abbrev main_v160 : Ref sig .tc := ⟨.hbm, 247, rfl⟩
abbrev main_v161 : Ref sig .tc := ⟨.hbm, 248, rfl⟩
abbrev main_c_41 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_cst_42 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_c_43 : Ref sig .tc := ⟨.hbm, 266, rfl⟩
abbrev main_v177 : Ref sig .tc := ⟨.hbm, 267, rfl⟩
abbrev main_v178 : Ref sig .tc := ⟨.hbm, 268, rfl⟩
abbrev main_c_44 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_cst_45 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_cst_46 : Ref sig .tc := ⟨.hbm, 294, rfl⟩
abbrev main_v202 : Ref sig .tc := ⟨.hbm, 295, rfl⟩
abbrev main_v203 : Ref sig .tc := ⟨.hbm, 296, rfl⟩
abbrev main_cst_47 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_cst_48 : Ref sig .tc := ⟨.hbm, 306, rfl⟩
abbrev main_v212 : Ref sig .tc := ⟨.hbm, 307, rfl⟩
abbrev main_v213 : Ref sig .tc := ⟨.hbm, 308, rfl⟩
abbrev main_cst_49 : Ref sig .tc := ⟨.hbm, 309, rfl⟩
abbrev main_v214 : Ref sig .tc := ⟨.hbm, 310, rfl⟩
abbrev main_v215 : Ref sig .tc := ⟨.hbm, 311, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg6_0 : Ref sig .tc := ⟨.vmem, 29, rfl⟩
abbrev cc4_stg6_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg2_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg1_1 : Ref sig .tc := ⟨.vmem, 59, rfl⟩
abbrev cc10_stg2_0 : Ref sig .tc := ⟨.vmem, 60, rfl⟩
abbrev cc10_stg2_1 : Ref sig .tc := ⟨.vmem, 61, rfl⟩
abbrev cc10_stg3_0 : Ref sig .tc := ⟨.vmem, 62, rfl⟩
abbrev cc10_stg4_0 : Ref sig .tc := ⟨.vmem, 63, rfl⟩
abbrev cc10_stg5_0 : Ref sig .tc := ⟨.vmem, 64, rfl⟩
abbrev cc10_stg6_0 : Ref sig .tc := ⟨.vmem, 65, rfl⟩
abbrev cc10_stg6_1 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg2_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem4_0 : DmaSem sig := 27
abbrev cc4_sem5_0 : DmaSem sig := 28
abbrev cc4_sem6_0 : DmaSem sig := 29
abbrev cc4_sem6_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem1_1 : DmaSem sig := 59
abbrev cc10_sem2_0 : DmaSem sig := 60
abbrev cc10_sem2_1 : DmaSem sig := 61
abbrev cc10_sem3_0 : DmaSem sig := 62
abbrev cc10_sem4_0 : DmaSem sig := 63
abbrev cc10_sem5_0 : DmaSem sig := 64
abbrev cc10_sem6_0 : DmaSem sig := 65
abbrev cc10_sem6_1 : DmaSem sig := 66
abbrev cc11_sem0_0 : DmaSem sig := 67
abbrev cc11_sem0_1 : DmaSem sig := 68
abbrev cc11_sem1_0 : DmaSem sig := 69
abbrev cc11_sem2_0 : DmaSem sig := 70
abbrev cc11_sem2_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S5000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S20000 : S_.BroadcastsInDim S20000 (![] : Fin 0 → Fin S20000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S1x1_S20000x1_0_1 : S1x1.BroadcastsInDim S20000x1 (![0, 1] : Fin 2 → Fin S20000x1.rank)
  bcast_S_S20000x1 : S_.BroadcastsInDim S20000x1 (![] : Fin 0 → Fin S20000x1.rank)
  scatter_S50000_S500000x1_S500000_n_0_0_1_wf : ScatterDims.WF S50000 S500000x1 S500000 [] [0] [0] 1
  scatter_S50000_S300000x1_S300000_n_0_0_1_wf : ScatterDims.WF S50000 S300000x1 S300000 [] [0] [0] 1
  scatter_S20000_S300000x1_S300000_n_0_0_1_wf : ScatterDims.WF S20000 S300000x1 S300000 [] [0] [0] 1
  dot_S5000x256_S256x128_S5000x128_1_0_0_1_n_n_wf : DotDims.WF S5000x256 S256x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  gather_S20000x128_S300000x1_S300000x128_1_0_n_n_0_1_1128_wf : GatherDims.WF S20000x128 S300000x1 S300000x128 [1] [0] [] [0] [] 1 ![1, 128]
  scatter_S50000x128_S300000x1_S300000x128_1_0_0_1_wf : ScatterDims.WF S50000x128 S300000x1 S300000x128 [1] [0] [0] 1
  gather_S50000x128_S300000x1_S300000x128_1_0_n_n_0_1_1128_wf : GatherDims.WF S50000x128 S300000x1 S300000x128 [1] [0] [] [0] [] 1 ![1, 128]
  scatter_S20000x128_S300000x1_S300000x128_1_0_0_1_wf : ScatterDims.WF S20000x128 S300000x1 S300000x128 [1] [0] [0] 1
  dot_S5000x128_S128x128_S5000x128_1_0_0_1_n_n_wf : DotDims.WF S5000x128 S128x128 S5000x128 [1] [0] [0] [1] [] []
  dot_S50000x128_S128x1_S50000x1_1_0_0_1_n_n_wf : DotDims.WF S50000x128 S128x1 S50000x1 [1] [0] [0] [1] [] []
  dot_S20000x128_S128x1_S20000x1_1_0_0_1_n_n_wf : DotDims.WF S20000x128 S128x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S20000x256.size a
  hwx2_0 : ∀ i : grid2.Coords, EltTy.bits .f32 = 32 ∨ (Rect.block (s := S20000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S20000x128.size a
  hwx2_2 : ∀ i : grid2.Coords, EltTy.bits .f32 = 32 ∨ (Rect.block (s := S20000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S20000x128.size a
  hwx5_0 : ∀ i : grid5.Coords, EltTy.bits .f32 = 32 ∨ (Rect.block (s := S20000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S20000x128.size a
  hwx5_2 : ∀ i : grid5.Coords, EltTy.bits .f32 = 32 ∨ (Rect.block (s := S20000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S20000x128.size a
  hwx8_0 : ∀ i : grid8.Coords, EltTy.bits .f32 = 32 ∨ (Rect.block (s := S20000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S20000x128.size a
  hwx8_2 : ∀ i : grid8.Coords, EltTy.bits .f32 = 32 ∨ (Rect.block (s := S20000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x128.size a ≤ S50000x128.size a
  hwx10_6 : ∀ i : grid10.Coords, EltTy.bits .f32 = 32 ∨ (Rect.block (s := S50000x128) S5000x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S20000x128.size a
  hwx11_0 : ∀ i : grid11.Coords, EltTy.bits .f32 = 32 ∨ (Rect.block (s := S20000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S20000x128.size a
  hwx11_2 : ∀ i : grid11.Coords, EltTy.bits .f32 = 32 ∨ (Rect.block (s := S20000x128) S5000x128.size (cc11_transform_2 i) (hinb11_2 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

abbrev win0_0 : Pipeline.Window sig grid0 :=
  Pipeline.Window.ofSpec (Memref.whole main_v50) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v67) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v84) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v85) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v101) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v102) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v98) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v116) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v117) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v118) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v119) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v115) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v121) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v124) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg18) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v125) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v141) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg22) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v142) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v158) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg24) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v159) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v175) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg20) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v176) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v138) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v155) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v172) S5000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v190) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v191) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v192) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v193) S5000x128.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v189) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v194) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v195) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S50000x256 : Shape := ⟨2, ![50000, 256]⟩
abbrev S20000x256 : Shape := ⟨2, ![20000, 256]⟩
abbrev S500000 : Shape := ⟨1, ![500000]⟩
abbrev S300000 : Shape := ⟨1, ![300000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S50000x128 : Shape := ⟨2, ![50000, 128]⟩
abbrev S500000x128 : Shape := ⟨2, ![500000, 128]⟩
abbrev S1x128 : Shape := ⟨2, ![1, 128]⟩
abbrev S20000 : Shape := ⟨1, ![20000]⟩
abbrev S300000x1 : Shape := ⟨2, ![300000, 1]⟩
abbrev S20000x1 : Shape := ⟨2, ![20000, 1]⟩
abbrev S20000x128 : Shape := ⟨2, ![20000, 128]⟩
abbrev S300000x128 : Shape := ⟨2, ![300000, 128]⟩
abbrev S1x1 : Shape := ⟨2, ![1, 1]⟩

abbrev nBuf : Space → Nat
  | .hbm => 412
  | .vmem => 0
  | .smem => 0
  | _ => 0

abbrev hbmTy0_0 (i : Nat) : BufTy := match i % 128 with
  | 0 => ⟨S50000x256, .f32⟩
  | 1 => ⟨S20000x256, .f32⟩
  | 2 => ⟨S500000, .i32⟩
  | 3 => ⟨S500000, .i32⟩
  | 4 => ⟨S300000, .i32⟩
  | 5 => ⟨S300000, .i32⟩
  | 6 => ⟨S500000, .i32⟩
  | 7 => ⟨S500000, .i32⟩
  | 8 => ⟨S300000, .i32⟩
  | 9 => ⟨S300000, .i32⟩
  | 10 => ⟨S256x128, .f32⟩
  | 11 => ⟨S128, .f32⟩
  | 12 => ⟨S256x128, .f32⟩
  | 13 => ⟨S128, .f32⟩
  | 14 => ⟨S256x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x1, .f32⟩
  | 27 => ⟨S1, .f32⟩
  | 28 => ⟨S_, .f32⟩
  | 29 => ⟨S500000, .f32⟩
  | 30 => ⟨S_, .f32⟩
  | 31 => ⟨S50000, .f32⟩
  | 32 => ⟨S500000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S_, .f32⟩
  | 39 => ⟨S50000, .f32⟩
  | 40 => ⟨S500000x1, .i32⟩
  | 41 => ⟨S50000, .f32⟩
  | 42 => ⟨S_, .f32⟩
  | 43 => ⟨S_, .f32⟩
  | 44 => ⟨S50000, .f32⟩
  | 45 => ⟨S50000, .f32⟩
  | 46 => ⟨S50000, .f32⟩
  | 47 => ⟨S50000x1, .f32⟩
  | 48 => ⟨S50000x256, .f32⟩
  | 49 => ⟨S50000x256, .f32⟩
  | 50 => ⟨S50000x128, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S50000x128, .f32⟩
  | 62 => ⟨S500000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S500000, .f32⟩
  | 73 => ⟨S_, .f32⟩
  | 74 => ⟨S50000, .f32⟩
  | 75 => ⟨S500000x1, .i32⟩
  | 76 => ⟨S50000, .f32⟩
  | 77 => ⟨S_, .f32⟩
  | 78 => ⟨S_, .f32⟩
  | 79 => ⟨S50000, .f32⟩
  | 80 => ⟨S50000, .f32⟩
  | 81 => ⟨S_, .f32⟩
  | 82 => ⟨S50000, .f32⟩
  | 83 => ⟨S500000x1, .i32⟩
  | 84 => ⟨S50000, .f32⟩
  | 85 => ⟨S_, .f32⟩
  | 86 => ⟨S_, .f32⟩
  | 87 => ⟨S50000, .f32⟩
  | 88 => ⟨S50000, .f32⟩
  | 89 => ⟨S50000, .f32⟩
  | 90 => ⟨S50000x1, .f32⟩
  | 91 => ⟨S50000x256, .f32⟩
  | 92 => ⟨S50000x256, .f32⟩
  | 93 => ⟨S50000x128, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S50000x128, .f32⟩
  | 105 => ⟨S500000x1, .i32⟩
  | 106 => ⟨S50000x128, .f32⟩
  | 107 => ⟨S50000, .f32⟩
  | 108 => ⟨S50000x1, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S50000x128, .f32⟩
  | 115 => ⟨S_, .f32⟩
  | 116 => ⟨S300000, .f32⟩
  | 117 => ⟨S_, .f32⟩
  | 118 => ⟨S20000, .f32⟩
  | 119 => ⟨S300000x1, .i32⟩
  | 120 => ⟨S20000, .f32⟩
  | 121 => ⟨S_, .f32⟩
  | 122 => ⟨S_, .f32⟩
  | 123 => ⟨S20000, .f32⟩
  | 124 => ⟨S20000, .f32⟩
  | 125 => ⟨S_, .f32⟩
  | 126 => ⟨S50000, .f32⟩
  | 127 => ⟨S300000x1, .i32⟩
  | _ => ⟨S50000x256, .f32⟩

abbrev hbmTy0_1 (i : Nat) : BufTy := match i % 128 with
  | 0 => ⟨S50000, .f32⟩
  | 1 => ⟨S_, .f32⟩
  | 2 => ⟨S_, .f32⟩
  | 3 => ⟨S50000, .f32⟩
  | 4 => ⟨S50000, .f32⟩
  | 5 => ⟨S20000, .f32⟩
  | 6 => ⟨S20000x1, .f32⟩
  | 7 => ⟨S20000x256, .f32⟩
  | 8 => ⟨S20000x256, .f32⟩
  | 9 => ⟨S20000x128, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S300000x128, .f32⟩
  | 19 => ⟨S_, .f32⟩
  | 20 => ⟨S50000x128, .f32⟩
  | 21 => ⟨S300000x1, .i32⟩
  | 22 => ⟨S50000x128, .f32⟩
  | 23 => ⟨S50000, .f32⟩
  | 24 => ⟨S50000x1, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S50000x128, .f32⟩
  | 31 => ⟨S_, .f32⟩
  | 32 => ⟨S300000, .f32⟩
  | 33 => ⟨S_, .f32⟩
  | 34 => ⟨S50000, .f32⟩
  | 35 => ⟨S300000x1, .i32⟩
  | 36 => ⟨S50000, .f32⟩
  | 37 => ⟨S_, .f32⟩
  | 38 => ⟨S_, .f32⟩
  | 39 => ⟨S50000, .f32⟩
  | 40 => ⟨S50000, .f32⟩
  | 41 => ⟨S_, .f32⟩
  | 42 => ⟨S20000, .f32⟩
  | 43 => ⟨S300000x1, .i32⟩
  | 44 => ⟨S20000, .f32⟩
  | 45 => ⟨S_, .f32⟩
  | 46 => ⟨S_, .f32⟩
  | 47 => ⟨S20000, .f32⟩
  | 48 => ⟨S20000, .f32⟩
  | 49 => ⟨S50000, .f32⟩
  | 50 => ⟨S50000x1, .f32⟩
  | 51 => ⟨S50000x256, .f32⟩
  | 52 => ⟨S50000x256, .f32⟩
  | 53 => ⟨S50000x128, .f32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000x128, .f32⟩
  | 63 => ⟨S_, .f32⟩
  | 64 => ⟨S20000x128, .f32⟩
  | 65 => ⟨S300000x1, .i32⟩
  | 66 => ⟨S20000x128, .f32⟩
  | 67 => ⟨S20000, .f32⟩
  | 68 => ⟨S20000x1, .f32⟩
  | 69 => ⟨S20000x128, .f32⟩
  | 70 => ⟨S20000x128, .f32⟩
  | 71 => ⟨S1x128, .f32⟩
  | 72 => ⟨S20000x128, .f32⟩
  | 73 => ⟨S20000x128, .f32⟩
  | 74 => ⟨S_, .f32⟩
  | 75 => ⟨S50000x128, .f32⟩
  | 76 => ⟨S50000x128, .f32⟩
  | 77 => ⟨S_, .f32⟩
  | 78 => ⟨S20000x128, .f32⟩
  | 79 => ⟨S20000x128, .f32⟩
  | 80 => ⟨S_, .f32⟩
  | 81 => ⟨S500000, .f32⟩
  | 82 => ⟨S_, .f32⟩
  | 83 => ⟨S50000, .f32⟩
  | 84 => ⟨S500000x1, .i32⟩
  | 85 => ⟨S50000, .f32⟩
  | 86 => ⟨S_, .f32⟩
  | 87 => ⟨S_, .f32⟩
  | 88 => ⟨S50000, .f32⟩
  | 89 => ⟨S50000, .f32⟩
  | 90 => ⟨S_, .f32⟩
  | 91 => ⟨S50000, .f32⟩
  | 92 => ⟨S500000x1, .i32⟩
  | 93 => ⟨S50000, .f32⟩
  | 94 => ⟨S_, .f32⟩
  | 95 => ⟨S_, .f32⟩
  | 96 => ⟨S50000, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S50000x128, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x128, .f32⟩
  | 112 => ⟨S_, .f32⟩
  | 113 => ⟨S50000x128, .f32⟩
  | 114 => ⟨S500000x1, .i32⟩
  | 115 => ⟨S50000x128, .f32⟩
  | 116 => ⟨S50000, .f32⟩
  | 117 => ⟨S50000x1, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S500000, .f32⟩
  | 125 => ⟨S_, .f32⟩
  | 126 => ⟨S50000, .f32⟩
  | 127 => ⟨S500000x1, .i32⟩
  | _ => ⟨S50000x256, .f32⟩

abbrev hbmTy0_2 (i : Nat) : BufTy := match i % 128 with
  | 0 => ⟨S50000, .f32⟩
  | 1 => ⟨S_, .f32⟩
  | 2 => ⟨S_, .f32⟩
  | 3 => ⟨S50000, .f32⟩
  | 4 => ⟨S50000, .f32⟩
  | 5 => ⟨S_, .f32⟩
  | 6 => ⟨S50000, .f32⟩
  | 7 => ⟨S500000x1, .i32⟩
  | 8 => ⟨S50000, .f32⟩
  | 9 => ⟨S_, .f32⟩
  | 10 => ⟨S_, .f32⟩
  | 11 => ⟨S50000, .f32⟩
  | 12 => ⟨S50000, .f32⟩
  | 13 => ⟨S50000, .f32⟩
  | 14 => ⟨S50000x1, .f32⟩
  | 15 => ⟨S50000x128, .f32⟩
  | 16 => ⟨S50000x128, .f32⟩
  | 17 => ⟨S50000x128, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x128, .f32⟩
  | 27 => ⟨S_, .f32⟩
  | 28 => ⟨S50000x128, .f32⟩
  | 29 => ⟨S500000x1, .i32⟩
  | 30 => ⟨S50000x128, .f32⟩
  | 31 => ⟨S50000, .f32⟩
  | 32 => ⟨S50000x1, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S50000x128, .f32⟩
  | 39 => ⟨S_, .f32⟩
  | 40 => ⟨S300000, .f32⟩
  | 41 => ⟨S_, .f32⟩
  | 42 => ⟨S20000, .f32⟩
  | 43 => ⟨S300000x1, .i32⟩
  | 44 => ⟨S20000, .f32⟩
  | 45 => ⟨S_, .f32⟩
  | 46 => ⟨S_, .f32⟩
  | 47 => ⟨S20000, .f32⟩
  | 48 => ⟨S20000, .f32⟩
  | 49 => ⟨S_, .f32⟩
  | 50 => ⟨S50000, .f32⟩
  | 51 => ⟨S300000x1, .i32⟩
  | 52 => ⟨S50000, .f32⟩
  | 53 => ⟨S_, .f32⟩
  | 54 => ⟨S_, .f32⟩
  | 55 => ⟨S50000, .f32⟩
  | 56 => ⟨S50000, .f32⟩
  | 57 => ⟨S20000, .f32⟩
  | 58 => ⟨S20000x1, .f32⟩
  | 59 => ⟨S20000x128, .f32⟩
  | 60 => ⟨S20000x128, .f32⟩
  | 61 => ⟨S20000x128, .f32⟩
  | 62 => ⟨S_, .i32⟩
  | 63 => ⟨S300000, .i32⟩
  | 64 => ⟨S300000, .i1⟩
  | 65 => ⟨S_, .i32⟩
  | 66 => ⟨S300000, .i32⟩
  | 67 => ⟨S300000, .i32⟩
  | 68 => ⟨S300000, .i32⟩
  | 69 => ⟨S300000x1, .i32⟩
  | 70 => ⟨S300000x128, .f32⟩
  | 71 => ⟨S_, .f32⟩
  | 72 => ⟨S50000x128, .f32⟩
  | 73 => ⟨S300000x1, .i32⟩
  | 74 => ⟨S50000x128, .f32⟩
  | 75 => ⟨S50000, .f32⟩
  | 76 => ⟨S50000x1, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S300000, .f32⟩
  | 85 => ⟨S_, .f32⟩
  | 86 => ⟨S50000, .f32⟩
  | 87 => ⟨S300000x1, .i32⟩
  | 88 => ⟨S50000, .f32⟩
  | 89 => ⟨S_, .f32⟩
  | 90 => ⟨S_, .f32⟩
  | 91 => ⟨S50000, .f32⟩
  | 92 => ⟨S50000, .f32⟩
  | 93 => ⟨S_, .f32⟩
  | 94 => ⟨S20000, .f32⟩
  | 95 => ⟨S300000x1, .i32⟩
  | 96 => ⟨S20000, .f32⟩
  | 97 => ⟨S_, .f32⟩
  | 98 => ⟨S_, .f32⟩
  | 99 => ⟨S20000, .f32⟩
  | 100 => ⟨S20000, .f32⟩
  | 101 => ⟨S50000, .f32⟩
  | 102 => ⟨S50000x1, .f32⟩
  | 103 => ⟨S50000x128, .f32⟩
  | 104 => ⟨S50000x128, .f32⟩
  | 105 => ⟨S50000x128, .f32⟩
  | 106 => ⟨S_, .i32⟩
  | 107 => ⟨S300000, .i32⟩
  | 108 => ⟨S300000, .i1⟩
  | 109 => ⟨S_, .i32⟩
  | 110 => ⟨S300000, .i32⟩
  | 111 => ⟨S300000, .i32⟩
  | 112 => ⟨S300000, .i32⟩
  | 113 => ⟨S300000x1, .i32⟩
  | 114 => ⟨S300000x128, .f32⟩
  | 115 => ⟨S_, .f32⟩
  | 116 => ⟨S20000x128, .f32⟩
  | 117 => ⟨S300000x1, .i32⟩
  | 118 => ⟨S20000x128, .f32⟩
  | 119 => ⟨S20000, .f32⟩
  | 120 => ⟨S20000x1, .f32⟩
  | 121 => ⟨S20000x128, .f32⟩
  | 122 => ⟨S20000x128, .f32⟩
  | 123 => ⟨S1x128, .f32⟩
  | 124 => ⟨S20000x128, .f32⟩
  | 125 => ⟨S20000x128, .f32⟩
  | 126 => ⟨S_, .f32⟩
  | 127 => ⟨S50000x128, .f32⟩
  | _ => ⟨S50000x256, .f32⟩

abbrev hbmTy0_3 (i : Nat) : BufTy := match i % 128 with
  | 0 => ⟨S50000x128, .f32⟩
  | 1 => ⟨S_, .f32⟩
  | 2 => ⟨S20000x128, .f32⟩
  | 3 => ⟨S20000x128, .f32⟩
  | 4 => ⟨S50000x1, .f32⟩
  | 5 => ⟨S1x1, .f32⟩
  | 6 => ⟨S50000x1, .f32⟩
  | 7 => ⟨S50000x1, .f32⟩
  | 8 => ⟨S50000x1, .f32⟩
  | 9 => ⟨S50000x1, .f32⟩
  | 10 => ⟨S_, .f32⟩
  | 11 => ⟨S50000x1, .f32⟩
  | 12 => ⟨S50000x1, .f32⟩
  | 13 => ⟨S_, .f32⟩
  | 14 => ⟨S50000x1, .f32⟩
  | 15 => ⟨S50000x1, .f32⟩
  | 16 => ⟨S20000x1, .f32⟩
  | 17 => ⟨S1x1, .f32⟩
  | 18 => ⟨S20000x1, .f32⟩
  | 19 => ⟨S20000x1, .f32⟩
  | 20 => ⟨S20000x1, .f32⟩
  | 21 => ⟨S20000x1, .f32⟩
  | 22 => ⟨S_, .f32⟩
  | 23 => ⟨S20000x1, .f32⟩
  | 24 => ⟨S20000x1, .f32⟩
  | 25 => ⟨S_, .f32⟩
  | 26 => ⟨S20000x1, .f32⟩
  | 27 => ⟨S20000x1, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v4 : Ref sig .tc := ⟨.hbm, 37, rfl⟩
abbrev main_cst_2 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c : Ref sig .tc := ⟨.hbm, 51, rfl⟩
abbrev main_v14 : Ref sig .tc := ⟨.hbm, 52, rfl⟩
abbrev main_v15 : Ref sig .tc := ⟨.hbm, 53, rfl⟩
abbrev main_c_4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_5 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_6 : Ref sig .tc := ⟨.hbm, 71, rfl⟩
abbrev main_v31 : Ref sig .tc := ⟨.hbm, 72, rfl⟩
abbrev main_cst_7 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_8 : Ref sig .tc := ⟨.hbm, 77, rfl⟩
abbrev main_call2_v0 : Ref sig .tc := ⟨.hbm, 78, rfl⟩
abbrev main_call2_v1 : Ref sig .tc := ⟨.hbm, 79, rfl⟩
abbrev main_v35 : Ref sig .tc := ⟨.hbm, 80, rfl⟩
abbrev main_cst_9 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_10 : Ref sig .tc := ⟨.hbm, 85, rfl⟩
abbrev main_call3_v0 : Ref sig .tc := ⟨.hbm, 86, rfl⟩
abbrev main_call3_v1 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_c_11 : Ref sig .tc := ⟨.hbm, 94, rfl⟩
abbrev main_v45 : Ref sig .tc := ⟨.hbm, 95, rfl⟩
abbrev main_v46 : Ref sig .tc := ⟨.hbm, 96, rfl⟩
abbrev main_c_12 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_13 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_14 : Ref sig .tc := ⟨.hbm, 115, rfl⟩
abbrev main_v63 : Ref sig .tc := ⟨.hbm, 116, rfl⟩
abbrev main_cst_15 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_16 : Ref sig .tc := ⟨.hbm, 121, rfl⟩
abbrev main_call4_v0 : Ref sig .tc := ⟨.hbm, 122, rfl⟩
abbrev main_call4_v1 : Ref sig .tc := ⟨.hbm, 123, rfl⟩
abbrev main_v67 : Ref sig .tc := ⟨.hbm, 124, rfl⟩
abbrev main_cst_17 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_18 : Ref sig .tc := ⟨.hbm, 129, rfl⟩
abbrev main_call5_v0 : Ref sig .tc := ⟨.hbm, 130, rfl⟩
abbrev main_call5_v1 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_c_19 : Ref sig .tc := ⟨.hbm, 138, rfl⟩
abbrev main_v77 : Ref sig .tc := ⟨.hbm, 139, rfl⟩
abbrev main_v78 : Ref sig .tc := ⟨.hbm, 140, rfl⟩
abbrev main_c_20 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_cst_21 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_22 : Ref sig .tc := ⟨.hbm, 159, rfl⟩
abbrev main_v95 : Ref sig .tc := ⟨.hbm, 160, rfl⟩
abbrev main_cst_23 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_cst_24 : Ref sig .tc := ⟨.hbm, 165, rfl⟩
abbrev main_call6_v0 : Ref sig .tc := ⟨.hbm, 166, rfl⟩
abbrev main_call6_v1 : Ref sig .tc := ⟨.hbm, 167, rfl⟩
abbrev main_v99 : Ref sig .tc := ⟨.hbm, 168, rfl⟩
abbrev main_cst_25 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_cst_26 : Ref sig .tc := ⟨.hbm, 173, rfl⟩
abbrev main_call7_v0 : Ref sig .tc := ⟨.hbm, 174, rfl⟩
abbrev main_call7_v1 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_c_27 : Ref sig .tc := ⟨.hbm, 182, rfl⟩
abbrev main_v109 : Ref sig .tc := ⟨.hbm, 183, rfl⟩
abbrev main_v110 : Ref sig .tc := ⟨.hbm, 184, rfl⟩
abbrev main_c_28 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_cst_29 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_call8_cst : Ref sig .tc := ⟨.hbm, 202, rfl⟩
abbrev main_call8_v0 : Ref sig .tc := ⟨.hbm, 203, rfl⟩
abbrev main_v126 : Ref sig .tc := ⟨.hbm, 204, rfl⟩
abbrev main_call9_cst : Ref sig .tc := ⟨.hbm, 205, rfl⟩
abbrev main_call9_v0 : Ref sig .tc := ⟨.hbm, 206, rfl⟩
abbrev main_v127 : Ref sig .tc := ⟨.hbm, 207, rfl⟩
abbrev main_cst_30 : Ref sig .tc := ⟨.hbm, 208, rfl⟩
abbrev main_v128 : Ref sig .tc := ⟨.hbm, 209, rfl⟩
abbrev main_cst_31 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_cst_32 : Ref sig .tc := ⟨.hbm, 214, rfl⟩
abbrev main_call10_v0 : Ref sig .tc := ⟨.hbm, 215, rfl⟩
abbrev main_call10_v1 : Ref sig .tc := ⟨.hbm, 216, rfl⟩
abbrev main_v132 : Ref sig .tc := ⟨.hbm, 217, rfl⟩
abbrev main_cst_33 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_cst_34 : Ref sig .tc := ⟨.hbm, 222, rfl⟩
abbrev main_call11_v0 : Ref sig .tc := ⟨.hbm, 223, rfl⟩
abbrev main_call11_v1 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_c_35 : Ref sig .tc := ⟨.hbm, 231, rfl⟩
abbrev main_v142 : Ref sig .tc := ⟨.hbm, 232, rfl⟩
abbrev main_v143 : Ref sig .tc := ⟨.hbm, 233, rfl⟩
abbrev main_c_36 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_cst_37 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_cst_38 : Ref sig .tc := ⟨.hbm, 251, rfl⟩
abbrev main_v159 : Ref sig .tc := ⟨.hbm, 252, rfl⟩
abbrev main_cst_39 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_cst_40 : Ref sig .tc := ⟨.hbm, 257, rfl⟩
abbrev main_call12_v0 : Ref sig .tc := ⟨.hbm, 258, rfl⟩
abbrev main_call12_v1 : Ref sig .tc := ⟨.hbm, 259, rfl⟩
abbrev main_v163 : Ref sig .tc := ⟨.hbm, 260, rfl⟩
abbrev main_cst_41 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_cst_42 : Ref sig .tc := ⟨.hbm, 265, rfl⟩
abbrev main_call13_v0 : Ref sig .tc := ⟨.hbm, 266, rfl⟩
abbrev main_call13_v1 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_c_43 : Ref sig .tc := ⟨.hbm, 274, rfl⟩
abbrev main_v173 : Ref sig .tc := ⟨.hbm, 275, rfl⟩
abbrev main_v174 : Ref sig .tc := ⟨.hbm, 276, rfl⟩
abbrev main_c_44 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_cst_45 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_cst_46 : Ref sig .tc := ⟨.hbm, 295, rfl⟩
abbrev main_v191 : Ref sig .tc := ⟨.hbm, 296, rfl⟩
abbrev main_cst_47 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_cst_48 : Ref sig .tc := ⟨.hbm, 301, rfl⟩
abbrev main_call14_v0 : Ref sig .tc := ⟨.hbm, 302, rfl⟩
abbrev main_call14_v1 : Ref sig .tc := ⟨.hbm, 303, rfl⟩
abbrev main_v195 : Ref sig .tc := ⟨.hbm, 304, rfl⟩
abbrev main_cst_49 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_cst_50 : Ref sig .tc := ⟨.hbm, 309, rfl⟩
abbrev main_call15_v0 : Ref sig .tc := ⟨.hbm, 310, rfl⟩
abbrev main_call15_v1 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_v204 : Ref sig .tc := ⟨.hbm, 317, rfl⟩
abbrev main_c_51 : Ref sig .tc := ⟨.hbm, 318, rfl⟩
abbrev main_v205 : Ref sig .tc := ⟨.hbm, 319, rfl⟩
abbrev main_v206 : Ref sig .tc := ⟨.hbm, 320, rfl⟩
abbrev main_c_52 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_cst_53 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_cst_54 : Ref sig .tc := ⟨.hbm, 339, rfl⟩
abbrev main_v223 : Ref sig .tc := ⟨.hbm, 340, rfl⟩
abbrev main_cst_55 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_cst_56 : Ref sig .tc := ⟨.hbm, 345, rfl⟩
abbrev main_call16_v0 : Ref sig .tc := ⟨.hbm, 346, rfl⟩
abbrev main_call16_v1 : Ref sig .tc := ⟨.hbm, 347, rfl⟩
abbrev main_v227 : Ref sig .tc := ⟨.hbm, 348, rfl⟩
abbrev main_cst_57 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_cst_58 : Ref sig .tc := ⟨.hbm, 353, rfl⟩
abbrev main_call17_v0 : Ref sig .tc := ⟨.hbm, 354, rfl⟩
abbrev main_call17_v1 : Ref sig .tc := ⟨.hbm, 355, rfl⟩
abbrev main_v231 : Ref sig .tc := ⟨.hbm, 356, rfl⟩
abbrev main_v232 : Ref sig .tc := ⟨.hbm, 357, rfl⟩
abbrev main_v233 : Ref sig .tc := ⟨.hbm, 358, rfl⟩
abbrev main_v234 : Ref sig .tc := ⟨.hbm, 359, rfl⟩
abbrev main_v235 : Ref sig .tc := ⟨.hbm, 360, rfl⟩
abbrev main_v236 : Ref sig .tc := ⟨.hbm, 361, rfl⟩
abbrev main_c_59 : Ref sig .tc := ⟨.hbm, 362, rfl⟩
abbrev main_v237 : Ref sig .tc := ⟨.hbm, 363, rfl⟩
abbrev main_v238 : Ref sig .tc := ⟨.hbm, 364, rfl⟩
abbrev main_c_60 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_v242 : Ref sig .tc := ⟨.hbm, 369, rfl⟩
abbrev main_v243 : Ref sig .tc := ⟨.hbm, 370, rfl⟩
abbrev main_cst_61 : Ref sig .tc := ⟨.hbm, 371, rfl⟩
abbrev main_v244 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_call18_cst : Ref sig .tc := ⟨.hbm, 382, rfl⟩
abbrev main_call18_v0 : Ref sig .tc := ⟨.hbm, 383, rfl⟩
abbrev main_v254 : Ref sig .tc := ⟨.hbm, 384, rfl⟩
abbrev main_call19_cst : Ref sig .tc := ⟨.hbm, 385, rfl⟩
abbrev main_call19_v0 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_v260 : Ref sig .tc := ⟨.hbm, 392, rfl⟩
abbrev main_v261 : Ref sig .tc := ⟨.hbm, 393, rfl⟩
abbrev main_cst_62 : Ref sig .tc := ⟨.hbm, 394, rfl⟩
abbrev main_v262 : Ref sig .tc := ⟨.hbm, 395, rfl⟩
abbrev main_v263 : Ref sig .tc := ⟨.hbm, 396, rfl⟩
abbrev main_cst_63 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_cst_64 : Ref sig .tc := ⟨.hbm, 406, rfl⟩
abbrev main_v272 : Ref sig .tc := ⟨.hbm, 407, rfl⟩
abbrev main_v273 : Ref sig .tc := ⟨.hbm, 408, rfl⟩
abbrev main_cst_65 : Ref sig .tc := ⟨.hbm, 409, rfl⟩
abbrev main_v274 : Ref sig .tc := ⟨.hbm, 410, rfl⟩
abbrev main_v275 : Ref sig .tc := ⟨.hbm, 411, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S300000 : S_.BroadcastsInDim S300000 (![] : Fin 0 → Fin S300000.rank)
  bcast_S_S20000 : S_.BroadcastsInDim S20000 (![] : Fin 0 → Fin S20000.rank)
  bcast_S300000_S300000x1_0 : S300000.BroadcastsInDim S300000x1 (![0] : Fin 1 → Fin S300000x1.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S1x1_S20000x1_0_1 : S1x1.BroadcastsInDim S20000x1 (![0, 1] : Fin 2 → Fin S20000x1.rank)
  bcast_S_S20000x1 : S_.BroadcastsInDim S20000x1 (![] : Fin 0 → Fin S20000x1.rank)
  scatter_S50000_S500000x1_S500000_n_0_0_1_wf : ScatterDims.WF S50000 S500000x1 S500000 [] [0] [0] 1
  dot_S50000x256_S256x128_S50000x128_1_0_0_1_n_n_wf : DotDims.WF S50000x256 S256x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S20000_S300000x1_S300000_n_0_0_1_wf : ScatterDims.WF S20000 S300000x1 S300000 [] [0] [0] 1
  scatter_S50000_S300000x1_S300000_n_0_0_1_wf : ScatterDims.WF S50000 S300000x1 S300000 [] [0] [0] 1
  dot_S20000x256_S256x128_S20000x128_1_0_0_1_n_n_wf : DotDims.WF S20000x256 S256x128 S20000x128 [1] [0] [0] [1] [] []
  gather_S20000x128_S300000x1_S300000x128_1_0_n_n_0_1_1128_wf : GatherDims.WF S20000x128 S300000x1 S300000x128 [1] [0] [] [0] [] 1 ![1, 128]
  scatter_S50000x128_S300000x1_S300000x128_1_0_0_1_wf : ScatterDims.WF S50000x128 S300000x1 S300000x128 [1] [0] [0] 1
  gather_S50000x128_S300000x1_S300000x128_1_0_n_n_0_1_1128_wf : GatherDims.WF S50000x128 S300000x1 S300000x128 [1] [0] [] [0] [] 1 ![1, 128]
  scatter_S20000x128_S300000x1_S300000x128_1_0_0_1_wf : ScatterDims.WF S20000x128 S300000x1 S300000x128 [1] [0] [0] 1
  dot_S50000x128_S128x128_S50000x128_1_0_0_1_n_n_wf : DotDims.WF S50000x128 S128x128 S50000x128 [1] [0] [0] [1] [] []
  dot_S20000x128_S128x128_S20000x128_1_0_0_1_n_n_wf : DotDims.WF S20000x128 S128x128 S20000x128 [1] [0] [0] [1] [] []
  dot_S50000x128_S128x1_S50000x1_1_0_0_1_n_n_wf : DotDims.WF S50000x128 S128x1 S50000x1 [1] [0] [0] [1] [] []
  dot_S20000x128_S128x1_S20000x1_1_0_0_1_n_n_wf : DotDims.WF S20000x128 S128x1 S20000x1 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

class Facts : Prop extends Facts₀ where

variable [Facts]
-- ==== Proof.KernelRun.lean ====
/-
  The idealized kernel's run with every buffer named.

  The program is a chain of host stretches and twelve grid regions.  Its run, from any launch memory, ends with every
  unscoped buffer of core `c` at the contents the chain of boundaries computes: `Gen.W41 m ρ c`, the fold of the host
  stretches' operations and of each region's write-backs from the launch contents.  In particular the two result arrays
  end at that valuation's values, which is what the value proof reads.
-/
import proofs.«171965_j27676769256197_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W41 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W41 m ρ c b)
    (hfin := fun c s' => by
      iintro ⟨⟨Hh, -⟩, HSI⟩
      unfold StableHlo.held
      imodintro
      iapply (pointsTo_read_all (Pipeline.ucRefs τ sig) (fun b => (((c : Thread nD τ)).1, b)) (W41 m ρ c) s')
      isplitl [Hh] <;> iassumption)
    (hQ := fun s h => h)

/-- The same run read at the two result arrays and at the argument arrays: the results end at the last boundary's
    contents, and each argument array, which no host operation and no region writes, ends as launched. -/
theorem run_results : θ_run defs (onTc (τ := τ) (main (F := F))) ⟨m, fun _ => 0, ρ⟩ (fun r => ∀ c : Dev nD,
      r.2.mem ((c.tc : Thread nD τ).loc main_v205) = W41 m ρ c (Proc.devRef .tc main_v205)
      ∧ r.2.mem ((c.tc : Thread nD τ).loc main_v215) = W41 m ρ c (Proc.devRef .tc main_v215)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨h c _ (mem_uc main_v205 (by decide)), h c _ (mem_uc main_v215 (by decide)),
      (h c _ (mem_uc main_arg0 (by decide))).trans (W41_main_arg0 m ρ c),
      (h c _ (mem_uc main_arg1 (by decide))).trans (W41_main_arg1 m ρ c),
      (h c _ (mem_uc main_arg2 (by decide))).trans (W41_main_arg2 m ρ c),
      (h c _ (mem_uc main_arg3 (by decide))).trans (W41_main_arg3 m ρ c),
      (h c _ (mem_uc main_arg4 (by decide))).trans (W41_main_arg4 m ρ c),
      (h c _ (mem_uc main_arg5 (by decide))).trans (W41_main_arg5 m ρ c),
      (h c _ (mem_uc main_arg6 (by decide))).trans (W41_main_arg6 m ρ c),
      (h c _ (mem_uc main_arg7 (by decide))).trans (W41_main_arg7 m ρ c),
      (h c _ (mem_uc main_arg8 (by decide))).trans (W41_main_arg8 m ρ c),
      (h c _ (mem_uc main_arg9 (by decide))).trans (W41_main_arg9 m ρ c),
      (h c _ (mem_uc main_arg10 (by decide))).trans (W41_main_arg10 m ρ c),
      (h c _ (mem_uc main_arg11 (by decide))).trans (W41_main_arg11 m ρ c),
      (h c _ (mem_uc main_arg12 (by decide))).trans (W41_main_arg12 m ρ c),
      (h c _ (mem_uc main_arg13 (by decide))).trans (W41_main_arg13 m ρ c),
      (h c _ (mem_uc main_arg14 (by decide))).trans (W41_main_arg14 m ρ c),
      (h c _ (mem_uc main_arg15 (by decide))).trans (W41_main_arg15 m ρ c),
      (h c _ (mem_uc main_arg16 (by decide))).trans (W41_main_arg16 m ρ c),
      (h c _ (mem_uc main_arg17 (by decide))).trans (W41_main_arg17 m ρ c),
      (h c _ (mem_uc main_arg18 (by decide))).trans (W41_main_arg18 m ρ c),
      (h c _ (mem_uc main_arg19 (by decide))).trans (W41_main_arg19 m ρ c),
      (h c _ (mem_uc main_arg20 (by decide))).trans (W41_main_arg20 m ρ c),
      (h c _ (mem_uc main_arg21 (by decide))).trans (W41_main_arg21 m ρ c),
      (h c _ (mem_uc main_arg22 (by decide))).trans (W41_main_arg22 m ρ c),
      (h c _ (mem_uc main_arg23 (by decide))).trans (W41_main_arg23 m ρ c),
      (h c _ (mem_uc main_arg24 (by decide))).trans (W41_main_arg24 m ρ c),
      (h c _ (mem_uc main_arg25 (by decide))).trans (W41_main_arg25 m ρ c),
      (h c _ (mem_uc main_arg26 (by decide))).trans (W41_main_arg26 m ρ c),
      (h c _ (mem_uc main_arg27 (by decide))).trans (W41_main_arg27 m ρ c)⟩)
    (run_all m ρ)

end Cert.KernelIdeal.Run

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibMatRows.lean ====
/-
  A matrix product computed one block of rows at a time is the whole product.

  Let X be an M × K matrix, W a K × N matrix, and let x0 be m consecutive rows of X (row p of x0 is row P of X).  The
  product of x0 with W accumulated into the zero matrix has, at (p, q), the sum over k of x0[p, k] · W[k, q]; the host's
  whole product X · W has, at (P, q), the sum over k of X[P, k] · W[k, q].  The two sums have equal terms, so a grid of
  row blocks that tiles X writes exactly the whole product.  On the extended reals nothing else is involved: no
  rounding, no order of summation.  All extents are variables; the records' own facts are hypotheses.
-/
import Idealize.ShloMosaic.Lib.Pipeline.Value
import Idealize.ShloMosaic.Lib.ValueIdx
import Idealize.ShloMosaic.PureOps.Ideal.Laws
import proofs.«171965_j27676769256197_1_alg».proof.Proof.LibLayout
import proofs.«171965_j27676769256197_1_alg».proof.Proof.LibHostDot

noncomputable section

namespace Cert.LibMatRows

open Idealize.ShloMosaic Idealize.ShloMosaic.ValueIdx

/-- Entry (p, q) of a block's product into zero is entry (P, q) of the whole host product, when row p of the block is
    row P of the whole left operand and the right operands agree on column q. -/
theorem block_entry {M m K N : ℕ} {φ₁ φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (x0 : FVec Ideal ⟨2, ![m, K]⟩ φ₁) (w0 : FVec Ideal ⟨2, ![K, N]⟩ φ₂)
    (p : Fin m) (q : Fin N) (P : Fin M)
    (hx : ∀ k : Fin K, x0 (ix2 p k) = X (ix2 P k)) (hw : ∀ k : Fin K, w0 (ix2 k q) = W (ix2 k q)) :
    matmul dB none x0 w0 (constant ⟨2, ![m, N]⟩ .f32 0x00000000#32) (ix2 p q)
      = Host.dotGeneral dW none X W (ix2 P q) := by
  rw [Cert.LibLayout.matmul_rows_cols_apply dB hrB hsB hlcB hrcB hl0B hr1B,
    Cert.LibHostDot.dotGeneral_rows_cols_apply dW hrW hsW hlcW hrcW hl0W hr1W]
  refine Finset.sum_congr rfl fun k _ => ?_
  rw [hx k, hw k]

end Cert.LibMatRows

end
-- ==== Proof.RegionsMatA.lean ====
/-
  The four first-layer transform regions as whole matrix products.

  Each of these regions multiplies a tall matrix X by a square-ish weight matrix W, 5000 rows of X at a time: grid point
  t loads rows 5000·t … 5000·t + 4999 of X and all of W, casts both to bfloat16 (the identity on the extended reals),
  multiplies them into a zero accumulator and stores the 5000 × 128 result as rows 5000·t … of the output.  Entry (p, q)
  of that block is the sum over k of X[5000·t + p, k] · W[k, q], which is entry (5000·t + p, q) of the host's whole
  product X · W; the blocks tile the output's rows, so after the region the output array IS the whole product.
-/
import proofs.«171965_j27676769256197_1_alg».proof.Proof.Gen.KernelIdeal.Frame
import proofs.«171965_j27676769256197_1_alg».proof.Proof.Gen.ReferenceIdeal
import proofs.«171965_j27676769256197_1_alg».proof.Proof.LibMatRows
import Idealize.ShloMosaic.Lib.Pipeline.Value
import Idealize.ShloMosaic.Lib.ValueIdx
import Idealize.ShloMosaic.PureOps.Ideal.Laws

set_option maxRecDepth 16384

noncomputable section

namespace Cert.KernelIdeal.RVal

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dB256_l0 : ∀ (j : S5000x128.Idx) (k : dot_S5000x256_S256x128_S5000x128_1_0_0_1_n_n.contr.Idx), ((dot_S5000x256_S256x128_S5000x128_1_0_0_1_n_n).lhsIdx j k 0).val = (j 0).val := by
  intro j k
  unfold DotDims.lhsIdx
  rw [dif_neg (show ¬(0 : Fin S5000x256.rank) ∈ (dot_S5000x256_S256x128_S5000x128_1_0_0_1_n_n).lhsBatch by decide), dif_pos (show (0 : Fin S5000x256.rank) ∈ (dot_S5000x256_S256x128_S5000x128_1_0_0_1_n_n).lhsNonContracting by decide)]
  rfl
theorem dB256_r1 : ∀ (j : S5000x128.Idx) (k : dot_S5000x256_S256x128_S5000x128_1_0_0_1_n_n.contr.Idx), ((dot_S5000x256_S256x128_S5000x128_1_0_0_1_n_n).rhsIdx j k 1).val = (j 1).val := by
  intro j k
  unfold DotDims.rhsIdx
  rw [dif_neg (show ¬(1 : Fin (2 : Nat)) ∈ (dot_S5000x256_S256x128_S5000x128_1_0_0_1_n_n).rhsBatch by decide), dif_pos (show (1 : Fin (2 : Nat)) ∈ (dot_S5000x256_S256x128_S5000x128_1_0_0_1_n_n).rhsNonContracting by decide)]
  rfl

theorem dW50000x256_l0 : ∀ (j : S50000x128.Idx) (k : Cert.ReferenceIdeal.dot_S50000x256_S256x128_S50000x128_1_0_0_1_n_n.contr.Idx), ((Cert.ReferenceIdeal.dot_S50000x256_S256x128_S50000x128_1_0_0_1_n_n).lhsIdx j k 0).val = (j 0).val := by
  intro j k
  unfold DotDims.lhsIdx
  rw [dif_neg (show ¬(0 : Fin S50000x256.rank) ∈ (Cert.ReferenceIdeal.dot_S50000x256_S256x128_S50000x128_1_0_0_1_n_n).lhsBatch by decide), dif_pos (show (0 : Fin S50000x256.rank) ∈ (Cert.ReferenceIdeal.dot_S50000x256_S256x128_S50000x128_1_0_0_1_n_n).lhsNonContracting by decide)]
  rfl
theorem dW50000x256_r1 : ∀ (j : S50000x128.Idx) (k : Cert.ReferenceIdeal.dot_S50000x256_S256x128_S50000x128_1_0_0_1_n_n.contr.Idx), ((Cert.ReferenceIdeal.dot_S50000x256_S256x128_S50000x128_1_0_0_1_n_n).rhsIdx j k 1).val = (j 1).val := by
  intro j k
  unfold DotDims.rhsIdx
  rw [dif_neg (show ¬(1 : Fin (2 : Nat)) ∈ (Cert.ReferenceIdeal.dot_S50000x256_S256x128_S50000x128_1_0_0_1_n_n).rhsBatch by decide), dif_pos (show (1 : Fin (2 : Nat)) ∈ (Cert.ReferenceIdeal.dot_S50000x256_S256x128_S50000x128_1_0_0_1_n_n).rhsNonContracting by decide)]
  rfl

theorem dW20000x256_l0 : ∀ (j : S20000x128.Idx) (k : Cert.ReferenceIdeal.dot_S20000x256_S256x128_S20000x128_1_0_0_1_n_n.contr.Idx), ((Cert.ReferenceIdeal.dot_S20000x256_S256x128_S20000x128_1_0_0_1_n_n).lhsIdx j k 0).val = (j 0).val := by
  intro j k
  unfold DotDims.lhsIdx
  rw [dif_neg (show ¬(0 : Fin S20000x256.rank) ∈ (Cert.ReferenceIdeal.dot_S20000x256_S256x128_S20000x128_1_0_0_1_n_n).lhsBatch by decide), dif_pos (show (0 : Fin S20000x256.rank) ∈ (Cert.ReferenceIdeal.dot_S20000x256_S256x128_S20000x128_1_0_0_1_n_n).lhsNonContracting by decide)]
  rfl
theorem dW20000x256_r1 : ∀ (j : S20000x128.Idx) (k : Cert.ReferenceIdeal.dot_S20000x256_S256x128_S20000x128_1_0_0_1_n_n.contr.Idx), ((Cert.ReferenceIdeal.dot_S20000x256_S256x128_S20000x128_1_0_0_1_n_n).rhsIdx j k 1).val = (j 1).val := by
  intro j k
  unfold DotDims.rhsIdx
  rw [dif_neg (show ¬(1 : Fin (2 : Nat)) ∈ (Cert.ReferenceIdeal.dot_S20000x256_S256x128_S20000x128_1_0_0_1_n_n).rhsBatch by decide), dif_pos (show (1 : Fin (2 : Nat)) ∈ (Cert.ReferenceIdeal.dot_S20000x256_S256x128_S20000x128_1_0_0_1_n_n).rhsNonContracting by decide)]
  rfl

/-! ## Region 0: rows of main_v50 (50000 × 256) against main_arg10 (256 × 128), 10 blocks of 5000 rows -/

/-- The whole product X · W, as the host spells it. -/
abbrev whole0 (X : FVec Ideal S50000x256 .f32) (W : FVec Ideal S256x128 .f32) : FVec Ideal S50000x128 .f32 :=
  Host.dotGeneral Cert.ReferenceIdeal.dot_S50000x256_S256x128_S50000x128_1_0_0_1_n_n none X W

theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

theorem idx_onto0 : ∀ q0 : Fin 10, ∃ t : Fin cfg0.N, win0_2.index t = ![q0.val, 0] :=
  (by decide +kernel : ∀ q0 : Fin 10, ∃ t : Fin grid0.N, win0_2.index t = ![q0.val, 0])

/-- What grid point t writes back is block t (rows 5000·t … 5000·t + 4999) of the whole product: entry (p, q) of the
    block's product into zero and entry (5000·t + p, q) of the whole product are the same sum over the contracted index. -/
theorem flushed0 (c : Dev nD) (t : Fin cfg0.N) :
    (dat0 V c).flushed 2 t = ((cfg0.win 2).blk t).view.read (Elt Ideal) (whole0 (V c main_v50) (V c main_arg10)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts0 t
  funext j
  obtain ⟨p, q, rfl⟩ : ∃ (p : Fin 5000) (q : Fin 128), j = ix2 p q := ⟨j 0, j 1, eq_ix2 (n0 := 5000) (n1 := 128) j⟩
  have hP : win0_2.index t (0 : Fin 2) * 5000 + p.val < 50000 := by have := p.isLt; omega
  have hemb : ((cfg0.win 2).blk t).view.emb (ix2 p q)
      = (ix2 (⟨win0_2.index t (0 : Fin 2) * 5000 + p.val, hP⟩ : Fin 50000) q : S50000x128.Idx) := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  show k0_pay1 (iblk0 V c 0 t) (iblk0 V c 1 t) (ix2 p q) = whole0 (V c main_v50) (V c main_arg10) (((cfg0.win 2).blk t).view.emb (ix2 p q))
  rw [hemb]
  unfold k0_pay1
  refine Cert.LibMatRows.block_entry dot_S5000x256_S256x128_S5000x128_1_0_0_1_n_n
    Cert.ReferenceIdeal.dot_S50000x256_S256x128_S50000x128_1_0_0_1_n_n rfl rfl rfl rfl dB256_l0 dB256_r1 rfl rfl rfl rfl dW50000x256_l0 dW50000x256_r1
    (V c main_v50) (V c main_arg10) _ _ p q ⟨_, hP⟩ (fun k => ?_) (fun k => ?_)
  · refine (congrFun (shapeCast_self (s := S5000x256) (iblk0 V c 0 t) shapeCasts_S5000x256_S5000x256) (ix2 p k)).trans ?_
    show V c main_v50 (((cfg0.win 0).blk t).view.emb (ix2 p k)) = _
    refine congrArg (V c main_v50) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 256 + 1 * k.val = k.val; omega
  · show V c main_arg10 (((cfg0.win 1).blk t).view.emb (ix2 k q)) = _
    refine congrArg (V c main_arg10) ?_
    funext a; apply Fin.ext
    match a with
    | ⟨0, _⟩ => show win0_1.index t (0 : Fin 2) * 256 + 1 * k.val = k.val; omega
    | ⟨1, _⟩ => show win0_1.index t (1 : Fin 2) * 128 + 1 * q.val = q.val; omega

theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v51).slice (win0_2.rect t)).set ↔ _
  rw [View.set_slice_whole, Rect.mem_set_unit]
  exact Iff.rfl

/-- The 10 row blocks tile the array: row r lies in block r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the whole product of the two input arrays as the region found them. -/
theorem final0 (c : Dev nD) : (dat0 V c).arrAt 2 cfg0.N = whole0 (V c main_v50) (V c main_arg10) :=
  (dat0 V c).arrAt_eq_of_cover 2 (whole0 (V c main_v50) (V c main_arg10)) (fun t _ => flushed0 V c t) cover0

/-! ## Region 1: rows of main_v67 (50000 × 256) against main_arg14 (256 × 128), 10 blocks of 5000 rows -/

/-- The whole product X · W, as the host spells it. -/
abbrev whole1 (X : FVec Ideal S50000x256 .f32) (W : FVec Ideal S256x128 .f32) : FVec Ideal S50000x128 .f32 :=
  Host.dotGeneral Cert.ReferenceIdeal.dot_S50000x256_S256x128_S50000x128_1_0_0_1_n_n none X W

theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

theorem idx_onto1 : ∀ q0 : Fin 10, ∃ t : Fin cfg1.N, win1_2.index t = ![q0.val, 0] :=
  (by decide +kernel : ∀ q0 : Fin 10, ∃ t : Fin grid1.N, win1_2.index t = ![q0.val, 0])

/-- What grid point t writes back is block t (rows 5000·t … 5000·t + 4999) of the whole product: entry (p, q) of the
    block's product into zero and entry (5000·t + p, q) of the whole product are the same sum over the contracted index. -/
theorem flushed1 (c : Dev nD) (t : Fin cfg1.N) :
    (dat1 V c).flushed 2 t = ((cfg1.win 2).blk t).view.read (Elt Ideal) (whole1 (V c main_v67) (V c main_arg14)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  obtain ⟨e0, e1, e2, e3, e4, e5⟩ := idx_facts1 t
  funext j
  obtain ⟨p, q, rfl⟩ : ∃ (p : Fin 5000) (q : Fin 128), j = ix2 p q := ⟨j 0, j 1, eq_ix2 (n0 := 5000) (n1 := 128) j⟩
  have hP : win1_2.index t (0 : Fin 2) * 5000 + p.val < 50000 := by have := p.isLt; omega
  have hemb : ((cfg1.win 2).blk t).view.emb (ix2 p q)
      = (ix2 (⟨win1_2.index t (0 : Fin 2) * 5000 + p.val, hP⟩ : Fin 50000) q : S50000x128.Idx) := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  show k1_pay1 (iblk1 V c 0 t) (iblk1 V c 1 t) (ix2 p q) = whole1 (V c main_v67) (V c main_arg14) (((cfg1.win 2).blk t).view.emb (ix2 p q))
  rw [hemb]
  unfold k1_pay1
  refine Cert.LibMatRows.block_entry dot_S5000x256_S256x128_S5000x128_1_0_0_1_n_n
    Cert.ReferenceIdeal.dot_S50000x256_S256x128_S50000x128_1_0_0_1_n_n rfl rfl rfl rfl dB256_l0 dB256_r1 rfl rfl rfl rfl dW50000x256_l0 dW50000x256_r1
    (V c main_v67) (V c main_arg14) _ _ p q ⟨_, hP⟩ (fun k => ?_) (fun k => ?_)
  · refine (congrFun (shapeCast_self (s := S5000x256) (iblk1 V c 0 t) shapeCasts_S5000x256_S5000x256) (ix2 p k)).trans ?_
    show V c main_v67 (((cfg1.win 0).blk t).view.emb (ix2 p k)) = _
    refine congrArg (V c main_v67) ?_
    funext a; apply Fin.ext
    match a with
    | ⟨0, _⟩ => show win1_0.index t (0 : Fin 2) * 5000 + 1 * p.val = win1_2.index t (0 : Fin 2) * 5000 + p.val; omega
    | ⟨1, _⟩ => show win1_0.index t (1 : Fin 2) * 256 + 1 * k.val = k.val; omega
  · show V c main_arg14 (((cfg1.win 1).blk t).view.emb (ix2 k q)) = _
    refine congrArg (V c main_arg14) ?_
    funext a; apply Fin.ext
    match a with
    | ⟨0, _⟩ => show win1_1.index t (0 : Fin 2) * 256 + 1 * k.val = k.val; omega
    | ⟨1, _⟩ => show win1_1.index t (1 : Fin 2) * 128 + 1 * q.val = q.val; omega

theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v68).slice (win1_2.rect t)).set ↔ _
  rw [View.set_slice_whole, Rect.mem_set_unit]
  exact Iff.rfl

/-- The 10 row blocks tile the array: row r lies in block r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the whole product of the two input arrays as the region found them. -/
theorem final1 (c : Dev nD) : (dat1 V c).arrAt 2 cfg1.N = whole1 (V c main_v67) (V c main_arg14) :=
  (dat1 V c).arrAt_eq_of_cover 2 (whole1 (V c main_v67) (V c main_arg14)) (fun t _ => flushed1 V c t) cover1

/-! ## Region 2: rows of main_v84 (20000 × 256) against main_arg16 (256 × 128), 4 blocks of 5000 rows -/

/-- The whole product X · W, as the host spells it. -/
abbrev whole2 (X : FVec Ideal S20000x256 .f32) (W : FVec Ideal S256x128 .f32) : FVec Ideal S20000x128 .f32 :=
  Host.dotGeneral Cert.ReferenceIdeal.dot_S20000x256_S256x128_S20000x128_1_0_0_1_n_n none X W

theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 3 :=
  (by decide +kernel : ∀ t : Fin grid2.N, _)

theorem idx_onto2 : ∀ q0 : Fin 4, ∃ t : Fin cfg2.N, win2_2.index t = ![q0.val, 0] :=
  (by decide +kernel : ∀ q0 : Fin 4, ∃ t : Fin grid2.N, win2_2.index t = ![q0.val, 0])

/-- What grid point t writes back is block t (rows 5000·t … 5000·t + 4999) of the whole product: entry (p, q) of the
    block's product into zero and entry (5000·t + p, q) of the whole product are the same sum over the contracted index. -/
theorem flushed2 (c : Dev nD) (t : Fin cfg2.N) :
    (dat2 V c).flushed 2 t = ((cfg2.win 2).blk t).view.read (Elt Ideal) (whole2 (V c main_v84) (V c main_arg16)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x128) hz]
  obtain ⟨e0, e1, e2, e3, e4, e5⟩ := idx_facts2 t
  funext j
  obtain ⟨p, q, rfl⟩ : ∃ (p : Fin 5000) (q : Fin 128), j = ix2 p q := ⟨j 0, j 1, eq_ix2 (n0 := 5000) (n1 := 128) j⟩
  have hP : win2_2.index t (0 : Fin 2) * 5000 + p.val < 20000 := by have := p.isLt; omega
  have hemb : ((cfg2.win 2).blk t).view.emb (ix2 p q)
      = (ix2 (⟨win2_2.index t (0 : Fin 2) * 5000 + p.val, hP⟩ : Fin 20000) q : S20000x128.Idx) := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 128 + 1 * q.val = q.val; omega
  show k2_pay1 (iblk2 V c 0 t) (iblk2 V c 1 t) (ix2 p q) = whole2 (V c main_v84) (V c main_arg16) (((cfg2.win 2).blk t).view.emb (ix2 p q))
  rw [hemb]
  unfold k2_pay1
  refine Cert.LibMatRows.block_entry dot_S5000x256_S256x128_S5000x128_1_0_0_1_n_n
    Cert.ReferenceIdeal.dot_S20000x256_S256x128_S20000x128_1_0_0_1_n_n rfl rfl rfl rfl dB256_l0 dB256_r1 rfl rfl rfl rfl dW20000x256_l0 dW20000x256_r1
    (V c main_v84) (V c main_arg16) _ _ p q ⟨_, hP⟩ (fun k => ?_) (fun k => ?_)
  · refine (congrFun (shapeCast_self (s := S5000x256) (iblk2 V c 0 t) shapeCasts_S5000x256_S5000x256) (ix2 p k)).trans ?_
    show V c main_v84 (((cfg2.win 0).blk t).view.emb (ix2 p k)) = _
    refine congrArg (V c main_v84) ?_
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 256 + 1 * k.val = k.val; omega
  · show V c main_arg16 (((cfg2.win 1).blk t).view.emb (ix2 k q)) = _
    refine congrArg (V c main_arg16) ?_
    funext a; apply Fin.ext
    match a with
    | ⟨0, _⟩ => show win2_1.index t (0 : Fin 2) * 256 + 1 * k.val = k.val; omega
    | ⟨1, _⟩ => show win2_1.index t (1 : Fin 2) * 128 + 1 * q.val = q.val; omega

theorem mem_blk2 (t : Fin cfg2.N) (i : S20000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v85).slice (win2_2.rect t)).set ↔ _
  rw [View.set_slice_whole, Rect.mem_set_unit]
  exact Iff.rfl

/-- The 4 row blocks tile the array: row r lies in block r / 5000. -/
theorem cover2 (i : S20000x128.Idx) : ∃ t : Fin cfg2.N, (cfg2.win 2).flush t = true ∧ i ∈ ((cfg2.win 2).blk t).view.set := by
  have hi0 : (i 0).val < 20000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the output array is the whole product of the two input arrays as the region found them. -/
theorem final2 (c : Dev nD) : (dat2 V c).arrAt 2 cfg2.N = whole2 (V c main_v84) (V c main_arg16) :=
  (dat2 V c).arrAt_eq_of_cover 2 (whole2 (V c main_v84) (V c main_arg16)) (fun t _ => flushed2 V c t) cover2

/-! ## Region 3: rows of main_v101 (50000 × 256) against main_arg12 (256 × 128), 10 blocks of 5000 rows -/

/-- The whole product X · W, as the host spells it. -/
abbrev whole3 (X : FVec Ideal S50000x256 .f32) (W : FVec Ideal S256x128 .f32) : FVec Ideal S50000x128 .f32 :=
  Host.dotGeneral Cert.ReferenceIdeal.dot_S50000x256_S256x128_S50000x128_1_0_0_1_n_n none X W

theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

theorem idx_onto3 : ∀ q0 : Fin 10, ∃ t : Fin cfg3.N, win3_2.index t = ![q0.val, 0] :=
  (by decide +kernel : ∀ q0 : Fin 10, ∃ t : Fin grid3.N, win3_2.index t = ![q0.val, 0])

/-- What grid point t writes back is block t (rows 5000·t … 5000·t + 4999) of the whole product: entry (p, q) of the
    block's product into zero and entry (5000·t + p, q) of the whole product are the same sum over the contracted index. -/
theorem flushed3 (c : Dev nD) (t : Fin cfg3.N) :
    (dat3 V c).flushed 2 t = ((cfg3.win 2).blk t).view.read (Elt Ideal) (whole3 (V c main_v101) (V c main_arg12)) := by
  show (cfg3.win 2).cut (grid3.coords t) ((dat3 V c).after 2 t) = _
  rw [after3_2]
  unfold out3_2
  rw [View.canon_unit_zero hz]
  simp only [View.ld_unit_zero (S := S5000x256) hz, View.ld_unit_zero (S := S256x128) hz]
  obtain ⟨e0, e1, e2, e3, e4, e5⟩ := idx_facts3 t
  funext j
  obtain ⟨p, q, rfl⟩ : ∃ (p : Fin 5000) (q : Fin 128), j = ix2 p q := ⟨j 0, j 1, eq_ix2 (n0 := 5000) (n1 := 128) j⟩
  have hP : win3_2.index t (0 : Fin 2) * 5000 + p.val < 50000 := by have := p.isLt; omega
  have hemb : ((cfg3.win 2).blk t).view.emb (ix2 p q)
      = (ix2 (⟨win3_2.index t (0 : Fin 2) * 5000 + p.val, hP⟩ : Fin 50000) q : S50000x128.Idx) := by
    funext a; apply Fin.ext
    match a with
    | ⟨0, _⟩ => show win3_2.index t (0 : Fin 2) * 5000 + 1 * p.val = win3_2.index t (0 : Fin 2) * 5000 + p.val; omega
    | ⟨1, _⟩ => show win3_2.index t (1 : Fin 2) * 128 + 1 * q.val = q.val; omega
  show k3_pay1 (iblk3 V c 0 t) (iblk3 V c 1 t) (ix2 p q) = whole3 (V c main_v101) (V c main_arg12) (((cfg3.win 2).blk t).view.emb (ix2 p q))
  rw [hemb]
  unfold k3_pay1
  refine Cert.LibMatRows.block_entry dot_S5000x256_S256x128_S5000x128_1_0_0_1_n_n
    Cert.ReferenceIdeal.dot_S50000x256_S256x128_S50000x128_1_0_0_1_n_n rfl rfl rfl rfl dB256_l0 dB256_r1 rfl rfl rfl rfl dW50000x256_l0 dW50000x256_r1
    (V c main_v101) (V c main_arg12) _ _ p q ⟨_, hP⟩ (fun k => ?_) (fun k => ?_)
  · refine (congrFun (shapeCast_self (s := S5000x256) (iblk3 V c 0 t) shapeCasts_S5000x256_S5000x256) (ix2 p k)).trans ?_
    show V c main_v101 (((cfg3.win 0).blk t).view.emb (ix2 p k)) = _
    refine congrArg (V c main_v101) ?_
    funext a; apply Fin.ext
    match a with
    | ⟨0, _⟩ => show win3_0.index t (0 : Fin 2) * 5000 + 1 * p.val = win3_2.index t (0 : Fin 2) * 5000 + p.val; omega
    | ⟨1, _⟩ => show win3_0.index t (1 : Fin 2) * 256 + 1 * k.val = k.val; omega
  · show V c main_arg12 (((cfg3.win 1).blk t).view.emb (ix2 k q)) = _
    refine congrArg (V c main_arg12) ?_
    funext a; apply Fin.ext
    match a with
    | ⟨0, _⟩ => show win3_1.index t (0 : Fin 2) * 256 + 1 * k.val = k.val; omega
    | ⟨1, _⟩ => show win3_1.index t (1 : Fin 2) * 128 + 1 * q.val = q.val; omega

theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v102).slice (win3_2.rect t)).set ↔ _
  rw [View.set_slice_whole, Rect.mem_set_unit]
  exact Iff.rfl

/-- The 10 row blocks tile the array: row r lies in block r / 5000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the output array is the whole product of the two input arrays as the region found them. -/
theorem final3 (c : Dev nD) : (dat3 V c).arrAt 2 cfg3.N = whole3 (V c main_v101) (V c main_arg12) :=
  (dat3 V c).arrAt_eq_of_cover 2 (whole3 (V c main_v101) (V c main_arg12)) (fun t _ => flushed3 V c t) cover3

end Cert.KernelIdeal.RVal
end
-- ==== Proof.RegionsMatB.lean ====
/-
  The four second-layer transform regions as whole matrix products.

  Each of these regions multiplies a tall matrix X by a square-ish weight matrix W, 5000 rows of X at a time: grid point
  t loads rows 5000·t … 5000·t + 4999 of X and all of W, casts both to bfloat16 (the identity on the extended reals),
  multiplies them into a zero accumulator and stores the 5000 × 128 result as rows 5000·t … of the output.  Entry (p, q)
  of that block is the sum over k of X[5000·t + p, k] · W[k, q], which is entry (5000·t + p, q) of the host's whole
  product X · W; the blocks tile the output's rows, so after the region the output array IS the whole product.
-/
import proofs.«171965_j27676769256197_1_alg».proof.Proof.Gen.KernelIdeal.Frame
import proofs.«171965_j27676769256197_1_alg».proof.Proof.Gen.ReferenceIdeal
import proofs.«171965_j27676769256197_1_alg».proof.Proof.LibMatRows
import Idealize.ShloMosaic.Lib.Pipeline.Value
import Idealize.ShloMosaic.Lib.ValueIdx
import Idealize.ShloMosaic.PureOps.Ideal.Laws

set_option maxRecDepth 16384

noncomputable section

namespace Cert.KernelIdeal.RVal

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hzB : (![0, 0] : Fin 2 → Nat) = fun _ => 0 := funext fun a => by fin_cases a <;> rfl

theorem dB128_l0 : ∀ (j : S5000x128.Idx) (k : dot_S5000x128_S128x128_S5000x128_1_0_0_1_n_n.contr.Idx), ((dot_S5000x128_S128x128_S5000x128_1_0_0_1_n_n).lhsIdx j k 0).val = (j 0).val := by
  intro j k
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem dB128_r1 : ∀ (j : S5000x128.Idx) (k : dot_S5000x128_S128x128_S5000x128_1_0_0_1_n_n.contr.Idx), ((dot_S5000x128_S128x128_S5000x128_1_0_0_1_n_n).rhsIdx j k 1).val = (j 1).val := by
  intro j k
  unfold DotDims.rhsIdx
  rw [dif_neg (show ¬(1 : Fin (2 : Nat)) ∈ (dot_S5000x128_S128x128_S5000x128_1_0_0_1_n_n).rhsBatch by decide), dif_pos (show (1 : Fin (2 : Nat)) ∈ (dot_S5000x128_S128x128_S5000x128_1_0_0_1_n_n).rhsNonContracting by decide)]
  rfl

theorem dW50000x128_l0 : ∀ (j : S50000x128.Idx) (k : Cert.ReferenceIdeal.dot_S50000x128_S128x128_S50000x128_1_0_0_1_n_n.contr.Idx), ((Cert.ReferenceIdeal.dot_S50000x128_S128x128_S50000x128_1_0_0_1_n_n).lhsIdx j k 0).val = (j 0).val := by
  intro j k
  unfold DotDims.lhsIdx
  rw [dif_neg (show ¬(0 : Fin S50000x128.rank) ∈ (Cert.ReferenceIdeal.dot_S50000x128_S128x128_S50000x128_1_0_0_1_n_n).lhsBatch by decide), dif_pos (show (0 : Fin S50000x128.rank) ∈ (Cert.ReferenceIdeal.dot_S50000x128_S128x128_S50000x128_1_0_0_1_n_n).lhsNonContracting by decide)]
  rfl
theorem dW50000x128_r1 : ∀ (j : S50000x128.Idx) (k : Cert.ReferenceIdeal.dot_S50000x128_S128x128_S50000x128_1_0_0_1_n_n.contr.Idx), ((Cert.ReferenceIdeal.dot_S50000x128_S128x128_S50000x128_1_0_0_1_n_n).rhsIdx j k 1).val = (j 1).val := by
  intro j k
  unfold DotDims.rhsIdx
  rw [dif_neg (show ¬(1 : Fin (2 : Nat)) ∈ (Cert.ReferenceIdeal.dot_S50000x128_S128x128_S50000x128_1_0_0_1_n_n).rhsBatch by decide), dif_pos (show (1 : Fin (2 : Nat)) ∈ (Cert.ReferenceIdeal.dot_S50000x128_S128x128_S50000x128_1_0_0_1_n_n).rhsNonContracting by decide)]
  rfl

theorem dW20000x128_l0 : ∀ (j : S20000x128.Idx) (k : Cert.ReferenceIdeal.dot_S20000x128_S128x128_S20000x128_1_0_0_1_n_n.contr.Idx), ((Cert.ReferenceIdeal.dot_S20000x128_S128x128_S20000x128_1_0_0_1_n_n).lhsIdx j k 0).val = (j 0).val := by
  intro j k
  unfold DotDims.lhsIdx
  rw [dif_neg (show ¬(0 : Fin S20000x128.rank) ∈ (Cert.ReferenceIdeal.dot_S20000x128_S128x128_S20000x128_1_0_0_1_n_n).lhsBatch by decide), dif_pos (show (0 : Fin S20000x128.rank) ∈ (Cert.ReferenceIdeal.dot_S20000x128_S128x128_S20000x128_1_0_0_1_n_n).lhsNonContracting by decide)]
  rfl
theorem dW20000x128_r1 : ∀ (j : S20000x128.Idx) (k : Cert.ReferenceIdeal.dot_S20000x128_S128x128_S20000x128_1_0_0_1_n_n.contr.Idx), ((Cert.ReferenceIdeal.dot_S20000x128_S128x128_S20000x128_1_0_0_1_n_n).rhsIdx j k 1).val = (j 1).val := by
  intro j k
  unfold DotDims.rhsIdx
  rw [dif_neg (show ¬(1 : Fin (2 : Nat)) ∈ (Cert.ReferenceIdeal.dot_S20000x128_S128x128_S20000x128_1_0_0_1_n_n).rhsBatch by decide), dif_pos (show (1 : Fin (2 : Nat)) ∈ (Cert.ReferenceIdeal.dot_S20000x128_S128x128_S20000x128_1_0_0_1_n_n).rhsNonContracting by decide)]
  rfl

/-! ## Region 6: rows of main_v124 (50000 × 128) against main_arg18 (128 × 128), 10 blocks of 5000 rows -/

/-- The whole product X · W, as the host spells it. -/
abbrev whole6 (X : FVec Ideal S50000x128 .f32) (W : FVec Ideal S128x128 .f32) : FVec Ideal S50000x128 .f32 :=
  Host.dotGeneral Cert.ReferenceIdeal.dot_S50000x128_S128x128_S50000x128_1_0_0_1_n_n none X W

theorem idx_facts6 : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 9 :=
  (by decide +kernel : ∀ t : Fin grid6.N, _)

theorem idx_onto6 : ∀ q0 : Fin 10, ∃ t : Fin cfg6.N, win6_2.index t = ![q0.val, 0] :=
  (by decide +kernel : ∀ q0 : Fin 10, ∃ t : Fin grid6.N, win6_2.index t = ![q0.val, 0])

/-- What grid point t writes back is block t (rows 5000·t … 5000·t + 4999) of the whole product: entry (p, q) of the
    block's product into zero and entry (5000·t + p, q) of the whole product are the same sum over the contracted index. -/
theorem flushed6 (c : Dev nD) (t : Fin cfg6.N) :
    (dat6 V c).flushed 2 t = ((cfg6.win 2).blk t).view.read (Elt Ideal) (whole6 (V c main_v124) (V c main_arg18)) := by
  show (cfg6.win 2).cut (grid6.coords t) ((dat6 V c).after 2 t) = _
  rw [after6_2]
  unfold out6_2
  rw [View.canon_unit_zero hzB]
  simp only [View.ld_unit_zero (S := S5000x128) hzB, View.ld_unit_zero (S := S128x128) hzB]
  obtain ⟨e0, e1, e2, e3, e4, e5⟩ := idx_facts6 t
  funext j
  obtain ⟨p, q, rfl⟩ : ∃ (p : Fin 5000) (q : Fin 128), j = ix2 p q := ⟨j 0, j 1, eq_ix2 (n0 := 5000) (n1 := 128) j⟩
  have hP : win6_2.index t (0 : Fin 2) * 5000 + p.val < 50000 := by have := p.isLt; omega
  have hemb : ((cfg6.win 2).blk t).view.emb (ix2 p q)
      = (ix2 (⟨win6_2.index t (0 : Fin 2) * 5000 + p.val, hP⟩ : Fin 50000) q : S50000x128.Idx) := by
    funext a; apply Fin.ext
    match a with
    | ⟨0, _⟩ => show win6_2.index t (0 : Fin 2) * 5000 + 1 * p.val = win6_2.index t (0 : Fin 2) * 5000 + p.val; omega
    | ⟨1, _⟩ => show win6_2.index t (1 : Fin 2) * 128 + 1 * q.val = q.val; omega
  show k6_pay1 (iblk6 V c 0 t) (iblk6 V c 1 t) (ix2 p q) = whole6 (V c main_v124) (V c main_arg18) (((cfg6.win 2).blk t).view.emb (ix2 p q))
  rw [hemb]
  unfold k6_pay1
  refine Cert.LibMatRows.block_entry dot_S5000x128_S128x128_S5000x128_1_0_0_1_n_n
    Cert.ReferenceIdeal.dot_S50000x128_S128x128_S50000x128_1_0_0_1_n_n rfl rfl rfl rfl dB128_l0 dB128_r1 rfl rfl rfl rfl dW50000x128_l0 dW50000x128_r1
    (V c main_v124) (V c main_arg18) _ _ p q ⟨_, hP⟩ (fun k => ?_) (fun k => ?_)
  · refine (congrFun (shapeCast_self (s := S5000x128) (iblk6 V c 0 t) shapeCasts_S5000x128_S5000x128) (ix2 p k)).trans ?_
    show V c main_v124 (((cfg6.win 0).blk t).view.emb (ix2 p k)) = _
    refine congrArg (V c main_v124) ?_
    funext a; apply Fin.ext
    match a with
    | ⟨0, _⟩ => show win6_0.index t (0 : Fin 2) * 5000 + 1 * p.val = win6_2.index t (0 : Fin 2) * 5000 + p.val; omega
    | ⟨1, _⟩ => show win6_0.index t (1 : Fin 2) * 128 + 1 * k.val = k.val; omega
  · show V c main_arg18 (((cfg6.win 1).blk t).view.emb (ix2 k q)) = _
    refine congrArg (V c main_arg18) ?_
    funext a; apply Fin.ext
    match a with
    | ⟨0, _⟩ => show win6_1.index t (0 : Fin 2) * 128 + 1 * k.val = k.val; omega
    | ⟨1, _⟩ => show win6_1.index t (1 : Fin 2) * 128 + 1 * q.val = q.val; omega

theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v125).slice (win6_2.rect t)).set ↔ _
  rw [View.set_slice_whole, Rect.mem_set_unit]
  exact Iff.rfl

/-- The 10 row blocks tile the array: row r lies in block r / 5000. -/
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := idx_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- After the region the output array is the whole product of the two input arrays as the region found them. -/
theorem final6 (c : Dev nD) : (dat6 V c).arrAt 2 cfg6.N = whole6 (V c main_v124) (V c main_arg18) :=
  (dat6 V c).arrAt_eq_of_cover 2 (whole6 (V c main_v124) (V c main_arg18)) (fun t _ => flushed6 V c t) cover6

/-! ## Region 7: rows of main_v141 (50000 × 128) against main_arg22 (128 × 128), 10 blocks of 5000 rows -/

/-- The whole product X · W, as the host spells it. -/
abbrev whole7 (X : FVec Ideal S50000x128 .f32) (W : FVec Ideal S128x128 .f32) : FVec Ideal S50000x128 .f32 :=
  Host.dotGeneral Cert.ReferenceIdeal.dot_S50000x128_S128x128_S50000x128_1_0_0_1_n_n none X W

theorem idx_facts7 : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 ∧ win7_2.index t (0 : Fin 2) ≤ 9 :=
  (by decide +kernel : ∀ t : Fin grid7.N, _)

theorem idx_onto7 : ∀ q0 : Fin 10, ∃ t : Fin cfg7.N, win7_2.index t = ![q0.val, 0] :=
  (by decide +kernel : ∀ q0 : Fin 10, ∃ t : Fin grid7.N, win7_2.index t = ![q0.val, 0])

/-- What grid point t writes back is block t (rows 5000·t … 5000·t + 4999) of the whole product: entry (p, q) of the
    block's product into zero and entry (5000·t + p, q) of the whole product are the same sum over the contracted index. -/
theorem flushed7 (c : Dev nD) (t : Fin cfg7.N) :
    (dat7 V c).flushed 2 t = ((cfg7.win 2).blk t).view.read (Elt Ideal) (whole7 (V c main_v141) (V c main_arg22)) := by
  show (cfg7.win 2).cut (grid7.coords t) ((dat7 V c).after 2 t) = _
  rw [after7_2]
  unfold out7_2
  rw [View.canon_unit_zero hzB]
  simp only [View.ld_unit_zero (S := S5000x128) hzB, View.ld_unit_zero (S := S128x128) hzB]
  obtain ⟨e0, e1, e2, e3, e4, e5⟩ := idx_facts7 t
  funext j
  obtain ⟨p, q, rfl⟩ : ∃ (p : Fin 5000) (q : Fin 128), j = ix2 p q := ⟨j 0, j 1, eq_ix2 (n0 := 5000) (n1 := 128) j⟩
  have hP : win7_2.index t (0 : Fin 2) * 5000 + p.val < 50000 := by have := p.isLt; omega
  have hemb : ((cfg7.win 2).blk t).view.emb (ix2 p q)
      = (ix2 (⟨win7_2.index t (0 : Fin 2) * 5000 + p.val, hP⟩ : Fin 50000) q : S50000x128.Idx) := by
    funext a; apply Fin.ext
    match a with
    | ⟨0, _⟩ => show win7_2.index t (0 : Fin 2) * 5000 + 1 * p.val = win7_2.index t (0 : Fin 2) * 5000 + p.val; omega
    | ⟨1, _⟩ => show win7_2.index t (1 : Fin 2) * 128 + 1 * q.val = q.val; omega
  show k7_pay1 (iblk7 V c 0 t) (iblk7 V c 1 t) (ix2 p q) = whole7 (V c main_v141) (V c main_arg22) (((cfg7.win 2).blk t).view.emb (ix2 p q))
  rw [hemb]
  unfold k7_pay1
  refine Cert.LibMatRows.block_entry dot_S5000x128_S128x128_S5000x128_1_0_0_1_n_n
    Cert.ReferenceIdeal.dot_S50000x128_S128x128_S50000x128_1_0_0_1_n_n rfl rfl rfl rfl dB128_l0 dB128_r1 rfl rfl rfl rfl dW50000x128_l0 dW50000x128_r1
    (V c main_v141) (V c main_arg22) _ _ p q ⟨_, hP⟩ (fun k => ?_) (fun k => ?_)
  · refine (congrFun (shapeCast_self (s := S5000x128) (iblk7 V c 0 t) shapeCasts_S5000x128_S5000x128) (ix2 p k)).trans ?_
    show V c main_v141 (((cfg7.win 0).blk t).view.emb (ix2 p k)) = _
    refine congrArg (V c main_v141) ?_
    funext a; apply Fin.ext
    match a with
    | ⟨0, _⟩ => show win7_0.index t (0 : Fin 2) * 5000 + 1 * p.val = win7_2.index t (0 : Fin 2) * 5000 + p.val; omega
    | ⟨1, _⟩ => show win7_0.index t (1 : Fin 2) * 128 + 1 * k.val = k.val; omega
  · show V c main_arg22 (((cfg7.win 1).blk t).view.emb (ix2 k q)) = _
    refine congrArg (V c main_arg22) ?_
    funext a; apply Fin.ext
    match a with
    | ⟨0, _⟩ => show win7_1.index t (0 : Fin 2) * 128 + 1 * k.val = k.val; omega
    | ⟨1, _⟩ => show win7_1.index t (1 : Fin 2) * 128 + 1 * q.val = q.val; omega

theorem mem_blk7 (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v142).slice (win7_2.rect t)).set ↔ _
  rw [View.set_slice_whole, Rect.mem_set_unit]
  exact Iff.rfl

/-- The 10 row blocks tile the array: row r lies in block r / 5000. -/
theorem cover7 (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ := idx_onto7 ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- After the region the output array is the whole product of the two input arrays as the region found them. -/
theorem final7 (c : Dev nD) : (dat7 V c).arrAt 2 cfg7.N = whole7 (V c main_v141) (V c main_arg22) :=
  (dat7 V c).arrAt_eq_of_cover 2 (whole7 (V c main_v141) (V c main_arg22)) (fun t _ => flushed7 V c t) cover7

/-! ## Region 8: rows of main_v158 (20000 × 128) against main_arg24 (128 × 128), 4 blocks of 5000 rows -/

/-- The whole product X · W, as the host spells it. -/
abbrev whole8 (X : FVec Ideal S20000x128 .f32) (W : FVec Ideal S128x128 .f32) : FVec Ideal S20000x128 .f32 :=
  Host.dotGeneral Cert.ReferenceIdeal.dot_S20000x128_S128x128_S20000x128_1_0_0_1_n_n none X W

theorem idx_facts8 : ∀ t : Fin cfg8.N, win8_0.index t (0 : Fin 2) = win8_2.index t (0 : Fin 2)
    ∧ win8_0.index t (1 : Fin 2) = 0 ∧ win8_1.index t (0 : Fin 2) = 0 ∧ win8_1.index t (1 : Fin 2) = 0
    ∧ win8_2.index t (1 : Fin 2) = 0 ∧ win8_2.index t (0 : Fin 2) ≤ 3 :=
  (by decide +kernel : ∀ t : Fin grid8.N, _)

theorem idx_onto8 : ∀ q0 : Fin 4, ∃ t : Fin cfg8.N, win8_2.index t = ![q0.val, 0] :=
  (by decide +kernel : ∀ q0 : Fin 4, ∃ t : Fin grid8.N, win8_2.index t = ![q0.val, 0])

/-- What grid point t writes back is block t (rows 5000·t … 5000·t + 4999) of the whole product: entry (p, q) of the
    block's product into zero and entry (5000·t + p, q) of the whole product are the same sum over the contracted index. -/
theorem flushed8 (c : Dev nD) (t : Fin cfg8.N) :
    (dat8 V c).flushed 2 t = ((cfg8.win 2).blk t).view.read (Elt Ideal) (whole8 (V c main_v158) (V c main_arg24)) := by
  show (cfg8.win 2).cut (grid8.coords t) ((dat8 V c).after 2 t) = _
  rw [after8_2]
  unfold out8_2
  rw [View.canon_unit_zero hzB]
  simp only [View.ld_unit_zero (S := S5000x128) hzB, View.ld_unit_zero (S := S128x128) hzB]
  obtain ⟨e0, e1, e2, e3, e4, e5⟩ := idx_facts8 t
  funext j
  obtain ⟨p, q, rfl⟩ : ∃ (p : Fin 5000) (q : Fin 128), j = ix2 p q := ⟨j 0, j 1, eq_ix2 (n0 := 5000) (n1 := 128) j⟩
  have hP : win8_2.index t (0 : Fin 2) * 5000 + p.val < 20000 := by have := p.isLt; omega
  have hemb : ((cfg8.win 2).blk t).view.emb (ix2 p q)
      = (ix2 (⟨win8_2.index t (0 : Fin 2) * 5000 + p.val, hP⟩ : Fin 20000) q : S20000x128.Idx) := by
    funext a; apply Fin.ext
    match a with
    | ⟨0, _⟩ => show win8_2.index t (0 : Fin 2) * 5000 + 1 * p.val = win8_2.index t (0 : Fin 2) * 5000 + p.val; omega
    | ⟨1, _⟩ => show win8_2.index t (1 : Fin 2) * 128 + 1 * q.val = q.val; omega
  show k8_pay1 (iblk8 V c 0 t) (iblk8 V c 1 t) (ix2 p q) = whole8 (V c main_v158) (V c main_arg24) (((cfg8.win 2).blk t).view.emb (ix2 p q))
  rw [hemb]
  unfold k8_pay1
  refine Cert.LibMatRows.block_entry dot_S5000x128_S128x128_S5000x128_1_0_0_1_n_n
    Cert.ReferenceIdeal.dot_S20000x128_S128x128_S20000x128_1_0_0_1_n_n rfl rfl rfl rfl dB128_l0 dB128_r1 rfl rfl rfl rfl dW20000x128_l0 dW20000x128_r1
    (V c main_v158) (V c main_arg24) _ _ p q ⟨_, hP⟩ (fun k => ?_) (fun k => ?_)
  · refine (congrFun (shapeCast_self (s := S5000x128) (iblk8 V c 0 t) shapeCasts_S5000x128_S5000x128) (ix2 p k)).trans ?_
    show V c main_v158 (((cfg8.win 0).blk t).view.emb (ix2 p k)) = _
    refine congrArg (V c main_v158) ?_
    funext a; apply Fin.ext
    match a with
    | ⟨0, _⟩ => show win8_0.index t (0 : Fin 2) * 5000 + 1 * p.val = win8_2.index t (0 : Fin 2) * 5000 + p.val; omega
    | ⟨1, _⟩ => show win8_0.index t (1 : Fin 2) * 128 + 1 * k.val = k.val; omega
  · show V c main_arg24 (((cfg8.win 1).blk t).view.emb (ix2 k q)) = _
    refine congrArg (V c main_arg24) ?_
    funext a; apply Fin.ext
    match a with
    | ⟨0, _⟩ => show win8_1.index t (0 : Fin 2) * 128 + 1 * k.val = k.val; omega
    | ⟨1, _⟩ => show win8_1.index t (1 : Fin 2) * 128 + 1 * q.val = q.val; omega

theorem mem_blk8 (t : Fin cfg8.N) (i : S20000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v159).slice (win8_2.rect t)).set ↔ _
  rw [View.set_slice_whole, Rect.mem_set_unit]
  exact Iff.rfl

/-- The 4 row blocks tile the array: row r lies in block r / 5000. -/
theorem cover8 (i : S20000x128.Idx) : ∃ t : Fin cfg8.N, (cfg8.win 2).flush t = true ∧ i ∈ ((cfg8.win 2).blk t).view.set := by
  have hi0 : (i 0).val < 20000 := (i 0).isLt
  have hi1 : (i 1).val < 128 := (i 1).isLt
  obtain ⟨t, ht⟩ := idx_onto8 ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_blk8]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- After the region the output array is the whole product of the two input arrays as the region found them. -/
theorem final8 (c : Dev nD) : (dat8 V c).arrAt 2 cfg8.N = whole8 (V c main_v158) (V c main_arg24) :=
  (dat8 V c).arrAt_eq_of_cover 2 (whole8 (V c main_v158) (V c main_arg24)) (fun t _ => flushed8 V c t) cover8

/-! ## Region 9: rows of main_v175 (50000 × 128) against main_arg20 (128 × 128), 10 blocks of 5000 rows -/

/-- The whole product X · W, as the host spells it. -/
abbrev whole9 (X : FVec Ideal S50000x128 .f32) (W : FVec Ideal S128x128 .f32) : FVec Ideal S50000x128 .f32 :=
  Host.dotGeneral Cert.ReferenceIdeal.dot_S50000x128_S128x128_S50000x128_1_0_0_1_n_n none X W

theorem idx_facts9 : ∀ t : Fin cfg9.N, win9_0.index t (0 : Fin 2) = win9_2.index t (0 : Fin 2)
    ∧ win9_0.index t (1 : Fin 2) = 0 ∧ win9_1.index t (0 : Fin 2) = 0 ∧ win9_1.index t (1 : Fin 2) = 0
    ∧ win9_2.index t (1 : Fin 2) = 0 ∧ win9_2.index t (0 : Fin 2) ≤ 9 :=
  (by decide +kernel : ∀ t : Fin grid9.N, _)

theorem idx_onto9 : ∀ q0 : Fin 10, ∃ t : Fin cfg9.N, win9_2.index t = ![q0.val, 0] :=
  (by decide +kernel : ∀ q0 : Fin 10, ∃ t : Fin grid9.N, win9_2.index t = ![q0.val, 0])

/-- What grid point t writes back is block t (rows 5000·t … 5000·t + 4999) of the whole product: entry (p, q) of the
    block's product into zero and entry (5000·t + p, q) of the whole product are the same sum over the contracted index. -/
theorem flushed9 (c : Dev nD) (t : Fin cfg9.N) :
    (dat9 V c).flushed 2 t = ((cfg9.win 2).blk t).view.read (Elt Ideal) (whole9 (V c main_v175) (V c main_arg20)) := by
  show (cfg9.win 2).cut (grid9.coords t) ((dat9 V c).after 2 t) = _
  rw [after9_2]
  unfold out9_2
  rw [View.canon_unit_zero hzB]
  simp only [View.ld_unit_zero (S := S5000x128) hzB, View.ld_unit_zero (S := S128x128) hzB]
  obtain ⟨e0, e1, e2, e3, e4, e5⟩ := idx_facts9 t
  funext j
  obtain ⟨p, q, rfl⟩ : ∃ (p : Fin 5000) (q : Fin 128), j = ix2 p q := ⟨j 0, j 1, eq_ix2 (n0 := 5000) (n1 := 128) j⟩
  have hP : win9_2.index t (0 : Fin 2) * 5000 + p.val < 50000 := by have := p.isLt; omega
  have hemb : ((cfg9.win 2).blk t).view.emb (ix2 p q)
      = (ix2 (⟨win9_2.index t (0 : Fin 2) * 5000 + p.val, hP⟩ : Fin 50000) q : S50000x128.Idx) := by
    funext a; apply Fin.ext
    match a with
    | ⟨0, _⟩ => show win9_2.index t (0 : Fin 2) * 5000 + 1 * p.val = win9_2.index t (0 : Fin 2) * 5000 + p.val; omega
    | ⟨1, _⟩ => show win9_2.index t (1 : Fin 2) * 128 + 1 * q.val = q.val; omega
  show k9_pay1 (iblk9 V c 0 t) (iblk9 V c 1 t) (ix2 p q) = whole9 (V c main_v175) (V c main_arg20) (((cfg9.win 2).blk t).view.emb (ix2 p q))
  rw [hemb]
  unfold k9_pay1
  refine Cert.LibMatRows.block_entry dot_S5000x128_S128x128_S5000x128_1_0_0_1_n_n
    Cert.ReferenceIdeal.dot_S50000x128_S128x128_S50000x128_1_0_0_1_n_n rfl rfl rfl rfl dB128_l0 dB128_r1 rfl rfl rfl rfl dW50000x128_l0 dW50000x128_r1
    (V c main_v175) (V c main_arg20) _ _ p q ⟨_, hP⟩ (fun k => ?_) (fun k => ?_)
  · refine (congrFun (shapeCast_self (s := S5000x128) (iblk9 V c 0 t) shapeCasts_S5000x128_S5000x128) (ix2 p k)).trans ?_
    show V c main_v175 (((cfg9.win 0).blk t).view.emb (ix2 p k)) = _
    refine congrArg (V c main_v175) ?_
    funext a; apply Fin.ext
    match a with
    | ⟨0, _⟩ => show win9_0.index t (0 : Fin 2) * 5000 + 1 * p.val = win9_2.index t (0 : Fin 2) * 5000 + p.val; omega
    | ⟨1, _⟩ => show win9_0.index t (1 : Fin 2) * 128 + 1 * k.val = k.val; omega
  · show V c main_arg20 (((cfg9.win 1).blk t).view.emb (ix2 k q)) = _
    refine congrArg (V c main_arg20) ?_
    funext a; apply Fin.ext
    match a with
    | ⟨0, _⟩ => show win9_1.index t (0 : Fin 2) * 128 + 1 * k.val = k.val; omega
    | ⟨1, _⟩ => show win9_1.index t (1 : Fin 2) * 128 + 1 * q.val = q.val; omega

theorem mem_blk9 (t : Fin cfg9.N) (i : S50000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v176).slice (win9_2.rect t)).set ↔ _
  rw [View.set_slice_whole, Rect.mem_set_unit]
  exact Iff.rfl

/-- The 10 row blocks tile the array: row r lies in block r / 5000. -/
theorem cover9 (i : S50000x128.Idx) : ∃ t : Fin cfg9.N, (cfg9.win 2).flush t = true ∧ i ∈ ((cfg9.win 2).blk t).view.set := by
  have hi0 : (i 0).val < 50000 := (i 0).isLt
  have hi1 : (i 1).val < 128 := (i 1).isLt
  obtain ⟨t, ht⟩ := idx_onto9 ⟨(i 0).val / 5000, by omega⟩
  have q0 : win9_2.index t (0 : Fin 2) = (i 0).val / 5000 := congrFun ht 0
  have q1 : win9_2.index t (1 : Fin 2) = 0 := congrFun ht 1
  refine ⟨t, flush9_2 t, ?_⟩
  rw [mem_blk9]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 128 ≤ (i 1).val ∧ (i 1).val < win9_2.index t (1 : Fin 2) * 128 + 128; omega

/-- After the region the output array is the whole product of the two input arrays as the region found them. -/
theorem final9 (c : Dev nD) : (dat9 V c).arrAt 2 cfg9.N = whole9 (V c main_v175) (V c main_arg20) :=
  (dat9 V c).arrAt_eq_of_cover 2 (whole9 (V c main_v175) (V c main_arg20)) (fun t _ => flushed9 V c t) cover9

end Cert.KernelIdeal.RVal
end
-- ==== Proof.LibCombine.lean ====
/-
  Sums of per-relation contributions and bias rows, rectified: the vector unit's spelling against the host's.

  A bias row r (a 1 × n matrix) broadcast down the rows of a matrix has r[0, q] at entry (p, q), whether it is spelt as a
  trailing-axes broadcast of a block or as a broadcast along named axes of the whole matrix.  The kernel adds three
  contributions and three bias rows from left to right, (((((x0 + y0) + x1) + y1) + x2) + y2); the host adds each
  contribution to its own bias first and then adds the three, ((x0 + y0) + (x1 + y1)) + (x2 + y2).  Addition on the
  extended reals is associative (and commutative), with no finiteness needed, so the two agree entry by entry; the
  maximum against zero is then taken of equal numbers.  A vector reshaped to one row is the same row as the vector given
  a leading unit axis.  All extents are variables.
-/
import Idealize.ShloMosaic.PureOps.Ideal.Laws
import Idealize.ShloMosaic.Lib.ValueIdx
import Idealize.ShloMosaic.Lib.Pipeline.Value

noncomputable section

namespace Cert.LibCombine

open Idealize.ShloMosaic Idealize.ShloMosaic.ValueIdx

/-- A coordinate below an extent is itself, or zero when the extent is one. -/
theorem val_eq_ite {n : Nat} (a : Fin n) : a.val = if n = 1 then 0 else a.val := by
  split
  · have := a.isLt; omega
  · rfl

/-- A row (1 × n) cast to its own shape and broadcast down a rows reads, at (p, q), the row at q. -/
theorem blockRow_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply _ h2 (ix2 p q) (ix2 0 q) (fun c => by
    match c with
    | ⟨0, _⟩ => show (0 : Nat) = if (1 : Nat) = 1 then 0 else _; rw [if_pos rfl]
    | ⟨1, _⟩ => exact val_eq_ite (n := n) q)

/-- A row (1 × n) broadcast along both axes down A rows reads, at (P, q), the row at q. -/
theorem wholeRow_apply {α : Type} {A n : Nat} (r : (⟨2, ![1, n]⟩ : Shape).Idx → α)
    (h4 : (⟨2, ![1, n]⟩ : Shape).BroadcastsInDim ⟨2, ![A, n]⟩ (![0, 1] : Fin 2 → Fin 2)) (P : Fin A) (q : Fin n) :
    broadcastInDim ⟨2, ![A, n]⟩ ![0, 1] h4 r (ix2 P q) = r (ix2 0 q) :=
  broadcastInDim_apply _ h4 _ (ix2 P q) (ix2 0 q) (fun c => by
    match c with
    | ⟨0, _⟩ => show (0 : Nat) = if (1 : Nat) = 1 then 0 else _; rw [if_pos rfl]
    | ⟨1, _⟩ => exact val_eq_ite (n := n) q)

/-- A vector of length n reshaped to one row is the vector given a leading unit axis. -/
theorem reshapeRow_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨z, q, rfl⟩ : ∃ (z : Fin 1) (q : Fin n), i = ix2 z q := ⟨i 0, i 1, eq_ix2 i⟩
  rw [broadcastInDim_apply _ h3 b (ix2 z q) (ix1 q) (fun c => by
    match c with
    | ⟨0, _⟩ => exact val_eq_ite (n := n) q)]
  refine shapeCast_apply b h0 (ix2 z q) (ix1 q) ?_
  rw [Shape.rowMajor_val_one, Shape.rowMajor_val_two]
  have hz : z.val = 0 := by have := z.isLt; omega
  show q.val = z.val * n + q.val
  rw [hz]; omega

/-- THREE CONTRIBUTIONS WITH THEIR BIAS ROWS, RECTIFIED, at one entry: the kernel's left-to-right sum over a block is the
    host's grouped sum over the whole matrix, when the block's entry (p, q) is the whole's entry (P, q) and the block's bias
    rows are the whole bias rows at column q. -/
theorem combine3_entry {a A n : Nat} (a0 a1 a2 : FVec Ideal ⟨2, ![a, n]⟩ .f32) (r0 r1 r2 : FVec Ideal ⟨2, ![1, n]⟩ .f32)
    (A0 A1 A2 : FVec Ideal ⟨2, ![A, n]⟩ .f32) (R0 R1 R2 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A)
    (e0 : a0 (ix2 p q) = A0 (ix2 P q)) (e1 : a1 (ix2 p q) = A1 (ix2 P q)) (e2 : a2 (ix2 p q) = A2 (ix2 P q))
    (f0 : r0 (ix2 0 q) = R0 (ix2 0 q)) (f1 : r1 (ix2 0 q) = R1 (ix2 0 q)) (f2 : r2 (ix2 0 q) = R2 (ix2 0 q)) :
    maximumf (addf (addf (addf (addf (addf a0
        (broadcastTo ⟨2, ![a, n]⟩ (shapeCast ⟨2, ![1, n]⟩ r0 h1) h2)) a1)
        (broadcastTo ⟨2, ![a, n]⟩ (shapeCast ⟨2, ![1, n]⟩ r1 h1) h2)) a2)
        (broadcastTo ⟨2, ![a, n]⟩ (shapeCast ⟨2, ![1, n]⟩ r2 h1) h2))
        (broadcast ⟨2, ![a, n]⟩ (Scalar.ofBits (F := Ideal) .f32 0x00000000#32)) (ix2 p q)
      = maximumf (addf (addf (addf A0 (broadcastInDim ⟨2, ![A, n]⟩ ![0, 1] h4 R0))
          (addf A1 (broadcastInDim ⟨2, ![A, n]⟩ ![0, 1] h4 R1)))
          (addf A2 (broadcastInDim ⟨2, ![A, n]⟩ ![0, 1] h4 R2)))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, blockRow_apply r1 h1 h2 p q, blockRow_apply r2 h1 h2 p q,
    wholeRow_apply R0 h4 P q, wholeRow_apply R1 h4 P q, wholeRow_apply R2 h4 P q, e0, e1, e2, f0, f1, f2]
  simp only [Ideal.addf_def, add_assoc]

/-- ONE CONTRIBUTION WITH ITS BIAS ROW, RECTIFIED, at one entry. -/
theorem combine1_entry {a A n : Nat} (a0 : FVec Ideal ⟨2, ![a, n]⟩ .f32) (r0 : FVec Ideal ⟨2, ![1, n]⟩ .f32)
    (A0 : FVec Ideal ⟨2, ![A, n]⟩ .f32) (R0 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A) (e0 : a0 (ix2 p q) = A0 (ix2 P q)) (f0 : r0 (ix2 0 q) = R0 (ix2 0 q)) :
    maximumf (addf a0 (broadcastTo ⟨2, ![a, n]⟩ (shapeCast ⟨2, ![1, n]⟩ r0 h1) h2))
        (broadcast ⟨2, ![a, n]⟩ (Scalar.ofBits (F := Ideal) .f32 0x00000000#32)) (ix2 p q)
      = maximumf (addf A0 (broadcastInDim ⟨2, ![A, n]⟩ ![0, 1] h4 R0))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, wholeRow_apply R0 h4 P q, e0, f0]

end Cert.LibCombine

end
-- ==== Proof.RegionsCombine.lean ====
/-
  The four combine regions as the host's rectified sums.

  A combine region takes, per destination node type, the relations' contributions (one 5000-row block of each at a
  grid point) and the relations' bias vectors as 1 × 128 rows, adds everything from left to right and takes the maximum
  with zero.  Entry by entry this is the host's expression — each contribution plus its own bias row broadcast down the
  rows, those sums added, the maximum with the zero matrix —, because addition on the extended reals is associative; the
  blocks tile the output's rows, so after the region the output array IS that expression of the region's input arrays.
-/
import proofs.«171965_j27676769256197_1_alg».proof.Proof.Gen.KernelIdeal.Frame
import proofs.«171965_j27676769256197_1_alg».proof.Proof.Gen.ReferenceIdeal
import proofs.«171965_j27676769256197_1_alg».proof.Proof.LibCombine
import Idealize.ShloMosaic.Lib.Pipeline.Value
import Idealize.ShloMosaic.Lib.ValueIdx
import Idealize.ShloMosaic.PureOps.Ideal.Laws

set_option maxRecDepth 16384

noncomputable section

namespace Cert.KernelIdeal.RVal

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hzC : (![0, 0] : Fin 2 → Nat) = fun _ => 0 := funext fun a => by fin_cases a <;> rfl

/-! ## Region 4: three contributions (main_v64, main_v81, main_v98) and their bias rows (main_v116, main_v117, main_v118), 50000 rows -/

/-- The rectified sum as the host spells it: each contribution added to its own bias row broadcast down the rows, the
    three sums added, the maximum with zero. -/
abbrev whole4 (A0 A1 A2 : FVec Ideal S50000x128 .f32) (R0 R1 R2 : FVec Ideal S1x128 .f32) : FVec Ideal S50000x128 .f32 :=
  maximumf (addf (addf (addf A0 (broadcastInDim S50000x128 ![0, 1] Cert.ReferenceIdeal.Facts₀.bcast_S1x128_S50000x128_0_1 R0))
      (addf A1 (broadcastInDim S50000x128 ![0, 1] Cert.ReferenceIdeal.Facts₀.bcast_S1x128_S50000x128_0_1 R1)))
      (addf A2 (broadcastInDim S50000x128 ![0, 1] Cert.ReferenceIdeal.Facts₀.bcast_S1x128_S50000x128_0_1 R2)))
    (broadcastInDim S50000x128 ![] Cert.ReferenceIdeal.Facts₀.bcast_S_S50000x128 (constant S_ .f32 0x00000000#32))

theorem idx_facts4 : ∀ t : Fin cfg4.N, win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) ≤ 9 :=
  (by decide +kernel : ∀ t : Fin grid4.N, _)

theorem idx_onto4 : ∀ q0 : Fin 10, ∃ t : Fin cfg4.N, win4_6.index t = ![q0.val, 0] :=
  (by decide +kernel : ∀ q0 : Fin 10, ∃ t : Fin grid4.N, win4_6.index t = ![q0.val, 0])

/-- What grid point t writes back is block t of the host's rectified sum: entry by entry the kernel's left-to-right sum
    of the six terms is the host's grouped sum (associativity of addition on the extended reals). -/
theorem flushed4 (c : Dev nD) (t : Fin cfg4.N) :
    (dat4 V c).flushed 6 t = ((cfg4.win 6).blk t).view.read (Elt Ideal)
      (whole4 (V c main_v64) (V c main_v81) (V c main_v98) (V c main_v116) (V c main_v117) (V c main_v118)) := by
  show (cfg4.win 6).cut (grid4.coords t) ((dat4 V c).after 6 t) = _
  rw [after4_6]
  unfold out4_6
  rw [View.canon_unit_zero hzC]
  simp only [View.ld_unit_zero (S := S5000x128) hzC, View.ld_unit_zero (S := S1x128) hzC]
  obtain ⟨e0, e1, e2, e3, e4, e5, e6, e7, e8, e9, e10, e11, e12, e13⟩ := idx_facts4 t
  funext j
  obtain ⟨p, q, rfl⟩ : ∃ (p : Fin 5000) (q : Fin 128), j = ix2 p q := ⟨j 0, j 1, eq_ix2 (n0 := 5000) (n1 := 128) j⟩
  have hP : win4_6.index t (0 : Fin 2) * 5000 + p.val < 50000 := by have := p.isLt; omega
  have hemb : ((cfg4.win 6).blk t).view.emb (ix2 p q)
      = (ix2 (⟨win4_6.index t (0 : Fin 2) * 5000 + p.val, hP⟩ : Fin 50000) q : S50000x128.Idx) := by
    funext a; apply Fin.ext
    match a with
    | ⟨0, _⟩ => show win4_6.index t (0 : Fin 2) * 5000 + 1 * p.val = win4_6.index t (0 : Fin 2) * 5000 + p.val; omega
    | ⟨1, _⟩ => show win4_6.index t (1 : Fin 2) * 128 + 1 * q.val = q.val; omega
  show k4_pay1 (iblk4 V c 0 t) (iblk4 V c 3 t) (iblk4 V c 1 t) (iblk4 V c 4 t) (iblk4 V c 2 t) (iblk4 V c 5 t) (ix2 p q)
    = whole4 (V c main_v64) (V c main_v81) (V c main_v98) (V c main_v116) (V c main_v117) (V c main_v118) (((cfg4.win 6).blk t).view.emb (ix2 p q))
  rw [hemb]
  unfold k4_pay1
  refine Cert.LibCombine.combine3_entry _ _ _ (iblk4 V c 3 t) (iblk4 V c 4 t) (iblk4 V c 5 t)
    (V c main_v64) (V c main_v81) (V c main_v98) (V c main_v116) (V c main_v117) (V c main_v118) _ _ _ _ p q ⟨_, hP⟩ ?_ ?_ ?_ ?_ ?_ ?_
  · refine (congrFun (shapeCast_self (s := S5000x128) (iblk4 V c 0 t) shapeCasts_S5000x128_S5000x128) (ix2 p q)).trans ?_
    show V c main_v64 (((cfg4.win 0).blk t).view.emb (ix2 p q)) = _
    refine congrArg (V c main_v64) ?_
    funext a; apply Fin.ext
    match a with
    | ⟨0, _⟩ => show win4_0.index t (0 : Fin 2) * 5000 + 1 * p.val = win4_6.index t (0 : Fin 2) * 5000 + p.val; omega
    | ⟨1, _⟩ => show win4_0.index t (1 : Fin 2) * 128 + 1 * q.val = q.val; omega
  · refine (congrFun (shapeCast_self (s := S5000x128) (iblk4 V c 1 t) shapeCasts_S5000x128_S5000x128) (ix2 p q)).trans ?_
    show V c main_v81 (((cfg4.win 1).blk t).view.emb (ix2 p q)) = _
    refine congrArg (V c main_v81) ?_
    funext a; apply Fin.ext
    match a with
    | ⟨0, _⟩ => show win4_1.index t (0 : Fin 2) * 5000 + 1 * p.val = win4_6.index t (0 : Fin 2) * 5000 + p.val; omega
    | ⟨1, _⟩ => show win4_1.index t (1 : Fin 2) * 128 + 1 * q.val = q.val; omega
  · refine (congrFun (shapeCast_self (s := S5000x128) (iblk4 V c 2 t) shapeCasts_S5000x128_S5000x128) (ix2 p q)).trans ?_
    show V c main_v98 (((cfg4.win 2).blk t).view.emb (ix2 p q)) = _
    refine congrArg (V c main_v98) ?_
    funext a; apply Fin.ext
    match a with
    | ⟨0, _⟩ => show win4_2.index t (0 : Fin 2) * 5000 + 1 * p.val = win4_6.index t (0 : Fin 2) * 5000 + p.val; omega
    | ⟨1, _⟩ => show win4_2.index t (1 : Fin 2) * 128 + 1 * q.val = q.val; omega
  · show V c main_v116 (((cfg4.win 3).blk t).view.emb (ix2 0 q)) = _
    refine congrArg (V c main_v116) ?_
    funext a; apply Fin.ext
    match a with
    | ⟨0, _⟩ => show win4_3.index t (0 : Fin 2) * 1 + 1 * 0 = 0; omega
    | ⟨1, _⟩ => show win4_3.index t (1 : Fin 2) * 128 + 1 * q.val = q.val; omega
  · show V c main_v117 (((cfg4.win 4).blk t).view.emb (ix2 0 q)) = _
    refine congrArg (V c main_v117) ?_
    funext a; apply Fin.ext
    match a with
    | ⟨0, _⟩ => show win4_4.index t (0 : Fin 2) * 1 + 1 * 0 = 0; omega
    | ⟨1, _⟩ => show win4_4.index t (1 : Fin 2) * 128 + 1 * q.val = q.val; omega
  · show V c main_v118 (((cfg4.win 5).blk t).view.emb (ix2 0 q)) = _
    refine congrArg (V c main_v118) ?_
    funext a; apply Fin.ext
    match a with
    | ⟨0, _⟩ => show win4_5.index t (0 : Fin 2) * 1 + 1 * 0 = 0; omega
    | ⟨1, _⟩ => show win4_5.index t (1 : Fin 2) * 128 + 1 * q.val = q.val; omega

theorem mem_blk4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v119).slice (win4_6.rect t)).set ↔ _
  rw [View.set_slice_whole, Rect.mem_set_unit]
  exact Iff.rfl

/-- The 10 row blocks tile the array: row r lies in block r / 5000. -/
theorem cover4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ := idx_onto4 ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- After the region the output array is the host's rectified sum of the arrays the region found. -/
theorem final4 (c : Dev nD) : (dat4 V c).arrAt 6 cfg4.N
    = whole4 (V c main_v64) (V c main_v81) (V c main_v98) (V c main_v116) (V c main_v117) (V c main_v118) :=
  (dat4 V c).arrAt_eq_of_cover 6 _ (fun t _ => flushed4 V c t) cover4

/-! ## Region 5: one contribution (main_v115) and its bias row (main_v120), 20000 rows -/

/-- The rectified sum as the host spells it. -/
abbrev whole5 (A0 : FVec Ideal S20000x128 .f32) (R0 : FVec Ideal S1x128 .f32) : FVec Ideal S20000x128 .f32 :=
  maximumf (addf A0 (broadcastInDim S20000x128 ![0, 1] Cert.ReferenceIdeal.Facts₀.bcast_S1x128_S20000x128_0_1 R0))
    (broadcastInDim S20000x128 ![] Cert.ReferenceIdeal.Facts₀.bcast_S_S20000x128 (constant S_ .f32 0x00000000#32))

theorem idx_facts5 : ∀ t : Fin cfg5.N, win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 3 :=
  (by decide +kernel : ∀ t : Fin grid5.N, _)

theorem idx_onto5 : ∀ q0 : Fin 4, ∃ t : Fin cfg5.N, win5_2.index t = ![q0.val, 0] :=
  (by decide +kernel : ∀ q0 : Fin 4, ∃ t : Fin grid5.N, win5_2.index t = ![q0.val, 0])

/-- What grid point t writes back is block t of the host's rectified sum. -/
theorem flushed5 (c : Dev nD) (t : Fin cfg5.N) :
    (dat5 V c).flushed 2 t = ((cfg5.win 2).blk t).view.read (Elt Ideal) (whole5 (V c main_v115) (V c main_v120)) := by
  show (cfg5.win 2).cut (grid5.coords t) ((dat5 V c).after 2 t) = _
  rw [after5_2]
  unfold out5_2
  rw [View.canon_unit_zero hzC]
  simp only [View.ld_unit_zero (S := S5000x128) hzC, View.ld_unit_zero (S := S1x128) hzC]
  obtain ⟨e0, e1, e2, e3, e4, e5⟩ := idx_facts5 t
  funext j
  obtain ⟨p, q, rfl⟩ : ∃ (p : Fin 5000) (q : Fin 128), j = ix2 p q := ⟨j 0, j 1, eq_ix2 (n0 := 5000) (n1 := 128) j⟩
  have hP : win5_2.index t (0 : Fin 2) * 5000 + p.val < 20000 := by have := p.isLt; omega
  have hemb : ((cfg5.win 2).blk t).view.emb (ix2 p q)
      = (ix2 (⟨win5_2.index t (0 : Fin 2) * 5000 + p.val, hP⟩ : Fin 20000) q : S20000x128.Idx) := by
    funext a; apply Fin.ext
    match a with
    | ⟨0, _⟩ => show win5_2.index t (0 : Fin 2) * 5000 + 1 * p.val = win5_2.index t (0 : Fin 2) * 5000 + p.val; omega
    | ⟨1, _⟩ => show win5_2.index t (1 : Fin 2) * 128 + 1 * q.val = q.val; omega
  show k5_pay1 (iblk5 V c 0 t) (iblk5 V c 1 t) (ix2 p q)
    = whole5 (V c main_v115) (V c main_v120) (((cfg5.win 2).blk t).view.emb (ix2 p q))
  rw [hemb]
  unfold k5_pay1
  refine Cert.LibCombine.combine1_entry _ (iblk5 V c 1 t) (V c main_v115) (V c main_v120) _ _ _ _ p q ⟨_, hP⟩ ?_ ?_
  · refine (congrFun (shapeCast_self (s := S5000x128) (iblk5 V c 0 t) shapeCasts_S5000x128_S5000x128) (ix2 p q)).trans ?_
    show V c main_v115 (((cfg5.win 0).blk t).view.emb (ix2 p q)) = _
    refine congrArg (V c main_v115) ?_
    funext a; apply Fin.ext
    match a with
    | ⟨0, _⟩ => show win5_0.index t (0 : Fin 2) * 5000 + 1 * p.val = win5_2.index t (0 : Fin 2) * 5000 + p.val; omega
    | ⟨1, _⟩ => show win5_0.index t (1 : Fin 2) * 128 + 1 * q.val = q.val; omega
  · show V c main_v120 (((cfg5.win 1).blk t).view.emb (ix2 0 q)) = _
    refine congrArg (V c main_v120) ?_
    funext a; apply Fin.ext
    match a with
    | ⟨0, _⟩ => show win5_1.index t (0 : Fin 2) * 1 + 1 * 0 = 0; omega
    | ⟨1, _⟩ => show win5_1.index t (1 : Fin 2) * 128 + 1 * q.val = q.val; omega

theorem mem_blk5 (t : Fin cfg5.N) (i : S20000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v121).slice (win5_2.rect t)).set ↔ _
  rw [View.set_slice_whole, Rect.mem_set_unit]
  exact Iff.rfl

/-- The 4 row blocks tile the array: row r lies in block r / 5000. -/
theorem cover5 (i : S20000x128.Idx) : ∃ t : Fin cfg5.N, (cfg5.win 2).flush t = true ∧ i ∈ ((cfg5.win 2).blk t).view.set := by
  have hi0 : (i 0).val < 20000 := (i 0).isLt
  have hi1 : (i 1).val < 128 := (i 1).isLt
  obtain ⟨t, ht⟩ := idx_onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the region the output array is the host's rectified sum of the arrays the region found. -/
theorem final5 (c : Dev nD) : (dat5 V c).arrAt 2 cfg5.N = whole5 (V c main_v115) (V c main_v120) :=
  (dat5 V c).arrAt_eq_of_cover 2 _ (fun t _ => flushed5 V c t) cover5

/-! ## Region 10: three contributions (main_v138, main_v155, main_v172) and their bias rows (main_v190, main_v191, main_v192), 50000 rows -/

/-- The rectified sum as the host spells it: each contribution added to its own bias row broadcast down the rows, the
    three sums added, the maximum with zero. -/
abbrev whole10 (A0 A1 A2 : FVec Ideal S50000x128 .f32) (R0 R1 R2 : FVec Ideal S1x128 .f32) : FVec Ideal S50000x128 .f32 :=
  maximumf (addf (addf (addf A0 (broadcastInDim S50000x128 ![0, 1] Cert.ReferenceIdeal.Facts₀.bcast_S1x128_S50000x128_0_1 R0))
      (addf A1 (broadcastInDim S50000x128 ![0, 1] Cert.ReferenceIdeal.Facts₀.bcast_S1x128_S50000x128_0_1 R1)))
      (addf A2 (broadcastInDim S50000x128 ![0, 1] Cert.ReferenceIdeal.Facts₀.bcast_S1x128_S50000x128_0_1 R2)))
    (broadcastInDim S50000x128 ![] Cert.ReferenceIdeal.Facts₀.bcast_S_S50000x128 (constant S_ .f32 0x00000000#32))

theorem idx_facts10 : ∀ t : Fin cfg10.N, win10_0.index t (0 : Fin 2) = win10_6.index t (0 : Fin 2) ∧ win10_0.index t (1 : Fin 2) = 0
    ∧ win10_1.index t (0 : Fin 2) = win10_6.index t (0 : Fin 2) ∧ win10_1.index t (1 : Fin 2) = 0
    ∧ win10_2.index t (0 : Fin 2) = win10_6.index t (0 : Fin 2) ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (1 : Fin 2) = 0 ∧ win10_6.index t (0 : Fin 2) ≤ 9 :=
  (by decide +kernel : ∀ t : Fin grid10.N, _)

theorem idx_onto10 : ∀ q0 : Fin 10, ∃ t : Fin cfg10.N, win10_6.index t = ![q0.val, 0] :=
  (by decide +kernel : ∀ q0 : Fin 10, ∃ t : Fin grid10.N, win10_6.index t = ![q0.val, 0])

/-- What grid point t writes back is block t of the host's rectified sum: entry by entry the kernel's left-to-right sum
    of the six terms is the host's grouped sum (associativity of addition on the extended reals). -/
theorem flushed10 (c : Dev nD) (t : Fin cfg10.N) :
    (dat10 V c).flushed 6 t = ((cfg10.win 6).blk t).view.read (Elt Ideal)
      (whole10 (V c main_v138) (V c main_v155) (V c main_v172) (V c main_v190) (V c main_v191) (V c main_v192)) := by
  show (cfg10.win 6).cut (grid10.coords t) ((dat10 V c).after 6 t) = _
  rw [after10_6]
  unfold out10_6
  rw [View.canon_unit_zero hzC]
  simp only [View.ld_unit_zero (S := S5000x128) hzC, View.ld_unit_zero (S := S1x128) hzC]
  obtain ⟨e0, e1, e2, e3, e4, e5, e6, e7, e8, e9, e10, e11, e12, e13⟩ := idx_facts10 t
  funext j
  obtain ⟨p, q, rfl⟩ : ∃ (p : Fin 5000) (q : Fin 128), j = ix2 p q := ⟨j 0, j 1, eq_ix2 (n0 := 5000) (n1 := 128) j⟩
  have hP : win10_6.index t (0 : Fin 2) * 5000 + p.val < 50000 := by have := p.isLt; omega
  have hemb : ((cfg10.win 6).blk t).view.emb (ix2 p q)
      = (ix2 (⟨win10_6.index t (0 : Fin 2) * 5000 + p.val, hP⟩ : Fin 50000) q : S50000x128.Idx) := by
    funext a; apply Fin.ext
    match a with
    | ⟨0, _⟩ => show win10_6.index t (0 : Fin 2) * 5000 + 1 * p.val = win10_6.index t (0 : Fin 2) * 5000 + p.val; omega
    | ⟨1, _⟩ => show win10_6.index t (1 : Fin 2) * 128 + 1 * q.val = q.val; omega
  show k10_pay1 (iblk10 V c 0 t) (iblk10 V c 3 t) (iblk10 V c 1 t) (iblk10 V c 4 t) (iblk10 V c 2 t) (iblk10 V c 5 t) (ix2 p q)
    = whole10 (V c main_v138) (V c main_v155) (V c main_v172) (V c main_v190) (V c main_v191) (V c main_v192) (((cfg10.win 6).blk t).view.emb (ix2 p q))
  rw [hemb]
  unfold k10_pay1
  refine Cert.LibCombine.combine3_entry _ _ _ (iblk10 V c 3 t) (iblk10 V c 4 t) (iblk10 V c 5 t)
    (V c main_v138) (V c main_v155) (V c main_v172) (V c main_v190) (V c main_v191) (V c main_v192) _ _ _ _ p q ⟨_, hP⟩ ?_ ?_ ?_ ?_ ?_ ?_
  · refine (congrFun (shapeCast_self (s := S5000x128) (iblk10 V c 0 t) shapeCasts_S5000x128_S5000x128) (ix2 p q)).trans ?_
    show V c main_v138 (((cfg10.win 0).blk t).view.emb (ix2 p q)) = _
    refine congrArg (V c main_v138) ?_
    funext a; apply Fin.ext
    match a with
    | ⟨0, _⟩ => show win10_0.index t (0 : Fin 2) * 5000 + 1 * p.val = win10_6.index t (0 : Fin 2) * 5000 + p.val; omega
    | ⟨1, _⟩ => show win10_0.index t (1 : Fin 2) * 128 + 1 * q.val = q.val; omega
  · refine (congrFun (shapeCast_self (s := S5000x128) (iblk10 V c 1 t) shapeCasts_S5000x128_S5000x128) (ix2 p q)).trans ?_
    show V c main_v155 (((cfg10.win 1).blk t).view.emb (ix2 p q)) = _
    refine congrArg (V c main_v155) ?_
    funext a; apply Fin.ext
    match a with
    | ⟨0, _⟩ => show win10_1.index t (0 : Fin 2) * 5000 + 1 * p.val = win10_6.index t (0 : Fin 2) * 5000 + p.val; omega
    | ⟨1, _⟩ => show win10_1.index t (1 : Fin 2) * 128 + 1 * q.val = q.val; omega
  · refine (congrFun (shapeCast_self (s := S5000x128) (iblk10 V c 2 t) shapeCasts_S5000x128_S5000x128) (ix2 p q)).trans ?_
    show V c main_v172 (((cfg10.win 2).blk t).view.emb (ix2 p q)) = _
    refine congrArg (V c main_v172) ?_
    funext a; apply Fin.ext
    match a with
    | ⟨0, _⟩ => show win10_2.index t (0 : Fin 2) * 5000 + 1 * p.val = win10_6.index t (0 : Fin 2) * 5000 + p.val; omega
    | ⟨1, _⟩ => show win10_2.index t (1 : Fin 2) * 128 + 1 * q.val = q.val; omega
  · show V c main_v190 (((cfg10.win 3).blk t).view.emb (ix2 0 q)) = _
    refine congrArg (V c main_v190) ?_
    funext a; apply Fin.ext
    match a with
    | ⟨0, _⟩ => show win10_3.index t (0 : Fin 2) * 1 + 1 * 0 = 0; omega
    | ⟨1, _⟩ => show win10_3.index t (1 : Fin 2) * 128 + 1 * q.val = q.val; omega
  · show V c main_v191 (((cfg10.win 4).blk t).view.emb (ix2 0 q)) = _
    refine congrArg (V c main_v191) ?_
    funext a; apply Fin.ext
    match a with
    | ⟨0, _⟩ => show win10_4.index t (0 : Fin 2) * 1 + 1 * 0 = 0; omega
    | ⟨1, _⟩ => show win10_4.index t (1 : Fin 2) * 128 + 1 * q.val = q.val; omega
  · show V c main_v192 (((cfg10.win 5).blk t).view.emb (ix2 0 q)) = _
    refine congrArg (V c main_v192) ?_
    funext a; apply Fin.ext
    match a with
    | ⟨0, _⟩ => show win10_5.index t (0 : Fin 2) * 1 + 1 * 0 = 0; omega
    | ⟨1, _⟩ => show win10_5.index t (1 : Fin 2) * 128 + 1 * q.val = q.val; omega

theorem mem_blk10 (t : Fin cfg10.N) (i : S50000x128.Idx) :
    i ∈ ((cfg10.win 6).blk t).view.set ↔ ∀ a : Fin 2, win10_6.index t a * S5000x128.size a ≤ (i a).val ∧ (i a).val < win10_6.index t a * S5000x128.size a + S5000x128.size a := by
  show i ∈ ((View.whole main_v193).slice (win10_6.rect t)).set ↔ _
  rw [View.set_slice_whole, Rect.mem_set_unit]
  exact Iff.rfl

/-- The 10 row blocks tile the array: row r lies in block r / 5000. -/
theorem cover10 (i : S50000x128.Idx) : ∃ t : Fin cfg10.N, (cfg10.win 6).flush t = true ∧ i ∈ ((cfg10.win 6).blk t).view.set := by
  have hi0 : (i 0).val < 50000 := (i 0).isLt
  have hi1 : (i 1).val < 128 := (i 1).isLt
  obtain ⟨t, ht⟩ := idx_onto10 ⟨(i 0).val / 5000, by omega⟩
  have q0 : win10_6.index t (0 : Fin 2) = (i 0).val / 5000 := congrFun ht 0
  have q1 : win10_6.index t (1 : Fin 2) = 0 := congrFun ht 1
  refine ⟨t, flush10_6 t, ?_⟩
  rw [mem_blk10]
  intro a
  match a with
  | ⟨0, _⟩ => show win10_6.index t (0 : Fin 2) * 5000 ≤ (i 0).val ∧ (i 0).val < win10_6.index t (0 : Fin 2) * 5000 + 5000; omega
  | ⟨1, _⟩ => show win10_6.index t (1 : Fin 2) * 128 ≤ (i 1).val ∧ (i 1).val < win10_6.index t (1 : Fin 2) * 128 + 128; omega

/-- After the region the output array is the host's rectified sum of the arrays the region found. -/
theorem final10 (c : Dev nD) : (dat10 V c).arrAt 6 cfg10.N
    = whole10 (V c main_v138) (V c main_v155) (V c main_v172) (V c main_v190) (V c main_v191) (V c main_v192) :=
  (dat10 V c).arrAt_eq_of_cover 6 _ (fun t _ => flushed10 V c t) cover10

/-! ## Region 11: one contribution (main_v189) and its bias row (main_v194), 20000 rows -/

/-- The rectified sum as the host spells it. -/
abbrev whole11 (A0 : FVec Ideal S20000x128 .f32) (R0 : FVec Ideal S1x128 .f32) : FVec Ideal S20000x128 .f32 :=
  maximumf (addf A0 (broadcastInDim S20000x128 ![0, 1] Cert.ReferenceIdeal.Facts₀.bcast_S1x128_S20000x128_0_1 R0))
    (broadcastInDim S20000x128 ![] Cert.ReferenceIdeal.Facts₀.bcast_S_S20000x128 (constant S_ .f32 0x00000000#32))

theorem idx_facts11 : ∀ t : Fin cfg11.N, win11_0.index t (0 : Fin 2) = win11_2.index t (0 : Fin 2) ∧ win11_0.index t (1 : Fin 2) = 0
    ∧ win11_1.index t (0 : Fin 2) = 0 ∧ win11_1.index t (1 : Fin 2) = 0
    ∧ win11_2.index t (1 : Fin 2) = 0 ∧ win11_2.index t (0 : Fin 2) ≤ 3 :=
  (by decide +kernel : ∀ t : Fin grid11.N, _)

theorem idx_onto11 : ∀ q0 : Fin 4, ∃ t : Fin cfg11.N, win11_2.index t = ![q0.val, 0] :=
  (by decide +kernel : ∀ q0 : Fin 4, ∃ t : Fin grid11.N, win11_2.index t = ![q0.val, 0])

/-- What grid point t writes back is block t of the host's rectified sum. -/
theorem flushed11 (c : Dev nD) (t : Fin cfg11.N) :
    (dat11 V c).flushed 2 t = ((cfg11.win 2).blk t).view.read (Elt Ideal) (whole11 (V c main_v189) (V c main_v194)) := by
  show (cfg11.win 2).cut (grid11.coords t) ((dat11 V c).after 2 t) = _
  rw [after11_2]
  unfold out11_2
  rw [View.canon_unit_zero hzC]
  simp only [View.ld_unit_zero (S := S5000x128) hzC, View.ld_unit_zero (S := S1x128) hzC]
  obtain ⟨e0, e1, e2, e3, e4, e5⟩ := idx_facts11 t
  funext j
  obtain ⟨p, q, rfl⟩ : ∃ (p : Fin 5000) (q : Fin 128), j = ix2 p q := ⟨j 0, j 1, eq_ix2 (n0 := 5000) (n1 := 128) j⟩
  have hP : win11_2.index t (0 : Fin 2) * 5000 + p.val < 20000 := by have := p.isLt; omega
  have hemb : ((cfg11.win 2).blk t).view.emb (ix2 p q)
      = (ix2 (⟨win11_2.index t (0 : Fin 2) * 5000 + p.val, hP⟩ : Fin 20000) q : S20000x128.Idx) := by
    funext a; apply Fin.ext
    match a with
    | ⟨0, _⟩ => show win11_2.index t (0 : Fin 2) * 5000 + 1 * p.val = win11_2.index t (0 : Fin 2) * 5000 + p.val; omega
    | ⟨1, _⟩ => show win11_2.index t (1 : Fin 2) * 128 + 1 * q.val = q.val; omega
  show k11_pay1 (iblk11 V c 0 t) (iblk11 V c 1 t) (ix2 p q)
    = whole11 (V c main_v189) (V c main_v194) (((cfg11.win 2).blk t).view.emb (ix2 p q))
  rw [hemb]
  unfold k11_pay1
  refine Cert.LibCombine.combine1_entry _ (iblk11 V c 1 t) (V c main_v189) (V c main_v194) _ _ _ _ p q ⟨_, hP⟩ ?_ ?_
  · refine (congrFun (shapeCast_self (s := S5000x128) (iblk11 V c 0 t) shapeCasts_S5000x128_S5000x128) (ix2 p q)).trans ?_
    show V c main_v189 (((cfg11.win 0).blk t).view.emb (ix2 p q)) = _
    refine congrArg (V c main_v189) ?_
    funext a; apply Fin.ext
    match a with
    | ⟨0, _⟩ => show win11_0.index t (0 : Fin 2) * 5000 + 1 * p.val = win11_2.index t (0 : Fin 2) * 5000 + p.val; omega
    | ⟨1, _⟩ => show win11_0.index t (1 : Fin 2) * 128 + 1 * q.val = q.val; omega
  · show V c main_v194 (((cfg11.win 1).blk t).view.emb (ix2 0 q)) = _
    refine congrArg (V c main_v194) ?_
    funext a; apply Fin.ext
    match a with
    | ⟨0, _⟩ => show win11_1.index t (0 : Fin 2) * 1 + 1 * 0 = 0; omega
    | ⟨1, _⟩ => show win11_1.index t (1 : Fin 2) * 128 + 1 * q.val = q.val; omega

theorem mem_blk11 (t : Fin cfg11.N) (i : S20000x128.Idx) :
    i ∈ ((cfg11.win 2).blk t).view.set ↔ ∀ a : Fin 2, win11_2.index t a * S5000x128.size a ≤ (i a).val ∧ (i a).val < win11_2.index t a * S5000x128.size a + S5000x128.size a := by
  show i ∈ ((View.whole main_v195).slice (win11_2.rect t)).set ↔ _
  rw [View.set_slice_whole, Rect.mem_set_unit]
  exact Iff.rfl

/-- The 4 row blocks tile the array: row r lies in block r / 5000. -/
theorem cover11 (i : S20000x128.Idx) : ∃ t : Fin cfg11.N, (cfg11.win 2).flush t = true ∧ i ∈ ((cfg11.win 2).blk t).view.set := by
  have hi0 : (i 0).val < 20000 := (i 0).isLt
  have hi1 : (i 1).val < 128 := (i 1).isLt
  obtain ⟨t, ht⟩ := idx_onto11 ⟨(i 0).val / 5000, by omega⟩
  have q0 : win11_2.index t (0 : Fin 2) = (i 0).val / 5000 := congrFun ht 0
  have q1 : win11_2.index t (1 : Fin 2) = 0 := congrFun ht 1
  refine ⟨t, flush11_2 t, ?_⟩
  rw [mem_blk11]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 128 ≤ (i 1).val ∧ (i 1).val < win11_2.index t (1 : Fin 2) * 128 + 128; omega

/-- After the region the output array is the host's rectified sum of the arrays the region found. -/
theorem final11 (c : Dev nD) : (dat11 V c).arrAt 2 cfg11.N = whole11 (V c main_v189) (V c main_v194) :=
  (dat11 V c).arrAt_eq_of_cover 2 _ (fun t _ => flushed11 V c t) cover11

end Cert.KernelIdeal.RVal
end
-- ==== Proof.RegionSteps.lean ====
/-
  What each grid region does to the buffers, as one step of the chain of boundary contents.

  Between two host stretches the contents of every buffer change only at one region's output array: the region leaves
  there the whole-array function of its input arrays (a whole matrix product, or the host's rectified sum), and leaves
  every other buffer — its own input arrays included — as it found it.  With these two facts per region the chain of
  boundary contents reads like a straight line of host operations.
-/
import proofs.«171965_j27676769256197_1_alg».proof.Proof.RegionsMatA
import proofs.«171965_j27676769256197_1_alg».proof.Proof.RegionsMatB
import proofs.«171965_j27676769256197_1_alg».proof.Proof.RegionsCombine

set_option maxRecDepth 16384

noncomputable section

namespace Cert.KernelIdeal.RVal

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Region 0 leaves in its output array the whole-array function of what it found in its input arrays. -/
theorem W18_out (c : Dev nD) : W18 m ρ c (Proc.devRef .tc main_v51) = whole0 (W17 m ρ c (Proc.devRef .tc main_v50)) (W17 m ρ c (Proc.devRef .tc main_arg10)) :=
  (W18_arr m ρ c 2).trans (final0 (V17 m ρ) c)
/-- Region 0 leaves every other buffer as it found it: an input array is never written back, and a buffer that is
    none of the region's arrays is not touched. -/
theorem W18_ne (c : Dev nD) (b : Ref sig .tc) (hb : b ≠ main_v51) : W18 m ρ c (Proc.devRef .tc b) = W17 m ρ c (Proc.devRef .tc b) := by
  by_cases h : ∃ w, Pipeline.arrRef spec0 w = b
  · obtain ⟨w, rfl⟩ := h
    match w, hb with
    | ⟨0, _⟩, _ => exact (W18_arr m ρ c 0).trans (((dat0 (V17 m ρ) c).arrAt_in 0 rfl _).trans (A_eq0 (V17 m ρ) c 0))
    | ⟨1, _⟩, _ => exact (W18_arr m ρ c 1).trans (((dat0 (V17 m ρ) c).arrAt_in 1 rfl _).trans (A_eq0 (V17 m ρ) c 1))
    | ⟨2, _⟩, hb => exact absurd rfl hb
    | ⟨n + 3, hn⟩, _ => exact absurd hn (by omega)
  · exact W18_of_ne m ρ c b (fun w e => h ⟨w, e⟩)
theorem W18_out' (c : Dev nD) : W18 m ρ c (no_index (Proc.devRef .tc main_v51)) = whole0 (W17 m ρ c (Proc.devRef .tc main_v50)) (W17 m ρ c (Proc.devRef .tc main_arg10)) := W18_out m ρ c
theorem W18_ne' (c : Dev nD) {b : Ref sig .tc} (hb : b ≠ main_v51) : W18 m ρ c (no_index (Proc.devRef .tc b)) = W17 m ρ c (Proc.devRef .tc b) :=
  W18_ne m ρ c b hb

/-- Region 1 leaves in its output array the whole-array function of what it found in its input arrays. -/
theorem W20_out (c : Dev nD) : W20 m ρ c (Proc.devRef .tc main_v68) = whole1 (W19 m ρ c (Proc.devRef .tc main_v67)) (W19 m ρ c (Proc.devRef .tc main_arg14)) :=
  (W20_arr m ρ c 2).trans (final1 (V19 m ρ) c)
/-- Region 1 leaves every other buffer as it found it: an input array is never written back, and a buffer that is
    none of the region's arrays is not touched. -/
theorem W20_ne (c : Dev nD) (b : Ref sig .tc) (hb : b ≠ main_v68) : W20 m ρ c (Proc.devRef .tc b) = W19 m ρ c (Proc.devRef .tc b) := by
  by_cases h : ∃ w, Pipeline.arrRef spec1 w = b
  · obtain ⟨w, rfl⟩ := h
    match w, hb with
    | ⟨0, _⟩, _ => exact (W20_arr m ρ c 0).trans (((dat1 (V19 m ρ) c).arrAt_in 0 rfl _).trans (A_eq1 (V19 m ρ) c 0))
    | ⟨1, _⟩, _ => exact (W20_arr m ρ c 1).trans (((dat1 (V19 m ρ) c).arrAt_in 1 rfl _).trans (A_eq1 (V19 m ρ) c 1))
    | ⟨2, _⟩, hb => exact absurd rfl hb
    | ⟨n + 3, hn⟩, _ => exact absurd hn (by omega)
  · exact W20_of_ne m ρ c b (fun w e => h ⟨w, e⟩)
theorem W20_out' (c : Dev nD) : W20 m ρ c (no_index (Proc.devRef .tc main_v68)) = whole1 (W19 m ρ c (Proc.devRef .tc main_v67)) (W19 m ρ c (Proc.devRef .tc main_arg14)) := W20_out m ρ c
theorem W20_ne' (c : Dev nD) {b : Ref sig .tc} (hb : b ≠ main_v68) : W20 m ρ c (no_index (Proc.devRef .tc b)) = W19 m ρ c (Proc.devRef .tc b) :=
  W20_ne m ρ c b hb

/-- Region 2 leaves in its output array the whole-array function of what it found in its input arrays. -/
theorem W22_out (c : Dev nD) : W22 m ρ c (Proc.devRef .tc main_v85) = whole2 (W21 m ρ c (Proc.devRef .tc main_v84)) (W21 m ρ c (Proc.devRef .tc main_arg16)) :=
  (W22_arr m ρ c 2).trans (final2 (V21 m ρ) c)
/-- Region 2 leaves every other buffer as it found it: an input array is never written back, and a buffer that is
    none of the region's arrays is not touched. -/
theorem W22_ne (c : Dev nD) (b : Ref sig .tc) (hb : b ≠ main_v85) : W22 m ρ c (Proc.devRef .tc b) = W21 m ρ c (Proc.devRef .tc b) := by
  by_cases h : ∃ w, Pipeline.arrRef spec2 w = b
  · obtain ⟨w, rfl⟩ := h
    match w, hb with
    | ⟨0, _⟩, _ => exact (W22_arr m ρ c 0).trans (((dat2 (V21 m ρ) c).arrAt_in 0 rfl _).trans (A_eq2 (V21 m ρ) c 0))
    | ⟨1, _⟩, _ => exact (W22_arr m ρ c 1).trans (((dat2 (V21 m ρ) c).arrAt_in 1 rfl _).trans (A_eq2 (V21 m ρ) c 1))
    | ⟨2, _⟩, hb => exact absurd rfl hb
    | ⟨n + 3, hn⟩, _ => exact absurd hn (by omega)
  · exact W22_of_ne m ρ c b (fun w e => h ⟨w, e⟩)
theorem W22_out' (c : Dev nD) : W22 m ρ c (no_index (Proc.devRef .tc main_v85)) = whole2 (W21 m ρ c (Proc.devRef .tc main_v84)) (W21 m ρ c (Proc.devRef .tc main_arg16)) := W22_out m ρ c
theorem W22_ne' (c : Dev nD) {b : Ref sig .tc} (hb : b ≠ main_v85) : W22 m ρ c (no_index (Proc.devRef .tc b)) = W21 m ρ c (Proc.devRef .tc b) :=
  W22_ne m ρ c b hb

/-- Region 3 leaves in its output array the whole-array function of what it found in its input arrays. -/
theorem W24_out (c : Dev nD) : W24 m ρ c (Proc.devRef .tc main_v102) = whole3 (W23 m ρ c (Proc.devRef .tc main_v101)) (W23 m ρ c (Proc.devRef .tc main_arg12)) :=
  (W24_arr m ρ c 2).trans (final3 (V23 m ρ) c)
/-- Region 3 leaves every other buffer as it found it: an input array is never written back, and a buffer that is
    none of the region's arrays is not touched. -/
theorem W24_ne (c : Dev nD) (b : Ref sig .tc) (hb : b ≠ main_v102) : W24 m ρ c (Proc.devRef .tc b) = W23 m ρ c (Proc.devRef .tc b) := by
  by_cases h : ∃ w, Pipeline.arrRef spec3 w = b
  · obtain ⟨w, rfl⟩ := h
    match w, hb with
    | ⟨0, _⟩, _ => exact (W24_arr m ρ c 0).trans (((dat3 (V23 m ρ) c).arrAt_in 0 rfl _).trans (A_eq3 (V23 m ρ) c 0))
    | ⟨1, _⟩, _ => exact (W24_arr m ρ c 1).trans (((dat3 (V23 m ρ) c).arrAt_in 1 rfl _).trans (A_eq3 (V23 m ρ) c 1))
    | ⟨2, _⟩, hb => exact absurd rfl hb
    | ⟨n + 3, hn⟩, _ => exact absurd hn (by omega)
  · exact W24_of_ne m ρ c b (fun w e => h ⟨w, e⟩)
theorem W24_out' (c : Dev nD) : W24 m ρ c (no_index (Proc.devRef .tc main_v102)) = whole3 (W23 m ρ c (Proc.devRef .tc main_v101)) (W23 m ρ c (Proc.devRef .tc main_arg12)) := W24_out m ρ c
theorem W24_ne' (c : Dev nD) {b : Ref sig .tc} (hb : b ≠ main_v102) : W24 m ρ c (no_index (Proc.devRef .tc b)) = W23 m ρ c (Proc.devRef .tc b) :=
  W24_ne m ρ c b hb

/-- Region 4 leaves in its output array the whole-array function of what it found in its input arrays. -/
theorem W26_out (c : Dev nD) : W26 m ρ c (Proc.devRef .tc main_v119) = whole4 (W25 m ρ c (Proc.devRef .tc main_v64)) (W25 m ρ c (Proc.devRef .tc main_v81)) (W25 m ρ c (Proc.devRef .tc main_v98)) (W25 m ρ c (Proc.devRef .tc main_v116)) (W25 m ρ c (Proc.devRef .tc main_v117)) (W25 m ρ c (Proc.devRef .tc main_v118)) :=
  (W26_arr m ρ c 6).trans (final4 (V25 m ρ) c)
/-- Region 4 leaves every other buffer as it found it: an input array is never written back, and a buffer that is
    none of the region's arrays is not touched. -/
theorem W26_ne (c : Dev nD) (b : Ref sig .tc) (hb : b ≠ main_v119) : W26 m ρ c (Proc.devRef .tc b) = W25 m ρ c (Proc.devRef .tc b) := by
  by_cases h : ∃ w, Pipeline.arrRef spec4 w = b
  · obtain ⟨w, rfl⟩ := h
    match w, hb with
    | ⟨0, _⟩, _ => exact (W26_arr m ρ c 0).trans (((dat4 (V25 m ρ) c).arrAt_in 0 rfl _).trans (A_eq4 (V25 m ρ) c 0))
    | ⟨1, _⟩, _ => exact (W26_arr m ρ c 1).trans (((dat4 (V25 m ρ) c).arrAt_in 1 rfl _).trans (A_eq4 (V25 m ρ) c 1))
    | ⟨2, _⟩, _ => exact (W26_arr m ρ c 2).trans (((dat4 (V25 m ρ) c).arrAt_in 2 rfl _).trans (A_eq4 (V25 m ρ) c 2))
    | ⟨3, _⟩, _ => exact (W26_arr m ρ c 3).trans (((dat4 (V25 m ρ) c).arrAt_in 3 rfl _).trans (A_eq4 (V25 m ρ) c 3))
    | ⟨4, _⟩, _ => exact (W26_arr m ρ c 4).trans (((dat4 (V25 m ρ) c).arrAt_in 4 rfl _).trans (A_eq4 (V25 m ρ) c 4))
    | ⟨5, _⟩, _ => exact (W26_arr m ρ c 5).trans (((dat4 (V25 m ρ) c).arrAt_in 5 rfl _).trans (A_eq4 (V25 m ρ) c 5))
    | ⟨6, _⟩, hb => exact absurd rfl hb
    | ⟨n + 7, hn⟩, _ => exact absurd hn (by omega)
  · exact W26_of_ne m ρ c b (fun w e => h ⟨w, e⟩)
theorem W26_out' (c : Dev nD) : W26 m ρ c (no_index (Proc.devRef .tc main_v119)) = whole4 (W25 m ρ c (Proc.devRef .tc main_v64)) (W25 m ρ c (Proc.devRef .tc main_v81)) (W25 m ρ c (Proc.devRef .tc main_v98)) (W25 m ρ c (Proc.devRef .tc main_v116)) (W25 m ρ c (Proc.devRef .tc main_v117)) (W25 m ρ c (Proc.devRef .tc main_v118)) := W26_out m ρ c
theorem W26_ne' (c : Dev nD) {b : Ref sig .tc} (hb : b ≠ main_v119) : W26 m ρ c (no_index (Proc.devRef .tc b)) = W25 m ρ c (Proc.devRef .tc b) :=
  W26_ne m ρ c b hb

/-- Region 5 leaves in its output array the whole-array function of what it found in its input arrays. -/
theorem W28_out (c : Dev nD) : W28 m ρ c (Proc.devRef .tc main_v121) = whole5 (W27 m ρ c (Proc.devRef .tc main_v115)) (W27 m ρ c (Proc.devRef .tc main_v120)) :=
  (W28_arr m ρ c 2).trans (final5 (V27 m ρ) c)
/-- Region 5 leaves every other buffer as it found it: an input array is never written back, and a buffer that is
    none of the region's arrays is not touched. -/
theorem W28_ne (c : Dev nD) (b : Ref sig .tc) (hb : b ≠ main_v121) : W28 m ρ c (Proc.devRef .tc b) = W27 m ρ c (Proc.devRef .tc b) := by
  by_cases h : ∃ w, Pipeline.arrRef spec5 w = b
  · obtain ⟨w, rfl⟩ := h
    match w, hb with
    | ⟨0, _⟩, _ => exact (W28_arr m ρ c 0).trans (((dat5 (V27 m ρ) c).arrAt_in 0 rfl _).trans (A_eq5 (V27 m ρ) c 0))
    | ⟨1, _⟩, _ => exact (W28_arr m ρ c 1).trans (((dat5 (V27 m ρ) c).arrAt_in 1 rfl _).trans (A_eq5 (V27 m ρ) c 1))
    | ⟨2, _⟩, hb => exact absurd rfl hb
    | ⟨n + 3, hn⟩, _ => exact absurd hn (by omega)
  · exact W28_of_ne m ρ c b (fun w e => h ⟨w, e⟩)
theorem W28_out' (c : Dev nD) : W28 m ρ c (no_index (Proc.devRef .tc main_v121)) = whole5 (W27 m ρ c (Proc.devRef .tc main_v115)) (W27 m ρ c (Proc.devRef .tc main_v120)) := W28_out m ρ c
theorem W28_ne' (c : Dev nD) {b : Ref sig .tc} (hb : b ≠ main_v121) : W28 m ρ c (no_index (Proc.devRef .tc b)) = W27 m ρ c (Proc.devRef .tc b) :=
  W28_ne m ρ c b hb

/-- Region 6 leaves in its output array the whole-array function of what it found in its input arrays. -/
theorem W30_out (c : Dev nD) : W30 m ρ c (Proc.devRef .tc main_v125) = whole6 (W29 m ρ c (Proc.devRef .tc main_v124)) (W29 m ρ c (Proc.devRef .tc main_arg18)) :=
  (W30_arr m ρ c 2).trans (final6 (V29 m ρ) c)
/-- Region 6 leaves every other buffer as it found it: an input array is never written back, and a buffer that is
    none of the region's arrays is not touched. -/
theorem W30_ne (c : Dev nD) (b : Ref sig .tc) (hb : b ≠ main_v125) : W30 m ρ c (Proc.devRef .tc b) = W29 m ρ c (Proc.devRef .tc b) := by
  by_cases h : ∃ w, Pipeline.arrRef spec6 w = b
  · obtain ⟨w, rfl⟩ := h
    match w, hb with
    | ⟨0, _⟩, _ => exact (W30_arr m ρ c 0).trans (((dat6 (V29 m ρ) c).arrAt_in 0 rfl _).trans (A_eq6 (V29 m ρ) c 0))
    | ⟨1, _⟩, _ => exact (W30_arr m ρ c 1).trans (((dat6 (V29 m ρ) c).arrAt_in 1 rfl _).trans (A_eq6 (V29 m ρ) c 1))
    | ⟨2, _⟩, hb => exact absurd rfl hb
    | ⟨n + 3, hn⟩, _ => exact absurd hn (by omega)
  · exact W30_of_ne m ρ c b (fun w e => h ⟨w, e⟩)
theorem W30_out' (c : Dev nD) : W30 m ρ c (no_index (Proc.devRef .tc main_v125)) = whole6 (W29 m ρ c (Proc.devRef .tc main_v124)) (W29 m ρ c (Proc.devRef .tc main_arg18)) := W30_out m ρ c
theorem W30_ne' (c : Dev nD) {b : Ref sig .tc} (hb : b ≠ main_v125) : W30 m ρ c (no_index (Proc.devRef .tc b)) = W29 m ρ c (Proc.devRef .tc b) :=
  W30_ne m ρ c b hb

/-- Region 7 leaves in its output array the whole-array function of what it found in its input arrays. -/
theorem W32_out (c : Dev nD) : W32 m ρ c (Proc.devRef .tc main_v142) = whole7 (W31 m ρ c (Proc.devRef .tc main_v141)) (W31 m ρ c (Proc.devRef .tc main_arg22)) :=
  (W32_arr m ρ c 2).trans (final7 (V31 m ρ) c)
/-- Region 7 leaves every other buffer as it found it: an input array is never written back, and a buffer that is
    none of the region's arrays is not touched. -/
theorem W32_ne (c : Dev nD) (b : Ref sig .tc) (hb : b ≠ main_v142) : W32 m ρ c (Proc.devRef .tc b) = W31 m ρ c (Proc.devRef .tc b) := by
  by_cases h : ∃ w, Pipeline.arrRef spec7 w = b
  · obtain ⟨w, rfl⟩ := h
    match w, hb with
    | ⟨0, _⟩, _ => exact (W32_arr m ρ c 0).trans (((dat7 (V31 m ρ) c).arrAt_in 0 rfl _).trans (A_eq7 (V31 m ρ) c 0))
    | ⟨1, _⟩, _ => exact (W32_arr m ρ c 1).trans (((dat7 (V31 m ρ) c).arrAt_in 1 rfl _).trans (A_eq7 (V31 m ρ) c 1))
    | ⟨2, _⟩, hb => exact absurd rfl hb
    | ⟨n + 3, hn⟩, _ => exact absurd hn (by omega)
  · exact W32_of_ne m ρ c b (fun w e => h ⟨w, e⟩)
theorem W32_out' (c : Dev nD) : W32 m ρ c (no_index (Proc.devRef .tc main_v142)) = whole7 (W31 m ρ c (Proc.devRef .tc main_v141)) (W31 m ρ c (Proc.devRef .tc main_arg22)) := W32_out m ρ c
theorem W32_ne' (c : Dev nD) {b : Ref sig .tc} (hb : b ≠ main_v142) : W32 m ρ c (no_index (Proc.devRef .tc b)) = W31 m ρ c (Proc.devRef .tc b) :=
  W32_ne m ρ c b hb

/-- Region 8 leaves in its output array the whole-array function of what it found in its input arrays. -/
theorem W34_out (c : Dev nD) : W34 m ρ c (Proc.devRef .tc main_v159) = whole8 (W33 m ρ c (Proc.devRef .tc main_v158)) (W33 m ρ c (Proc.devRef .tc main_arg24)) :=
  (W34_arr m ρ c 2).trans (final8 (V33 m ρ) c)
/-- Region 8 leaves every other buffer as it found it: an input array is never written back, and a buffer that is
    none of the region's arrays is not touched. -/
theorem W34_ne (c : Dev nD) (b : Ref sig .tc) (hb : b ≠ main_v159) : W34 m ρ c (Proc.devRef .tc b) = W33 m ρ c (Proc.devRef .tc b) := by
  by_cases h : ∃ w, Pipeline.arrRef spec8 w = b
  · obtain ⟨w, rfl⟩ := h
    match w, hb with
    | ⟨0, _⟩, _ => exact (W34_arr m ρ c 0).trans (((dat8 (V33 m ρ) c).arrAt_in 0 rfl _).trans (A_eq8 (V33 m ρ) c 0))
    | ⟨1, _⟩, _ => exact (W34_arr m ρ c 1).trans (((dat8 (V33 m ρ) c).arrAt_in 1 rfl _).trans (A_eq8 (V33 m ρ) c 1))
    | ⟨2, _⟩, hb => exact absurd rfl hb
    | ⟨n + 3, hn⟩, _ => exact absurd hn (by omega)
  · exact W34_of_ne m ρ c b (fun w e => h ⟨w, e⟩)
theorem W34_out' (c : Dev nD) : W34 m ρ c (no_index (Proc.devRef .tc main_v159)) = whole8 (W33 m ρ c (Proc.devRef .tc main_v158)) (W33 m ρ c (Proc.devRef .tc main_arg24)) := W34_out m ρ c
theorem W34_ne' (c : Dev nD) {b : Ref sig .tc} (hb : b ≠ main_v159) : W34 m ρ c (no_index (Proc.devRef .tc b)) = W33 m ρ c (Proc.devRef .tc b) :=
  W34_ne m ρ c b hb

/-- Region 9 leaves in its output array the whole-array function of what it found in its input arrays. -/
theorem W36_out (c : Dev nD) : W36 m ρ c (Proc.devRef .tc main_v176) = whole9 (W35 m ρ c (Proc.devRef .tc main_v175)) (W35 m ρ c (Proc.devRef .tc main_arg20)) :=
  (W36_arr m ρ c 2).trans (final9 (V35 m ρ) c)
/-- Region 9 leaves every other buffer as it found it: an input array is never written back, and a buffer that is
    none of the region's arrays is not touched. -/
theorem W36_ne (c : Dev nD) (b : Ref sig .tc) (hb : b ≠ main_v176) : W36 m ρ c (Proc.devRef .tc b) = W35 m ρ c (Proc.devRef .tc b) := by
  by_cases h : ∃ w, Pipeline.arrRef spec9 w = b
  · obtain ⟨w, rfl⟩ := h
    match w, hb with
    | ⟨0, _⟩, _ => exact (W36_arr m ρ c 0).trans (((dat9 (V35 m ρ) c).arrAt_in 0 rfl _).trans (A_eq9 (V35 m ρ) c 0))
    | ⟨1, _⟩, _ => exact (W36_arr m ρ c 1).trans (((dat9 (V35 m ρ) c).arrAt_in 1 rfl _).trans (A_eq9 (V35 m ρ) c 1))
    | ⟨2, _⟩, hb => exact absurd rfl hb
    | ⟨n + 3, hn⟩, _ => exact absurd hn (by omega)
  · exact W36_of_ne m ρ c b (fun w e => h ⟨w, e⟩)
theorem W36_out' (c : Dev nD) : W36 m ρ c (no_index (Proc.devRef .tc main_v176)) = whole9 (W35 m ρ c (Proc.devRef .tc main_v175)) (W35 m ρ c (Proc.devRef .tc main_arg20)) := W36_out m ρ c
theorem W36_ne' (c : Dev nD) {b : Ref sig .tc} (hb : b ≠ main_v176) : W36 m ρ c (no_index (Proc.devRef .tc b)) = W35 m ρ c (Proc.devRef .tc b) :=
  W36_ne m ρ c b hb

/-- Region 10 leaves in its output array the whole-array function of what it found in its input arrays. -/
theorem W38_out (c : Dev nD) : W38 m ρ c (Proc.devRef .tc main_v193) = whole10 (W37 m ρ c (Proc.devRef .tc main_v138)) (W37 m ρ c (Proc.devRef .tc main_v155)) (W37 m ρ c (Proc.devRef .tc main_v172)) (W37 m ρ c (Proc.devRef .tc main_v190)) (W37 m ρ c (Proc.devRef .tc main_v191)) (W37 m ρ c (Proc.devRef .tc main_v192)) :=
  (W38_arr m ρ c 6).trans (final10 (V37 m ρ) c)
/-- Region 10 leaves every other buffer as it found it: an input array is never written back, and a buffer that is
    none of the region's arrays is not touched. -/
theorem W38_ne (c : Dev nD) (b : Ref sig .tc) (hb : b ≠ main_v193) : W38 m ρ c (Proc.devRef .tc b) = W37 m ρ c (Proc.devRef .tc b) := by
  by_cases h : ∃ w, Pipeline.arrRef spec10 w = b
  · obtain ⟨w, rfl⟩ := h
    match w, hb with
    | ⟨0, _⟩, _ => exact (W38_arr m ρ c 0).trans (((dat10 (V37 m ρ) c).arrAt_in 0 rfl _).trans (A_eq10 (V37 m ρ) c 0))
    | ⟨1, _⟩, _ => exact (W38_arr m ρ c 1).trans (((dat10 (V37 m ρ) c).arrAt_in 1 rfl _).trans (A_eq10 (V37 m ρ) c 1))
    | ⟨2, _⟩, _ => exact (W38_arr m ρ c 2).trans (((dat10 (V37 m ρ) c).arrAt_in 2 rfl _).trans (A_eq10 (V37 m ρ) c 2))
    | ⟨3, _⟩, _ => exact (W38_arr m ρ c 3).trans (((dat10 (V37 m ρ) c).arrAt_in 3 rfl _).trans (A_eq10 (V37 m ρ) c 3))
    | ⟨4, _⟩, _ => exact (W38_arr m ρ c 4).trans (((dat10 (V37 m ρ) c).arrAt_in 4 rfl _).trans (A_eq10 (V37 m ρ) c 4))
    | ⟨5, _⟩, _ => exact (W38_arr m ρ c 5).trans (((dat10 (V37 m ρ) c).arrAt_in 5 rfl _).trans (A_eq10 (V37 m ρ) c 5))
    | ⟨6, _⟩, hb => exact absurd rfl hb
    | ⟨n + 7, hn⟩, _ => exact absurd hn (by omega)
  · exact W38_of_ne m ρ c b (fun w e => h ⟨w, e⟩)
theorem W38_out' (c : Dev nD) : W38 m ρ c (no_index (Proc.devRef .tc main_v193)) = whole10 (W37 m ρ c (Proc.devRef .tc main_v138)) (W37 m ρ c (Proc.devRef .tc main_v155)) (W37 m ρ c (Proc.devRef .tc main_v172)) (W37 m ρ c (Proc.devRef .tc main_v190)) (W37 m ρ c (Proc.devRef .tc main_v191)) (W37 m ρ c (Proc.devRef .tc main_v192)) := W38_out m ρ c
theorem W38_ne' (c : Dev nD) {b : Ref sig .tc} (hb : b ≠ main_v193) : W38 m ρ c (no_index (Proc.devRef .tc b)) = W37 m ρ c (Proc.devRef .tc b) :=
  W38_ne m ρ c b hb

/-- Region 11 leaves in its output array the whole-array function of what it found in its input arrays. -/
theorem W40_out (c : Dev nD) : W40 m ρ c (Proc.devRef .tc main_v195) = whole11 (W39 m ρ c (Proc.devRef .tc main_v189)) (W39 m ρ c (Proc.devRef .tc main_v194)) :=
  (W40_arr m ρ c 2).trans (final11 (V39 m ρ) c)
/-- Region 11 leaves every other buffer as it found it: an input array is never written back, and a buffer that is
    none of the region's arrays is not touched. -/
theorem W40_ne (c : Dev nD) (b : Ref sig .tc) (hb : b ≠ main_v195) : W40 m ρ c (Proc.devRef .tc b) = W39 m ρ c (Proc.devRef .tc b) := by
  by_cases h : ∃ w, Pipeline.arrRef spec11 w = b
  · obtain ⟨w, rfl⟩ := h
    match w, hb with
    | ⟨0, _⟩, _ => exact (W40_arr m ρ c 0).trans (((dat11 (V39 m ρ) c).arrAt_in 0 rfl _).trans (A_eq11 (V39 m ρ) c 0))
    | ⟨1, _⟩, _ => exact (W40_arr m ρ c 1).trans (((dat11 (V39 m ρ) c).arrAt_in 1 rfl _).trans (A_eq11 (V39 m ρ) c 1))
    | ⟨2, _⟩, hb => exact absurd rfl hb
    | ⟨n + 3, hn⟩, _ => exact absurd hn (by omega)
  · exact W40_of_ne m ρ c b (fun w e => h ⟨w, e⟩)
theorem W40_out' (c : Dev nD) : W40 m ρ c (no_index (Proc.devRef .tc main_v195)) = whole11 (W39 m ρ c (Proc.devRef .tc main_v189)) (W39 m ρ c (Proc.devRef .tc main_v194)) := W40_out m ρ c
theorem W40_ne' (c : Dev nD) {b : Ref sig .tc} (hb : b ≠ main_v195) : W40 m ρ c (no_index (Proc.devRef .tc b)) = W39 m ρ c (Proc.devRef .tc b) :=
  W40_ne m ρ c b hb

end Cert.KernelIdeal.RVal
end
-- ==== Proof.KernelRead.lean ====
/-
  Reading a buffer of the idealized kernel through the chain of boundary contents.

  Each host operation's result at its own buffer is its function of its operands' contents; a grid region's output
  array is its whole-array function of the region's input arrays; every other buffer is what it was one step earlier.
  A bias vector reshaped to one row is read in the reference's spelling: the vector with a leading unit axis.
-/
import proofs.«171965_j27676769256197_1_alg».proof.Proof.RegionSteps
import Idealize.ShloMosaic.Lib.StableHlo.Run

set_option maxRecDepth 16384

noncomputable section

namespace Cert.KernelIdeal.RVal

open Cert.KernelIdeal Cert.KernelIdeal.Gen
open Idealize.ShloMosaic Idealize.ShloMosaic.TcCoe Idealize.ShloMosaic.Tactic Idealize.ShloMosaic.ValueIdx
open Idealize.SL Idealize.SL.Sem

/-! ## A bias vector reshaped to one row, in the reference's spelling -/

theorem row_main_v116 (hx hy) (F : Valuation τ sig (Elt Ideal)) :
    (StableHlo.reshape (τ := τ) main_arg11 main_v116 rfl shapeCasts_S128_S1x128 hx hy).result F (no_index (Proc.devRef .tc main_v116))
      = broadcastInDim S1x128 ![1] Cert.ReferenceIdeal.Facts₀.bcast_S128_S1x128_1 (F (Proc.devRef .tc main_arg11)) :=
  (StableHlo.reshape_result main_arg11 main_v116 rfl shapeCasts_S128_S1x128 hx hy F).trans
    (Cert.LibCombine.reshapeRow_eq (F (Proc.devRef .tc main_arg11)) shapeCasts_S128_S1x128 Cert.ReferenceIdeal.Facts₀.bcast_S128_S1x128_1)
theorem row_main_v117 (hx hy) (F : Valuation τ sig (Elt Ideal)) :
    (StableHlo.reshape (τ := τ) main_arg15 main_v117 rfl shapeCasts_S128_S1x128 hx hy).result F (no_index (Proc.devRef .tc main_v117))
      = broadcastInDim S1x128 ![1] Cert.ReferenceIdeal.Facts₀.bcast_S128_S1x128_1 (F (Proc.devRef .tc main_arg15)) :=
  (StableHlo.reshape_result main_arg15 main_v117 rfl shapeCasts_S128_S1x128 hx hy F).trans
    (Cert.LibCombine.reshapeRow_eq (F (Proc.devRef .tc main_arg15)) shapeCasts_S128_S1x128 Cert.ReferenceIdeal.Facts₀.bcast_S128_S1x128_1)
theorem row_main_v118 (hx hy) (F : Valuation τ sig (Elt Ideal)) :
    (StableHlo.reshape (τ := τ) main_arg17 main_v118 rfl shapeCasts_S128_S1x128 hx hy).result F (no_index (Proc.devRef .tc main_v118))
      = broadcastInDim S1x128 ![1] Cert.ReferenceIdeal.Facts₀.bcast_S128_S1x128_1 (F (Proc.devRef .tc main_arg17)) :=
  (StableHlo.reshape_result main_arg17 main_v118 rfl shapeCasts_S128_S1x128 hx hy F).trans
    (Cert.LibCombine.reshapeRow_eq (F (Proc.devRef .tc main_arg17)) shapeCasts_S128_S1x128 Cert.ReferenceIdeal.Facts₀.bcast_S128_S1x128_1)
theorem row_main_v120 (hx hy) (F : Valuation τ sig (Elt Ideal)) :
    (StableHlo.reshape (τ := τ) main_arg13 main_v120 rfl shapeCasts_S128_S1x128 hx hy).result F (no_index (Proc.devRef .tc main_v120))
      = broadcastInDim S1x128 ![1] Cert.ReferenceIdeal.Facts₀.bcast_S128_S1x128_1 (F (Proc.devRef .tc main_arg13)) :=
  (StableHlo.reshape_result main_arg13 main_v120 rfl shapeCasts_S128_S1x128 hx hy F).trans
    (Cert.LibCombine.reshapeRow_eq (F (Proc.devRef .tc main_arg13)) shapeCasts_S128_S1x128 Cert.ReferenceIdeal.Facts₀.bcast_S128_S1x128_1)
theorem row_main_v190 (hx hy) (F : Valuation τ sig (Elt Ideal)) :
    (StableHlo.reshape (τ := τ) main_arg19 main_v190 rfl shapeCasts_S128_S1x128 hx hy).result F (no_index (Proc.devRef .tc main_v190))
      = broadcastInDim S1x128 ![1] Cert.ReferenceIdeal.Facts₀.bcast_S128_S1x128_1 (F (Proc.devRef .tc main_arg19)) :=
  (StableHlo.reshape_result main_arg19 main_v190 rfl shapeCasts_S128_S1x128 hx hy F).trans
    (Cert.LibCombine.reshapeRow_eq (F (Proc.devRef .tc main_arg19)) shapeCasts_S128_S1x128 Cert.ReferenceIdeal.Facts₀.bcast_S128_S1x128_1)
theorem row_main_v191 (hx hy) (F : Valuation τ sig (Elt Ideal)) :
    (StableHlo.reshape (τ := τ) main_arg23 main_v191 rfl shapeCasts_S128_S1x128 hx hy).result F (no_index (Proc.devRef .tc main_v191))
      = broadcastInDim S1x128 ![1] Cert.ReferenceIdeal.Facts₀.bcast_S128_S1x128_1 (F (Proc.devRef .tc main_arg23)) :=
  (StableHlo.reshape_result main_arg23 main_v191 rfl shapeCasts_S128_S1x128 hx hy F).trans
    (Cert.LibCombine.reshapeRow_eq (F (Proc.devRef .tc main_arg23)) shapeCasts_S128_S1x128 Cert.ReferenceIdeal.Facts₀.bcast_S128_S1x128_1)
theorem row_main_v192 (hx hy) (F : Valuation τ sig (Elt Ideal)) :
    (StableHlo.reshape (τ := τ) main_arg25 main_v192 rfl shapeCasts_S128_S1x128 hx hy).result F (no_index (Proc.devRef .tc main_v192))
      = broadcastInDim S1x128 ![1] Cert.ReferenceIdeal.Facts₀.bcast_S128_S1x128_1 (F (Proc.devRef .tc main_arg25)) :=
  (StableHlo.reshape_result main_arg25 main_v192 rfl shapeCasts_S128_S1x128 hx hy F).trans
    (Cert.LibCombine.reshapeRow_eq (F (Proc.devRef .tc main_arg25)) shapeCasts_S128_S1x128 Cert.ReferenceIdeal.Facts₀.bcast_S128_S1x128_1)
theorem row_main_v194 (hx hy) (F : Valuation τ sig (Elt Ideal)) :
    (StableHlo.reshape (τ := τ) main_arg21 main_v194 rfl shapeCasts_S128_S1x128 hx hy).result F (no_index (Proc.devRef .tc main_v194))
      = broadcastInDim S1x128 ![1] Cert.ReferenceIdeal.Facts₀.bcast_S128_S1x128_1 (F (Proc.devRef .tc main_arg21)) :=
  (StableHlo.reshape_result main_arg21 main_v194 rfl shapeCasts_S128_S1x128 hx hy F).trans
    (Cert.LibCombine.reshapeRow_eq (F (Proc.devRef .tc main_arg21)) shapeCasts_S128_S1x128 Cert.ReferenceIdeal.Facts₀.bcast_S128_S1x128_1)

/-- Reads a buffer through the chain of boundary contents: each host operation's result at its own buffer is its
    function of its operands' contents, a region's output array is its whole-array function, and every other buffer is
    what it was one step earlier.  The transports of a called function's values along an equation of buffer types that
    holds by computation, and the identity of a conversion between equal types, are dropped. -/
macro "kernel_read" : tactic =>
  `(tactic| simp (disch := decide) only [Idealize.ShloMosaic.StableHlo.after_cons, Idealize.ShloMosaic.StableHlo.after_nil, Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.nary4_result', Idealize.ShloMosaic.StableHlo.nary_result', Idealize.ShloMosaic.StableHlo.unaryIndexed_result', Idealize.ShloMosaic.StableHlo.binaryIndexed_result', Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne', Idealize.ShloMosaic.StableHlo.nary_result_ne', Idealize.ShloMosaic.StableHlo.unaryIndexed_result_ne', Idealize.ShloMosaic.StableHlo.binaryIndexed_result_ne', Cert.KernelIdeal.RVal.W18_out', Cert.KernelIdeal.RVal.W18_ne', Cert.KernelIdeal.RVal.W20_out', Cert.KernelIdeal.RVal.W20_ne', Cert.KernelIdeal.RVal.W22_out', Cert.KernelIdeal.RVal.W22_ne', Cert.KernelIdeal.RVal.W24_out', Cert.KernelIdeal.RVal.W24_ne', Cert.KernelIdeal.RVal.W26_out', Cert.KernelIdeal.RVal.W26_ne', Cert.KernelIdeal.RVal.W28_out', Cert.KernelIdeal.RVal.W28_ne', Cert.KernelIdeal.RVal.W30_out', Cert.KernelIdeal.RVal.W30_ne', Cert.KernelIdeal.RVal.W32_out', Cert.KernelIdeal.RVal.W32_ne', Cert.KernelIdeal.RVal.W34_out', Cert.KernelIdeal.RVal.W34_ne', Cert.KernelIdeal.RVal.W36_out', Cert.KernelIdeal.RVal.W36_ne', Cert.KernelIdeal.RVal.W38_out', Cert.KernelIdeal.RVal.W38_ne', Cert.KernelIdeal.RVal.W40_out', Cert.KernelIdeal.RVal.W40_ne', Cert.KernelIdeal.RVal.row_main_v116, Cert.KernelIdeal.RVal.row_main_v117, Cert.KernelIdeal.RVal.row_main_v118, Cert.KernelIdeal.RVal.row_main_v120, Cert.KernelIdeal.RVal.row_main_v190, Cert.KernelIdeal.RVal.row_main_v191, Cert.KernelIdeal.RVal.row_main_v192, Cert.KernelIdeal.RVal.row_main_v194, Idealize.ShloMosaic.StableHlo.TRef.toBuf, Idealize.ShloMosaic.StableHlo.TRef.ofBuf, cast_eq, id_eq])

/-- The same reading that stops at the first layer's two outputs (the arrays the fifth and sixth regions write), which
    stay as they are. -/
macro "kernel_read_layer2" : tactic =>
  `(tactic| simp (disch := decide) only [Idealize.ShloMosaic.StableHlo.after_cons, Idealize.ShloMosaic.StableHlo.after_nil, Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.nary4_result', Idealize.ShloMosaic.StableHlo.nary_result', Idealize.ShloMosaic.StableHlo.unaryIndexed_result', Idealize.ShloMosaic.StableHlo.binaryIndexed_result', Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne', Idealize.ShloMosaic.StableHlo.nary_result_ne', Idealize.ShloMosaic.StableHlo.unaryIndexed_result_ne', Idealize.ShloMosaic.StableHlo.binaryIndexed_result_ne', Cert.KernelIdeal.RVal.W18_out', Cert.KernelIdeal.RVal.W18_ne', Cert.KernelIdeal.RVal.W20_out', Cert.KernelIdeal.RVal.W20_ne', Cert.KernelIdeal.RVal.W22_out', Cert.KernelIdeal.RVal.W22_ne', Cert.KernelIdeal.RVal.W24_out', Cert.KernelIdeal.RVal.W24_ne', Cert.KernelIdeal.RVal.W26_ne', Cert.KernelIdeal.RVal.W28_ne', Cert.KernelIdeal.RVal.W30_out', Cert.KernelIdeal.RVal.W30_ne', Cert.KernelIdeal.RVal.W32_out', Cert.KernelIdeal.RVal.W32_ne', Cert.KernelIdeal.RVal.W34_out', Cert.KernelIdeal.RVal.W34_ne', Cert.KernelIdeal.RVal.W36_out', Cert.KernelIdeal.RVal.W36_ne', Cert.KernelIdeal.RVal.W38_out', Cert.KernelIdeal.RVal.W38_ne', Cert.KernelIdeal.RVal.W40_out', Cert.KernelIdeal.RVal.W40_ne', Cert.KernelIdeal.RVal.row_main_v116, Cert.KernelIdeal.RVal.row_main_v117, Cert.KernelIdeal.RVal.row_main_v118, Cert.KernelIdeal.RVal.row_main_v120, Cert.KernelIdeal.RVal.row_main_v190, Cert.KernelIdeal.RVal.row_main_v191, Cert.KernelIdeal.RVal.row_main_v192, Cert.KernelIdeal.RVal.row_main_v194, Idealize.ShloMosaic.StableHlo.TRef.toBuf, Idealize.ShloMosaic.StableHlo.TRef.ofBuf, cast_eq, id_eq])

end Cert.KernelIdeal.RVal

end
-- ==== Proof.LayerOne.lean ====
/-
  The first layer's two outputs.

  After the first layer the word nodes' features are, in the reference's own words, the maximum with zero of the sum of
  three relations' contributions, each a degree-scaled scatter-add over the edges of the gathered rows of a matrix
  product, plus that relation's bias row; the document nodes' features are the same with one relation.  The two terms
  below are those expressions as the reference spells them, read at the kernel's argument arrays.  The kernel's fifth and
  sixth regions leave exactly these two arrays: reading the chain of boundary contents gives the same operations in the
  same order, the four transform regions being whole matrix products and the two combine regions the rectified sums.
-/
import proofs.«171965_j27676769256197_1_alg».proof.Proof.KernelRead
import proofs.«171965_j27676769256197_1_alg».proof.Proof.Gen.ReferenceIdeal

set_option maxRecDepth 16384

noncomputable section

namespace Cert.Bridge

open Cert.ReferenceIdeal Cert.ReferenceIdeal.Facts₀
open Idealize.ShloMosaic Idealize.ShloMosaic.TcCoe Idealize.ShloMosaic.Tactic
open Idealize.SL Idealize.SL.Sem

variable (m : (ℓ : Loc Cert.KernelIdeal.nD Cert.KernelIdeal.τ Cert.KernelIdeal.sig) → Buf (Elt Ideal) ℓ) (ρ : Dev Cert.KernelIdeal.nD → PrngReg)

/-- The word nodes' features after the first layer, as the reference spells them, at the kernel's arguments. -/
def wordFeatures1 (c : Dev Cert.KernelIdeal.nD) : FVec Ideal S50000x128 .f32 :=
  (maximumf (addf (addf (addf (mulf (Host.scatterAdd scatter_S50000x128_S500000x1_S500000x128_1_0_0_1 (broadcastInDim S50000x128 ![] bcast_S_S50000x128 (constant S_ .f32 0x00000000#32)) (broadcastInDim S500000x1 ![0] bcast_S500000_S500000x1_0 (m ((c.tc : Thread Cert.KernelIdeal.nD Cert.KernelIdeal.τ).loc Cert.KernelIdeal.main_arg3))) (Host.gather gather_S50000x128_S500000x1_S500000x128_1_0_n_n_0_1_1128 (Host.dotGeneral (φ₁ := .f32) (φ₂ := .f32) dot_S50000x256_S256x128_S50000x128_1_0_0_1_n_n none (mulf (m ((c.tc : Thread Cert.KernelIdeal.nD Cert.KernelIdeal.τ).loc Cert.KernelIdeal.main_arg0)) (broadcastInDim S50000x256 ![0, 1] bcast_S50000x1_S50000x256_0_1 (broadcastInDim S50000x1 ![0] bcast_S50000_S50000x1_0 (Host.rsqrt (maximumf (broadcastInDim S50000 ![] bcast_S_S50000 (id (constant S_ .f32 0x3F800000#32))) (Host.scatterAdd scatter_S50000_S500000x1_S500000_n_0_0_1 (broadcastInDim S50000 ![] bcast_S_S50000 (constant S_ .f32 0x00000000#32)) (broadcastInDim S500000x1 ![0] bcast_S500000_S500000x1_0 (m ((c.tc : Thread Cert.KernelIdeal.nD Cert.KernelIdeal.τ).loc Cert.KernelIdeal.main_arg2))) (broadcastInDim S500000 ![] bcast_S_S500000 (constant S_ .f32 0x3F800000#32)))))))) (m ((c.tc : Thread Cert.KernelIdeal.nD Cert.KernelIdeal.τ).loc Cert.KernelIdeal.main_arg10))) (broadcastInDim S500000x1 ![0] bcast_S500000_S500000x1_0 (select (cmpi .slt (m ((c.tc : Thread Cert.KernelIdeal.nD Cert.KernelIdeal.τ).loc Cert.KernelIdeal.main_arg2)) (broadcastInDim S500000 ![] bcast_S_S500000 (constantI S_ 32 0#32))) (addi (m ((c.tc : Thread Cert.KernelIdeal.nD Cert.KernelIdeal.τ).loc Cert.KernelIdeal.main_arg2)) (broadcastInDim S500000 ![] bcast_S_S500000 (constantI S_ 32 50000#32))) (m ((c.tc : Thread Cert.KernelIdeal.nD Cert.KernelIdeal.τ).loc Cert.KernelIdeal.main_arg2)))))) (broadcastInDim S50000x128 ![0, 1] bcast_S50000x1_S50000x128_0_1 (broadcastInDim S50000x1 ![0] bcast_S50000_S50000x1_0 (Host.rsqrt (maximumf (broadcastInDim S50000 ![] bcast_S_S50000 (id (constant S_ .f32 0x3F800000#32))) (Host.scatterAdd scatter_S50000_S500000x1_S500000_n_0_0_1 (broadcastInDim S50000 ![] bcast_S_S50000 (constant S_ .f32 0x00000000#32)) (broadcastInDim S500000x1 ![0] bcast_S500000_S500000x1_0 (m ((c.tc : Thread Cert.KernelIdeal.nD Cert.KernelIdeal.τ).loc Cert.KernelIdeal.main_arg3))) (broadcastInDim S500000 ![] bcast_S_S500000 (constant S_ .f32 0x3F800000#32)))))))) (broadcastInDim S50000x128 ![0, 1] bcast_S1x128_S50000x128_0_1 (broadcastInDim S1x128 ![1] bcast_S128_S1x128_1 (m ((c.tc : Thread Cert.KernelIdeal.nD Cert.KernelIdeal.τ).loc Cert.KernelIdeal.main_arg11))))) (addf (mulf (Host.scatterAdd scatter_S50000x128_S500000x1_S500000x128_1_0_0_1 (broadcastInDim S50000x128 ![] bcast_S_S50000x128 (constant S_ .f32 0x00000000#32)) (broadcastInDim S500000x1 ![0] bcast_S500000_S500000x1_0 (m ((c.tc : Thread Cert.KernelIdeal.nD Cert.KernelIdeal.τ).loc Cert.KernelIdeal.main_arg7))) (Host.gather gather_S50000x128_S500000x1_S500000x128_1_0_n_n_0_1_1128 (Host.dotGeneral (φ₁ := .f32) (φ₂ := .f32) dot_S50000x256_S256x128_S50000x128_1_0_0_1_n_n none (mulf (m ((c.tc : Thread Cert.KernelIdeal.nD Cert.KernelIdeal.τ).loc Cert.KernelIdeal.main_arg0)) (broadcastInDim S50000x256 ![0, 1] bcast_S50000x1_S50000x256_0_1 (broadcastInDim S50000x1 ![0] bcast_S50000_S50000x1_0 (Host.rsqrt (maximumf (broadcastInDim S50000 ![] bcast_S_S50000 (id (constant S_ .f32 0x3F800000#32))) (Host.scatterAdd scatter_S50000_S500000x1_S500000_n_0_0_1 (broadcastInDim S50000 ![] bcast_S_S50000 (constant S_ .f32 0x00000000#32)) (broadcastInDim S500000x1 ![0] bcast_S500000_S500000x1_0 (m ((c.tc : Thread Cert.KernelIdeal.nD Cert.KernelIdeal.τ).loc Cert.KernelIdeal.main_arg6))) (broadcastInDim S500000 ![] bcast_S_S500000 (constant S_ .f32 0x3F800000#32)))))))) (m ((c.tc : Thread Cert.KernelIdeal.nD Cert.KernelIdeal.τ).loc Cert.KernelIdeal.main_arg14))) (broadcastInDim S500000x1 ![0] bcast_S500000_S500000x1_0 (select (cmpi .slt (m ((c.tc : Thread Cert.KernelIdeal.nD Cert.KernelIdeal.τ).loc Cert.KernelIdeal.main_arg6)) (broadcastInDim S500000 ![] bcast_S_S500000 (constantI S_ 32 0#32))) (addi (m ((c.tc : Thread Cert.KernelIdeal.nD Cert.KernelIdeal.τ).loc Cert.KernelIdeal.main_arg6)) (broadcastInDim S500000 ![] bcast_S_S500000 (constantI S_ 32 50000#32))) (m ((c.tc : Thread Cert.KernelIdeal.nD Cert.KernelIdeal.τ).loc Cert.KernelIdeal.main_arg6)))))) (broadcastInDim S50000x128 ![0, 1] bcast_S50000x1_S50000x128_0_1 (broadcastInDim S50000x1 ![0] bcast_S50000_S50000x1_0 (Host.rsqrt (maximumf (broadcastInDim S50000 ![] bcast_S_S50000 (id (constant S_ .f32 0x3F800000#32))) (Host.scatterAdd scatter_S50000_S500000x1_S500000_n_0_0_1 (broadcastInDim S50000 ![] bcast_S_S50000 (constant S_ .f32 0x00000000#32)) (broadcastInDim S500000x1 ![0] bcast_S500000_S500000x1_0 (m ((c.tc : Thread Cert.KernelIdeal.nD Cert.KernelIdeal.τ).loc Cert.KernelIdeal.main_arg7))) (broadcastInDim S500000 ![] bcast_S_S500000 (constant S_ .f32 0x3F800000#32)))))))) (broadcastInDim S50000x128 ![0, 1] bcast_S1x128_S50000x128_0_1 (broadcastInDim S1x128 ![1] bcast_S128_S1x128_1 (m ((c.tc : Thread Cert.KernelIdeal.nD Cert.KernelIdeal.τ).loc Cert.KernelIdeal.main_arg15)))))) (addf (mulf (Host.scatterAdd scatter_S50000x128_S300000x1_S300000x128_1_0_0_1 (broadcastInDim S50000x128 ![] bcast_S_S50000x128 (constant S_ .f32 0x00000000#32)) (broadcastInDim S300000x1 ![0] bcast_S300000_S300000x1_0 (m ((c.tc : Thread Cert.KernelIdeal.nD Cert.KernelIdeal.τ).loc Cert.KernelIdeal.main_arg9))) (Host.gather gather_S20000x128_S300000x1_S300000x128_1_0_n_n_0_1_1128 (Host.dotGeneral (φ₁ := .f32) (φ₂ := .f32) dot_S20000x256_S256x128_S20000x128_1_0_0_1_n_n none (mulf (m ((c.tc : Thread Cert.KernelIdeal.nD Cert.KernelIdeal.τ).loc Cert.KernelIdeal.main_arg1)) (broadcastInDim S20000x256 ![0, 1] bcast_S20000x1_S20000x256_0_1 (broadcastInDim S20000x1 ![0] bcast_S20000_S20000x1_0 (Host.rsqrt (maximumf (broadcastInDim S20000 ![] bcast_S_S20000 (id (constant S_ .f32 0x3F800000#32))) (Host.scatterAdd scatter_S20000_S300000x1_S300000_n_0_0_1 (broadcastInDim S20000 ![] bcast_S_S20000 (constant S_ .f32 0x00000000#32)) (broadcastInDim S300000x1 ![0] bcast_S300000_S300000x1_0 (m ((c.tc : Thread Cert.KernelIdeal.nD Cert.KernelIdeal.τ).loc Cert.KernelIdeal.main_arg8))) (broadcastInDim S300000 ![] bcast_S_S300000 (constant S_ .f32 0x3F800000#32)))))))) (m ((c.tc : Thread Cert.KernelIdeal.nD Cert.KernelIdeal.τ).loc Cert.KernelIdeal.main_arg16))) (broadcastInDim S300000x1 ![0] bcast_S300000_S300000x1_0 (select (cmpi .slt (m ((c.tc : Thread Cert.KernelIdeal.nD Cert.KernelIdeal.τ).loc Cert.KernelIdeal.main_arg8)) (broadcastInDim S300000 ![] bcast_S_S300000 (constantI S_ 32 0#32))) (addi (m ((c.tc : Thread Cert.KernelIdeal.nD Cert.KernelIdeal.τ).loc Cert.KernelIdeal.main_arg8)) (broadcastInDim S300000 ![] bcast_S_S300000 (constantI S_ 32 20000#32))) (m ((c.tc : Thread Cert.KernelIdeal.nD Cert.KernelIdeal.τ).loc Cert.KernelIdeal.main_arg8)))))) (broadcastInDim S50000x128 ![0, 1] bcast_S50000x1_S50000x128_0_1 (broadcastInDim S50000x1 ![0] bcast_S50000_S50000x1_0 (Host.rsqrt (maximumf (broadcastInDim S50000 ![] bcast_S_S50000 (id (constant S_ .f32 0x3F800000#32))) (Host.scatterAdd scatter_S50000_S300000x1_S300000_n_0_0_1 (broadcastInDim S50000 ![] bcast_S_S50000 (constant S_ .f32 0x00000000#32)) (broadcastInDim S300000x1 ![0] bcast_S300000_S300000x1_0 (m ((c.tc : Thread Cert.KernelIdeal.nD Cert.KernelIdeal.τ).loc Cert.KernelIdeal.main_arg9))) (broadcastInDim S300000 ![] bcast_S_S300000 (constant S_ .f32 0x3F800000#32)))))))) (broadcastInDim S50000x128 ![0, 1] bcast_S1x128_S50000x128_0_1 (broadcastInDim S1x128 ![1] bcast_S128_S1x128_1 (m ((c.tc : Thread Cert.KernelIdeal.nD Cert.KernelIdeal.τ).loc Cert.KernelIdeal.main_arg17)))))) (broadcastInDim S50000x128 ![] bcast_S_S50000x128 (constant S_ .f32 0x00000000#32)))

/-- The document nodes' features after the first layer, as the reference spells them, at the kernel's arguments. -/
def docFeatures1 (c : Dev Cert.KernelIdeal.nD) : FVec Ideal S20000x128 .f32 :=
  (maximumf (addf (mulf (Host.scatterAdd scatter_S20000x128_S300000x1_S300000x128_1_0_0_1 (broadcastInDim S20000x128 ![] bcast_S_S20000x128 (constant S_ .f32 0x00000000#32)) (broadcastInDim S300000x1 ![0] bcast_S300000_S300000x1_0 (m ((c.tc : Thread Cert.KernelIdeal.nD Cert.KernelIdeal.τ).loc Cert.KernelIdeal.main_arg5))) (Host.gather gather_S50000x128_S300000x1_S300000x128_1_0_n_n_0_1_1128 (Host.dotGeneral (φ₁ := .f32) (φ₂ := .f32) dot_S50000x256_S256x128_S50000x128_1_0_0_1_n_n none (mulf (m ((c.tc : Thread Cert.KernelIdeal.nD Cert.KernelIdeal.τ).loc Cert.KernelIdeal.main_arg0)) (broadcastInDim S50000x256 ![0, 1] bcast_S50000x1_S50000x256_0_1 (broadcastInDim S50000x1 ![0] bcast_S50000_S50000x1_0 (Host.rsqrt (maximumf (broadcastInDim S50000 ![] bcast_S_S50000 (id (constant S_ .f32 0x3F800000#32))) (Host.scatterAdd scatter_S50000_S300000x1_S300000_n_0_0_1 (broadcastInDim S50000 ![] bcast_S_S50000 (constant S_ .f32 0x00000000#32)) (broadcastInDim S300000x1 ![0] bcast_S300000_S300000x1_0 (m ((c.tc : Thread Cert.KernelIdeal.nD Cert.KernelIdeal.τ).loc Cert.KernelIdeal.main_arg4))) (broadcastInDim S300000 ![] bcast_S_S300000 (constant S_ .f32 0x3F800000#32)))))))) (m ((c.tc : Thread Cert.KernelIdeal.nD Cert.KernelIdeal.τ).loc Cert.KernelIdeal.main_arg12))) (broadcastInDim S300000x1 ![0] bcast_S300000_S300000x1_0 (select (cmpi .slt (m ((c.tc : Thread Cert.KernelIdeal.nD Cert.KernelIdeal.τ).loc Cert.KernelIdeal.main_arg4)) (broadcastInDim S300000 ![] bcast_S_S300000 (constantI S_ 32 0#32))) (addi (m ((c.tc : Thread Cert.KernelIdeal.nD Cert.KernelIdeal.τ).loc Cert.KernelIdeal.main_arg4)) (broadcastInDim S300000 ![] bcast_S_S300000 (constantI S_ 32 50000#32))) (m ((c.tc : Thread Cert.KernelIdeal.nD Cert.KernelIdeal.τ).loc Cert.KernelIdeal.main_arg4)))))) (broadcastInDim S20000x128 ![0, 1] bcast_S20000x1_S20000x128_0_1 (broadcastInDim S20000x1 ![0] bcast_S20000_S20000x1_0 (Host.rsqrt (maximumf (broadcastInDim S20000 ![] bcast_S_S20000 (id (constant S_ .f32 0x3F800000#32))) (Host.scatterAdd scatter_S20000_S300000x1_S300000_n_0_0_1 (broadcastInDim S20000 ![] bcast_S_S20000 (constant S_ .f32 0x00000000#32)) (broadcastInDim S300000x1 ![0] bcast_S300000_S300000x1_0 (m ((c.tc : Thread Cert.KernelIdeal.nD Cert.KernelIdeal.τ).loc Cert.KernelIdeal.main_arg5))) (broadcastInDim S300000 ![] bcast_S_S300000 (constant S_ .f32 0x3F800000#32)))))))) (broadcastInDim S20000x128 ![0, 1] bcast_S1x128_S20000x128_0_1 (broadcastInDim S1x128 ![1] bcast_S128_S1x128_1 (m ((c.tc : Thread Cert.KernelIdeal.nD Cert.KernelIdeal.τ).loc Cert.KernelIdeal.main_arg13))))) (broadcastInDim S20000x128 ![] bcast_S_S20000x128 (constant S_ .f32 0x00000000#32)))

set_option maxHeartbeats 0 in
theorem wordFeatures1_eq (c : Dev Cert.KernelIdeal.nD) :
    (Cert.KernelIdeal.Gen.W26 m ρ c (Proc.devRef .tc Cert.KernelIdeal.main_v119) : FVec Ideal S50000x128 .f32) = wordFeatures1 m c := by
  unfold wordFeatures1
  kernel_read
  rfl

set_option maxHeartbeats 0 in
theorem docFeatures1_eq (c : Dev Cert.KernelIdeal.nD) :
    (Cert.KernelIdeal.Gen.W28 m ρ c (Proc.devRef .tc Cert.KernelIdeal.main_v121) : FVec Ideal S20000x128 .f32) = docFeatures1 m c := by
  unfold docFeatures1
  kernel_read
  rfl

end Cert.Bridge

end
-- ==== Proof.KernelValueW.lean ====
/-
  The idealized kernel's two results are the reference's two results.

  Read through the chain of boundary contents, each result buffer of the kernel is one expression of the launch
  contents of the argument arrays: the eight degree vectors (a scatter-add of ones, clipped below at one, the reciprocal
  square root), and per layer and relation the source features scaled by the source degrees, multiplied by the weight
  matrix (a grid region: the whole matrix product), gathered along the edges, scatter-added at the destinations and
  scaled by the destination degrees; the relations' contributions and bias rows summed and rectified (a grid region:
  the host's rectified sum); and after two layers the linear read-out and the logistic function.  The reference computes
  the same operations in the same order from its own arguments, so when the two programs' argument arrays agree the
  two expressions are the same term: nothing is left to prove beyond what the region lemmas say (a tiled product is
  the whole product; a left-to-right sum is the grouped sum), and that a bias vector reshaped to one row is the vector
  with a leading unit axis.
-/
import proofs.«171965_j27676769256197_1_alg».proof.Proof.KernelRead
import proofs.«171965_j27676769256197_1_alg».proof.Proof.LayerOne
import proofs.«171965_j27676769256197_1_alg».proof.Proof.RefRunP

set_option maxRecDepth 16384

noncomputable section

namespace Cert.KernelIdeal.RVal

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

set_option maxHeartbeats 0 in
/-- The word nodes' result. -/
theorem out0_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19))
    (h20 : m' ((c.tc : Thread Cert.ReferenceIdeal.nD Cert.ReferenceIdeal.τ).loc Cert.ReferenceIdeal.main_arg20) = m ((c.tc : Thread nD τ).loc main_arg20))
    (h21 : m' ((c.tc : Thread Cert.ReferenceIdeal.nD Cert.ReferenceIdeal.τ).loc Cert.ReferenceIdeal.main_arg21) = m ((c.tc : Thread nD τ).loc main_arg21))
    (h22 : m' ((c.tc : Thread Cert.ReferenceIdeal.nD Cert.ReferenceIdeal.τ).loc Cert.ReferenceIdeal.main_arg22) = m ((c.tc : Thread nD τ).loc main_arg22))
    (h23 : m' ((c.tc : Thread Cert.ReferenceIdeal.nD Cert.ReferenceIdeal.τ).loc Cert.ReferenceIdeal.main_arg23) = m ((c.tc : Thread nD τ).loc main_arg23))
    (h24 : m' ((c.tc : Thread Cert.ReferenceIdeal.nD Cert.ReferenceIdeal.τ).loc Cert.ReferenceIdeal.main_arg24) = m ((c.tc : Thread nD τ).loc main_arg24))
    (h25 : m' ((c.tc : Thread Cert.ReferenceIdeal.nD Cert.ReferenceIdeal.τ).loc Cert.ReferenceIdeal.main_arg25) = m ((c.tc : Thread nD τ).loc main_arg25))
    (h26 : m' ((c.tc : Thread Cert.ReferenceIdeal.nD Cert.ReferenceIdeal.τ).loc Cert.ReferenceIdeal.main_arg26) = m ((c.tc : Thread nD τ).loc main_arg26))
    (h27 : m' ((c.tc : Thread Cert.ReferenceIdeal.nD Cert.ReferenceIdeal.τ).loc Cert.ReferenceIdeal.main_arg27) = m ((c.tc : Thread nD τ).loc main_arg27)) :
    W41 m ρ c (Proc.devRef .tc main_v205) = Cert.ReferenceIdeal.ValueP.res_main_v265 m' c := by
  unfold Cert.ReferenceIdeal.ValueP.res_main_v265
  simp only [h0, h1, h2, h3, h4, h5, h6, h7, h8, h9, h10, h11, h12, h13, h14, h15, h16, h17, h18, h19, h20, h21, h22, h23, h24, h25, h26, h27]
  kernel_read_layer2
  simp only [Cert.Bridge.wordFeatures1_eq m ρ c, Cert.Bridge.docFeatures1_eq m ρ c]
  rfl

end Cert.KernelIdeal.RVal

end
-- ==== Proof.KernelValueD.lean ====
/-
  The idealized kernel's two results are the reference's two results.

  Read through the chain of boundary contents, each result buffer of the kernel is one expression of the launch
  contents of the argument arrays: the eight degree vectors (a scatter-add of ones, clipped below at one, the reciprocal
  square root), and per layer and relation the source features scaled by the source degrees, multiplied by the weight
  matrix (a grid region: the whole matrix product), gathered along the edges, scatter-added at the destinations and
  scaled by the destination degrees; the relations' contributions and bias rows summed and rectified (a grid region:
  the host's rectified sum); and after two layers the linear read-out and the logistic function.  The reference computes
  the same operations in the same order from its own arguments, so when the two programs' argument arrays agree the
  two expressions are the same term: nothing is left to prove beyond what the region lemmas say (a tiled product is
  the whole product; a left-to-right sum is the grouped sum), and that a bias vector reshaped to one row is the vector
  with a leading unit axis.
-/
import proofs.«171965_j27676769256197_1_alg».proof.Proof.KernelRead
import proofs.«171965_j27676769256197_1_alg».proof.Proof.LayerOne
import proofs.«171965_j27676769256197_1_alg».proof.Proof.RefRunP

set_option maxRecDepth 16384

noncomputable section

namespace Cert.KernelIdeal.RVal

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

set_option maxHeartbeats 0 in
/-- The document nodes' result. -/
theorem out1_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19))
    (h20 : m' ((c.tc : Thread Cert.ReferenceIdeal.nD Cert.ReferenceIdeal.τ).loc Cert.ReferenceIdeal.main_arg20) = m ((c.tc : Thread nD τ).loc main_arg20))
    (h21 : m' ((c.tc : Thread Cert.ReferenceIdeal.nD Cert.ReferenceIdeal.τ).loc Cert.ReferenceIdeal.main_arg21) = m ((c.tc : Thread nD τ).loc main_arg21))
    (h22 : m' ((c.tc : Thread Cert.ReferenceIdeal.nD Cert.ReferenceIdeal.τ).loc Cert.ReferenceIdeal.main_arg22) = m ((c.tc : Thread nD τ).loc main_arg22))
    (h23 : m' ((c.tc : Thread Cert.ReferenceIdeal.nD Cert.ReferenceIdeal.τ).loc Cert.ReferenceIdeal.main_arg23) = m ((c.tc : Thread nD τ).loc main_arg23))
    (h24 : m' ((c.tc : Thread Cert.ReferenceIdeal.nD Cert.ReferenceIdeal.τ).loc Cert.ReferenceIdeal.main_arg24) = m ((c.tc : Thread nD τ).loc main_arg24))
    (h25 : m' ((c.tc : Thread Cert.ReferenceIdeal.nD Cert.ReferenceIdeal.τ).loc Cert.ReferenceIdeal.main_arg25) = m ((c.tc : Thread nD τ).loc main_arg25))
    (h26 : m' ((c.tc : Thread Cert.ReferenceIdeal.nD Cert.ReferenceIdeal.τ).loc Cert.ReferenceIdeal.main_arg26) = m ((c.tc : Thread nD τ).loc main_arg26))
    (h27 : m' ((c.tc : Thread Cert.ReferenceIdeal.nD Cert.ReferenceIdeal.τ).loc Cert.ReferenceIdeal.main_arg27) = m ((c.tc : Thread nD τ).loc main_arg27)) :
    W41 m ρ c (Proc.devRef .tc main_v215) = Cert.ReferenceIdeal.ValueP.res_main_v275 m' c := by
  unfold Cert.ReferenceIdeal.ValueP.res_main_v275
  simp only [h0, h1, h2, h3, h4, h5, h6, h7, h8, h9, h10, h11, h12, h13, h14, h15, h16, h17, h18, h19, h20, h21, h22, h23, h24, h25, h26, h27]
  kernel_read_layer2
  simp only [Cert.Bridge.wordFeatures1_eq m ρ c, Cert.Bridge.docFeatures1_eq m ρ c]
  rfl

end Cert.KernelIdeal.RVal

end
-- ==== Proof.lean ====
/-
  The certificate of the two-layer multi-relation graph convolution (word and document nodes, four relations per layer):
  the kernel computes each relation's feature transform x · W as a grid of 5000-row matrix products and each destination
  type's sum of contributions, bias and rectifier as a grid of 5000-row pointwise blocks, with the degree vectors, the
  edge gather and scatter-add and the logistic read-out on the host; the reference computes everything on the host.

  On the extended reals the two programs compute the same two arrays from the same arguments.  The tiled products are the
  whole products (row blocks tile the rows; each entry is the same sum over the contracted index), the cast to bfloat16
  is the identity, the kernel's left-to-right sum of the three contributions and three bias rows is the host's grouped
  sum by associativity of addition (no finiteness is needed, so the precondition is never opened), and every other
  operation is the same host operation applied to the same operands.  The ideal pass rewrote nothing in the kernel, so
  the idealization claim is trivial; the three frame claims are the generated frames, the reference's being its run
  with the results dropped.
-/
import proofs.«171965_j27676769256197_1_alg».proof.Defs
import proofs.«171965_j27676769256197_1_alg».proof.Proof.Gen.Kernel
import proofs.«171965_j27676769256197_1_alg».proof.Proof.Gen.Kernel.Frame
import proofs.«171965_j27676769256197_1_alg».proof.Proof.Gen.KernelIdeal
import proofs.«171965_j27676769256197_1_alg».proof.Proof.Gen.KernelIdeal.Frame
import proofs.«171965_j27676769256197_1_alg».proof.Proof.Gen.ReferenceIdeal
import proofs.«171965_j27676769256197_1_alg».proof.Proof.Gen.Pre_finite_inputs
import proofs.«171965_j27676769256197_1_alg».proof.Proof.KernelRun
import proofs.«171965_j27676769256197_1_alg».proof.Proof.RefRunP
import proofs.«171965_j27676769256197_1_alg».proof.Proof.KernelValueW
import proofs.«171965_j27676769256197_1_alg».proof.Proof.KernelValueD
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation of the kernel: nothing to state. -/
theorem preserves : Cert.preserves_Kernel_KernelIdeal := trivial

/-- Both idealized programs run; the kernel's two result arrays end at the last boundary's contents, which are the
    reference's two result terms of the agreeing arguments. -/
theorem algebraic : Cert.algebraic_KernelIdeal_ReferenceIdeal := by
  intro m ρ m' ρ' _ hagree
  refine ⟨fun c => Cert.KernelIdeal.Gen.W41 m ρ c (Proc.devRef .tc Cert.KernelIdeal.main_v205),
    fun c => Cert.KernelIdeal.Gen.W41 m ρ c (Proc.devRef .tc Cert.KernelIdeal.main_v215),
    Cert.KernelIdeal.Run.run_results m ρ, ?_⟩
  refine (θ_run Cert.ReferenceIdeal.defs _ _).mono (fun _ h c => ?_) (Cert.ReferenceIdeal.ValueP.run (F := Ideal) m' ρ')
  obtain ⟨h0, h1, h2, h3, h4, h5, h6, h7, h8, h9, h10, h11, h12, h13, h14, h15, h16, h17, h18, h19, h20, h21, h22, h23, h24, h25, h26, h27⟩ := hagree c
  exact ⟨(h c).1.trans (Cert.KernelIdeal.RVal.out0_eq m ρ m' c h0 h1 h2 h3 h4 h5 h6 h7 h8 h9 h10 h11 h12 h13 h14 h15 h16 h17 h18 h19 h20 h21 h22 h23 h24 h25 h26 h27).symm,
    (h c).2.1.trans (Cert.KernelIdeal.RVal.out1_eq m ρ m' c h0 h1 h2 h3 h4 h5 h6 h7 h8 h9 h10 h11 h12 h13 h14 h15 h16 h17 h18 h19 h20 h21 h22 h23 h24 h25 h26 h27).symm,
    (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
